-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16x512 : Shape := ⟨3, ![4096, 16, 512]⟩
abbrev S4096x16x16 : Shape := ⟨3, ![4096, 16, 16]⟩
abbrev S512x512 : Shape := ⟨2, ![512, 512]⟩
abbrev S128x512 : Shape := ⟨2, ![128, 512]⟩
abbrev S128 : Shape := ⟨1, ![128]⟩
abbrev S512 : Shape := ⟨1, ![512]⟩
abbrev S_ : Shape := ⟨0, ![]⟩

class Facts : Prop where
  bcast_S_S4096x16x512 : S_.BroadcastsInDim S4096x16x512 (![] : Fin 0 → Fin S4096x16x512.rank)
  reducesTo_S4096x16x512_S_d0_1_2 : S4096x16x512.ReducesTo [0, 1, 2] S_
  h_S_ : 0 < S_.numel
  bcast_S_S4096x16x16 : S_.BroadcastsInDim S4096x16x16 (![] : Fin 0 → Fin S4096x16x16.rank)
  reducesTo_S4096x16x16_S_d0_1_2 : S4096x16x16.ReducesTo [0, 1, 2] S_
  bcast_S_S512x512 : S_.BroadcastsInDim S512x512 (![] : Fin 0 → Fin S512x512.rank)
  reducesTo_S512x512_S_d0_1 : S512x512.ReducesTo [0, 1] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_arg8 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S128 .f32) (main_arg5 : FVec F S128x512 .f32) (main_arg6 : FVec F S128 .f32) (main_arg7 : FVec F S512 .f32) (main_arg8 : FVec F S512 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x512 .f32 := Host.absf main_arg5
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S4096x16x512 .f32) (main_arg1 : FVec F S4096x16x16 .f32) (main_arg2 : FVec F S512x512 .f32) (main_arg3 : FVec F S128x512 .f32) (main_arg4 : FVec F S128 .f32) (main_arg5 : FVec F S128x512 .f32) (main_arg6 : FVec F S128 .f32) (main_arg7 : FVec F S512 .f32) (main_arg8 : FVec F S512 .f32) : IVec S_ 1 :=
  let main_v0 : FVec F S4096x16x512 .f32 := Host.absf main_arg0
  let main_cst : FVec F S_ .f32 := constant S_ .f32 0x7F800000#32
  let main_v1 : FVec F S4096x16x512 .f32 := broadcastInDim S4096x16x512 ![] bcast_S_S4096x16x512 main_cst
  let main_v2 : IVec S4096x16x512 1 := cmpf .olt main_v0 main_v1
  let main_c : IVec S_ 1 := constantI S_ 1 1#1
  let main_v3 : IVec S_ 1 := (fun x v => Host.reduce IntOp.andi x v reducesTo_S4096x16x512_S_d0_1_2 h_S_) main_v2 main_c
  let main_v4 : FVec F S4096x16x16 .f32 := Host.absf main_arg1
  let main_cst_0 : FVec F S_ .f32 := constant S_ .f32 0x7F800000#32
  let main_v5 : FVec F S4096x16x16 .f32 := broadcastInDim S4096x16x16 ![] bcast_S_S4096x16x16 main_cst_0
  let main_v6 : IVec S4096x16x16 1 := cmpf .olt main_v4 main_v5
  let main_c_1 : IVec S_ 1 := constantI S_ 1 1#1
  let main_v7 : IVec S_ 1 := (fun x v => Host.reduce IntOp.andi x v reducesTo_S4096x16x16_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_arg6 main_arg7 main_arg8 main_v13 main_v16
-- ==== Kernel.lean ====
abbrev S4096x16x512 : Shape := ⟨3, ![4096, 16, 512]⟩
abbrev S4096x16x16 : Shape := ⟨3, ![4096, 16, 16]⟩
abbrev S512x512 : Shape := ⟨2, ![512, 512]⟩
abbrev S128x512 : Shape := ⟨2, ![128, 512]⟩
abbrev S128 : Shape := ⟨1, ![128]⟩
abbrev S512 : Shape := ⟨1, ![512]⟩
abbrev S32x8x512 : Shape := ⟨3, ![32, 8, 512]⟩
abbrev S128x16x512 : Shape := ⟨3, ![128, 16, 512]⟩
abbrev S128x16x16 : Shape := ⟨3, ![128, 16, 16]⟩
abbrev S1x8x512 : Shape := ⟨3, ![1, 8, 512]⟩
abbrev S2048x512 : Shape := ⟨2, ![2048, 512]⟩
abbrev S512x128 : Shape := ⟨2, ![512, 128]⟩
abbrev S2048x128 : Shape := ⟨2, ![2048, 128]⟩
abbrev S1x128 : Shape := ⟨2, ![1, 128]⟩
abbrev S128x16x128 : Shape := ⟨3, ![128, 16, 128]⟩
abbrev S128x16 : Shape := ⟨2, ![128, 16]⟩
abbrev S128x16x1 : Shape := ⟨3, ![128, 16, 1]⟩
abbrev S1x512 : Shape := ⟨2, ![1, 512]⟩
abbrev S8x512 : Shape := ⟨2, ![8, 512]⟩
abbrev S_ : Shape := ⟨0, ![]⟩
abbrev S1x1x512 : Shape := ⟨3, ![1, 1, 512]⟩

abbrev nBuf : Space → Nat
  | .hbm => 34
  | .vmem => 26
  | .smem => 0
  | _ => 0

abbrev bufTy : (tb : Table) → Fin (tcTables nBuf tb) → BufTy
  | .hbm, ⟨0, _⟩ => ⟨S4096x16x512, .f32⟩
  | .hbm, ⟨1, _⟩ => ⟨S4096x16x16, .f32⟩
  | .hbm, ⟨2, _⟩ => ⟨S512x512, .f32⟩
  | .hbm, ⟨3, _⟩ => ⟨S128x512, .f32⟩
  | .hbm, ⟨4, _⟩ => ⟨S128, .f32⟩
  | .hbm, ⟨5, _⟩ => ⟨S128x512, .f32⟩
  | .hbm, ⟨6, _⟩ => ⟨S128, .f32⟩
  | .hbm, ⟨7, _⟩ => ⟨S512, .f32⟩
  | .hbm, ⟨8, _⟩ => ⟨S512, .f32⟩
  | .hbm, ⟨9, _⟩ => ⟨S32x8x512, .f32⟩
  | .hbm, ⟨10, _⟩ => ⟨S32x8x512, .f32⟩
  | .hbm, ⟨11, _⟩ => ⟨S_, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S512, .f32⟩
  | .hbm, ⟨33, _⟩ => ⟨S4096x16x512, .f32⟩
  | .local _ .vmem, ⟨0, _⟩ => ⟨S128x16x512, .f32⟩
  | .local _ .vmem, ⟨1, _⟩ => ⟨S128x16x512, .f32⟩
  | .local _ .vmem, ⟨2, _⟩ => ⟨S128x16x16, .f32⟩
  | .local _ .vmem, ⟨3, _⟩ => ⟨S128x16x16, .f32⟩
  | .local _ .vmem, ⟨4, _⟩ => ⟨S512x512, .f32⟩
  | .local _ .vmem, ⟨5, _⟩ => ⟨S128x512, .f32⟩
  | .local _ .vmem, ⟨6, _⟩ => ⟨S128x512, .f32⟩
  | .local _ .vmem, ⟨7, _⟩ => ⟨S128, .f32⟩
  | .local _ .vmem, ⟨8, _⟩ => ⟨S128, .f32⟩
  | .local _ .vmem, ⟨9, _⟩ => ⟨S1x8x512, .f32⟩
  | .local _ .vmem, ⟨10, _⟩ => ⟨S1x8x512, .f32⟩
  | .local _ .vmem, ⟨11, _⟩ => ⟨S1x8x512, .f32⟩
  | .local _ .vmem, ⟨12, _⟩ => ⟨S1x8x512, .f32⟩
  | .local _ .vmem, ⟨13, _⟩ => ⟨S128x16x512, .f32⟩
  | .local _ .vmem, ⟨14, _⟩ => ⟨S128x16x512, .f32⟩
  | .local _ .vmem, ⟨15, _⟩ => ⟨S128x16x16, .f32⟩
  | .local _ .vmem, ⟨16, _⟩ => ⟨S128x16x16, .f32⟩
  | .local _ .vmem, ⟨17, _⟩ => ⟨S512x512, .f32⟩
  | .local _ .vmem, ⟨18, _⟩ => ⟨S128x512, .f32⟩
  | .local _ .vmem, ⟨19, _⟩ => ⟨S128x512, .f32⟩
  | .local _ .vmem, ⟨20, _⟩ => ⟨S128, .f32⟩
  | .local _ .vmem, ⟨21, _⟩ => ⟨S128, .f32⟩
  | .local _ .vmem, ⟨22, _⟩ => ⟨S512, .f32⟩
  | .local _ .vmem, ⟨23, _⟩ => ⟨S512, .f32⟩
  | .local _ .vmem, ⟨24, _⟩ => ⟨S128x16x512, .f32⟩
  | .local _ .vmem, ⟨25, _⟩ => ⟨S128x16x512, .f32⟩
  | _, _ => ⟨S4096x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x16x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S128x16x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  inb_S128x16x512_S128x16x512_0_0_0 : ∀ a, (![0, 0, 0] : Fin 3 → Nat) a + S128x16x512.size a ≤ S128x16x512.size a
  h_S128x16x512 : 0 < S128x16x512.numel
  inb_S128x16x16_S128x16x16_0_0_0 : ∀ a, (![0, 0, 0] : Fin 3 → Nat) a + S128x16x16.size a ≤ S128x16x16.size a
  h_S128x16x16 : 0 < S128x16x16.numel
  shapeCasts_S128x16x512_S2048x512 : S128x16x512.ShapeCasts S2048x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  transposes_S512x512_p1_0_S512x512 : S512x512.Transposes [1, 0] S512x512
  inb_S128x512_S128x512_0_0 : ∀ a, (![0, 0] : Fin 2 → Nat) a + S128x512.size a ≤ S128x512.size a
  h_S128x512 : 0 < S128x512.numel
  inb_S128_S128_0 : ∀ a, (![0] : Fin 1 → Nat) a + S128.size a ≤ S128.size a
  h_S128 : 0 < S128.numel
  transposes_S128x512_p1_0_S512x128 : S128x512.Transposes [1, 0] S512x128
  shapeCasts_S128_S1x128 : S128.ShapeCasts S1x128
  broadcasts_S1x128_S2048x128 : S1x128.Broadcasts S2048x128
  shapeCasts_S2048x512_S128x16x512 : S2048x512.ShapeCasts S128x16x512
  shapeCasts_S2048x128_S128x16x128 : S2048x128.ShapeCasts S128x16x128
  reduces_S128x16x16_S128x16 : S128x16x16.Reduces [2] S128x16
  shapeCasts_S128x16_S128x16x1 : S128x16.ShapeCasts S128x16x1
  broadcasts_S128x16x1_S128x16x16 : S128x16x1.Broadcasts S128x16x16
  reduces_S2048x512_S512 : S2048x512.Reduces [0] S512
  shapeCasts_S512_S1x512 : S512.ShapeCasts S1x512
  broadcasts_S1x512_S8x512 : S1x512.Broadcasts S8x512
  shapeCasts_S8x512_S1x8x512 : S8x512.ShapeCasts S1x8x512
  inb_S1x8x512_S1x8x512_0_0_0 : ∀ a, (![0, 0, 0] : Fin 3 → Nat) a + S1x8x512.size a ≤ S1x8x512.size a
  h_S1x8x512 : 0 < S1x8x512.numel
  reducesTo_S32x8x512_S512_d0_1 : S32x8x512.ReducesTo [0, 1] S512
  h_S_ : 0 < S_.numel
  bcast_S_S512 : S_.BroadcastsInDim S512 (![] : Fin 0 → Fin S512.rank)
  inb_S512_S512_0 : ∀ a, (![0] : Fin 1 → Nat) a + S512.size a ≤ S512.size a
  h_S512 : 0 < S512.numel
  shapeCasts_S512_S512 : S512.ShapeCasts S512
  shapeCasts_S512_S1x1x512 : S512.ShapeCasts S1x1x512
  broadcasts_S1x1x512_S128x16x512 : S1x1x512.Broadcasts S128x16x512
  dot_S2048x512_S512x512_S2048x512_1_0_0_1_n_n_wf : DotDims.WF S2048x512 S512x512 S2048x512 [1] [0] [0] [1] [] []
  dot_S2048x512_S512x128_S2048x128_1_0_0_1_n_n_wf : DotDims.WF S2048x512 S512x128 S2048x128 [1] [0] [0] [1] [] []
  dot_S128x16x128_S128x16x128_S128x16x16_2_2_1_1_0_0_wf : DotDims.WF S128x16x128 S128x16x128 S128x16x16 [2] [2] [1] [1] [0] [0]
  dot_S128x16x16_S128x16x512_S128x16x512_2_1_1_2_0_0_wf : DotDims.WF S128x16x16 S128x16x512 S128x16x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16x512.size a ≤ S4096x16x512.size a
  hwx0_0 : ∀ i : grid0.Coords, EltTy.bits .f32 = 32 ∨ (Rect.block (s := S4096x16x512) S128x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16x16.size a ≤ S4096x16x16.size a
  hwx0_1 : ∀ i : grid0.Coords, EltTy.bits .f32 = 32 ∨ (Rect.block (s := S4096x16x16) S128x16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x512.size a ≤ S32x8x512.size a
  hwx0_7 : ∀ i : grid0.Coords, EltTy.bits .f32 = 32 ∨ (Rect.block (s := S32x8x512) S1x8x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x512.size a ≤ S32x8x512.size a
  hwx0_8 : ∀ i : grid0.Coords, EltTy.bits .f32 = 32 ∨ (Rect.block (s := S32x8x512) S1x8x512.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16x512.size a ≤ S4096x16x512.size a
  hwx1_0 : ∀ i : grid1.Coords, EltTy.bits .f32 = 32 ∨ (Rect.block (s := S4096x16x512) S128x16x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x16x16.size a ≤ S4096x16x16.size a
  hwx1_1 : ∀ i : grid1.Coords, EltTy.bits .f32 = 32 ∨ (Rect.block (s := S4096x16x16) S128x16x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x512.size a ≤ S128x512.size a
  hwx1_3 : ∀ i : grid1.Coords, EltTy.bits .f32 = 32 ∨ (Rect.block (s := S128x512) S128x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x512.size a ≤ S128x512.size a
  hwx1_4 : ∀ i : grid1.Coords, EltTy.bits .f32 = 32 ∨ (Rect.block (s := S128x512) S128x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512.size a ≤ S512.size a
  hwx1_7 : ∀ i : grid1.Coords, EltTy.bits .f32 = 32 ∨ (Rect.block (s := S512) S512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512.size a ≤ S512.size a
  hwx1_8 : ∀ i : grid1.Coords, EltTy.bits .f32 = 32 ∨ (Rect.block (s := S512) S512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S128x16x512.size a ≤ S4096x16x512.size a
  hwx1_9 : ∀ i : grid1.Coords, EltTy.bits .f32 = 32 ∨ (Rect.block (s := S4096x16x512) S128x16x512.size (cc1_transform_9 i) (hinb1_9 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S128x16x128_S128x16x128_S128x16x16_2_2_1_1_0_0 : DotDims S128x16x128 S128x16x128 S128x16x16 where
  lhsContracting := [2]
  rhsContracting := [2]
  lhsNonContracting := [1]
  rhsNonContracting := [1]
  lhsBatch := [0]
  rhsBatch := [0]
  wf := dot_S128x16x128_S128x16x128_S128x16x16_2_2_1_1_0_0_wf
def dot_S128x16x16_S128x16x512_S128x16x512_2_1_1_2_0_0 : DotDims S128x16x16 S128x16x512 S128x16x512 where
  lhsContracting := [2]
  rhsContracting := [1]
  lhsNonContracting := [1]
  rhsNonContracting := [2]
  lhsBatch := [0]
  rhsBatch := [0]
  wf := dot_S128x16x16_S128x16x512_S128x16x512_2_1_1_2_0_0_wf

abbrev win0_0 : Pipeline.Window sig grid0 :=
  Pipeline.Window.ofSpec (Memref.whole main_arg0) S128x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1x8x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1x8x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S128x16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x16x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16) S512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v17) S128x16x512.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S4096x16x512 : Shape := ⟨3, ![4096, 16, 512]⟩
abbrev S4096x16x16 : Shape := ⟨3, ![4096, 16, 16]⟩
abbrev S512x512 : Shape := ⟨2, ![512, 512]⟩
abbrev S128x512 : Shape := ⟨2, ![128, 512]⟩
abbrev S128 : Shape := ⟨1, ![128]⟩
abbrev S512 : Shape := ⟨1, ![512]⟩
abbrev S_ : Shape := ⟨0, ![]⟩
abbrev S4096x16 : Shape := ⟨2, ![4096, 16]⟩
abbrev S4096x16x1 : Shape := ⟨3, ![4096, 16, 1]⟩
abbrev S4096x16x128 : Shape := ⟨3, ![4096, 16, 128]⟩
abbrev S1x1x128 : Shape := ⟨3, ![1, 1, 128]⟩
abbrev S65536x512 : Shape := ⟨2, ![65536, 512]⟩
abbrev S1x512 : Shape := ⟨2, ![1, 512]⟩

abbrev nBuf : Space → Nat
  | .hbm => 89
  | .vmem => 0
  | .smem => 0
  | _ => 0

abbrev bufTy : (tb : Table) → Fin (tcTables nBuf tb) → BufTy
  | .hbm, ⟨0, _⟩ => ⟨S4096x16x512, .f32⟩
  | .hbm, ⟨1, _⟩ => ⟨S4096x16x16, .f32⟩
  | .hbm, ⟨2, _⟩ => ⟨S512x512, .f32⟩
  | .hbm, ⟨3, _⟩ => ⟨S128x512, .f32⟩
  | .hbm, ⟨4, _⟩ => ⟨S128, .f32⟩
  | .hbm, ⟨5, _⟩ => ⟨S128x512, .f32⟩
  | .hbm, ⟨6, _⟩ => ⟨S128, .f32⟩
  | .hbm, ⟨7, _⟩ => ⟨S512, .f32⟩
  | .hbm, ⟨8, _⟩ => ⟨S512, .f32⟩
  | .hbm, ⟨9, _⟩ => ⟨S4096x16x512, .f32⟩
  | .hbm, ⟨10, _⟩ => ⟨S4096x16x16, .f32⟩
  | .hbm, ⟨11, _⟩ => ⟨S_, .f32⟩
  | .hbm, ⟨12, _⟩ => ⟨S4096x16, .f32⟩
  | .hbm, ⟨13, _⟩ => ⟨S4096x16x1, .f32⟩
  | .hbm, ⟨14, _⟩ => ⟨S_, .f32⟩
  | .hbm, ⟨15, _⟩ => ⟨S4096x16x1, .f32⟩
  | .hbm, ⟨16, _⟩ => ⟨S4096x16x1, .f32⟩
  | .hbm, ⟨17, _⟩ => ⟨S4096x16x16, .f32⟩
  | .hbm, ⟨18, _⟩ => ⟨S4096x16x16, .f32⟩
  | .hbm, ⟨19, _⟩ => ⟨S4096x16x128, .f32⟩
  | .hbm, ⟨20, _⟩ => ⟨S1x1x128, .f32⟩
  | .hbm, ⟨21, _⟩ => ⟨S4096x16x128, .f32⟩
  | .hbm, ⟨22, _⟩ => ⟨S4096x16x128, .f32⟩
  | .hbm, ⟨23, _⟩ => ⟨S4096x16x128, .f32⟩
  | .hbm, ⟨24, _⟩ => ⟨S1x1x128, .f32⟩
  | .hbm, ⟨25, _⟩ => ⟨S4096x16x128, .f32⟩
  | .hbm, ⟨26, _⟩ => ⟨S4096x16x128, .f32⟩
  | .hbm, ⟨27, _⟩ => ⟨S4096x16x16, .f32⟩
  | .hbm, ⟨28, _⟩ => ⟨S_, .f32⟩
  | .hbm, ⟨29, _⟩ => ⟨S4096x16, .f32⟩
  | .hbm, ⟨30, _⟩ => ⟨S_, .f32⟩
  | .hbm, ⟨31, _⟩ => ⟨S4096x16, .f32⟩
  | .hbm, ⟨32, _⟩ => ⟨S4096x16, .f32⟩
  | .hbm, ⟨33, _⟩ => ⟨S4096x16x1, .f32⟩
  | .hbm, ⟨34, _⟩ => ⟨S4096x16x16, .f32⟩
  | .hbm, ⟨35, _⟩ => ⟨S4096x16x16, .f32⟩
  | .hbm, ⟨36, _⟩ => ⟨S4096x16x16, .f32⟩
  | .hbm, ⟨37, _⟩ => ⟨S_, .f32⟩
  | .hbm, ⟨38, _⟩ => ⟨S4096x16, .f32⟩
  | .hbm, ⟨39, _⟩ => ⟨S4096x16x1, .f32⟩
  | .hbm, ⟨40, _⟩ => ⟨S4096x16x16, .f32⟩
  | .hbm, ⟨41, _⟩ => ⟨S4096x16x16, .f32⟩
  | .hbm, ⟨42, _⟩ => ⟨S_, .f32⟩
  | .hbm, ⟨43, _⟩ => ⟨S4096x16x16, .f32⟩
  | .hbm, ⟨44, _⟩ => ⟨S4096x16x16, .f32⟩
  | .hbm, ⟨45, _⟩ => ⟨S4096x16x16, .f32⟩
  | .hbm, ⟨46, _⟩ => ⟨S_, .f32⟩
  | .hbm, ⟨47, _⟩ => ⟨S4096x16x16, .f32⟩
  | .hbm, ⟨48, _⟩ => ⟨S4096x16x16, .f32⟩
  | .hbm, ⟨49, _⟩ => ⟨S4096x16x512, .f32⟩
  | .hbm, ⟨50, _⟩ => ⟨S_, .f32⟩
  | .hbm, ⟨51, _⟩ => ⟨S4096x16x512, .f32⟩
  | .hbm, ⟨52, _⟩ => ⟨S4096x16x512, .f32⟩
  | .hbm, ⟨53, _⟩ => ⟨S65536x512, .f32⟩
  | .hbm, ⟨54, _⟩ => ⟨S_, .f32⟩
  | .hbm, ⟨55, _⟩ => ⟨S512, .f32⟩
  | .hbm, ⟨56, _⟩ => ⟨S_, .f32⟩
  | .hbm, ⟨57, _⟩ => ⟨S512, .f32⟩
  | .hbm, ⟨58, _⟩ => ⟨S512, .f32⟩
  | .hbm, ⟨59, _⟩ => ⟨S1x512, .f32⟩
  | .hbm, ⟨60, _⟩ => ⟨S65536x512, .f32⟩
  | .hbm, ⟨61, _⟩ => ⟨S65536x512, .f32⟩
  | .hbm, ⟨62, _⟩ => ⟨S65536x512, .f32⟩
  | .hbm, ⟨63, _⟩ => ⟨S_, .f32⟩
  | .hbm, ⟨64, _⟩ => ⟨S512, .f32⟩
  | .hbm, ⟨65, _⟩ => ⟨S_, .f32⟩
  | .hbm, ⟨66, _⟩ => ⟨S512, .f32⟩
  | .hbm, ⟨67, _⟩ => ⟨S512, .f32⟩
  | .hbm, ⟨68, _⟩ => ⟨S1x512, .f32⟩
  | .hbm, ⟨69, _⟩ => ⟨S65536x512, .f32⟩
  | .hbm, ⟨70, _⟩ => ⟨S65536x512, .f32⟩
  | .hbm, ⟨71, _⟩ => ⟨S_, .f32⟩
  | .hbm, ⟨72, _⟩ => ⟨S512, .f32⟩
  | .hbm, ⟨73, _⟩ => ⟨S512, .f32⟩
  | .hbm, ⟨74, _⟩ => ⟨S512, .f32⟩
  | .hbm, ⟨75, _⟩ => ⟨S1x512, .f32⟩
  | .hbm, ⟨76, _⟩ => ⟨S65536x512, .f32⟩
  | .hbm, ⟨77, _⟩ => ⟨S65536x512, .f32⟩
  | .hbm, ⟨78, _⟩ => ⟨S1x512, .f32⟩
  | .hbm, ⟨79, _⟩ => ⟨S65536x512, .f32⟩
  | .hbm, ⟨80, _⟩ => ⟨S65536x512, .f32⟩
  | .hbm, ⟨81, _⟩ => ⟨S1x512, .f32⟩
  | .hbm, ⟨82, _⟩ => ⟨S65536x512, .f32⟩
  | .hbm, ⟨83, _⟩ => ⟨S65536x512, .f32⟩
  | .hbm, ⟨84, _⟩ => ⟨S4096x16x512, .f32⟩
  | .hbm, ⟨85, _⟩ => ⟨S_, .f32⟩
  | .hbm, ⟨86, _⟩ => ⟨S4096x16x512, .f32⟩
  | .hbm, ⟨87, _⟩ => ⟨S4096x16x512, .f32⟩
  | .hbm, ⟨88, _⟩ => ⟨S4096x16x512, .f32⟩
  | _, _ => ⟨S4096x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_cst : Ref sig .tc := ⟨.hbm, 50, rfl⟩
abbrev main_call0_v0 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  reducesTo_S4096x16x16_S4096x16_d2 : S4096x16x16.ReducesTo [2] S4096x16
  h_S_ : 0 < S_.numel
  bcast_S4096x16_S4096x16x1_0_1 : S4096x16.BroadcastsInDim S4096x16x1 (![0, 1] : Fin 2 → Fin S4096x16x1.rank)
  bcast_S_S4096x16x1 : S_.BroadcastsInDim S4096x16x1 (![] : Fin 0 → Fin S4096x16x1.rank)
  bcast_S4096x16x1_S4096x16x16_0_1_2 : S4096x16x1.BroadcastsInDim S4096x16x16 (![0, 1, 2] : Fin 3 → Fin S4096x16x16.rank)
  bcast_S128_S1x1x128_2 : S128.BroadcastsInDim S1x1x128 (![2] : Fin 1 → Fin S1x1x128.rank)
  bcast_S1x1x128_S4096x16x128_0_1_2 : S1x1x128.BroadcastsInDim S4096x16x128 (![0, 1, 2] : Fin 3 → Fin S4096x16x128.rank)
  bcast_S_S4096x16 : S_.BroadcastsInDim S4096x16 (![] : Fin 0 → Fin S4096x16.rank)
  bcast_S_S4096x16x16 : S_.BroadcastsInDim S4096x16x16 (![] : Fin 0 → Fin S4096x16x16.rank)
  bcast_S_S4096x16x512 : S_.BroadcastsInDim S4096x16x512 (![] : Fin 0 → Fin S4096x16x512.rank)
  shapeCasts_S4096x16x512_S65536x512 : S4096x16x512.ShapeCasts S65536x512
  reducesTo_S65536x512_S512_d0 : S65536x512.ReducesTo [0] S512
  bcast_S_S512 : S_.BroadcastsInDim S512 (![] : Fin 0 → Fin S512.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  shapeCasts_S65536x512_S4096x16x512 : S65536x512.ShapeCasts S4096x16x512
  dot_S4096x16x512_S512x512_S4096x16x512_2_1_01_0_n_n_wf : DotDims.WF S4096x16x512 S512x512 S4096x16x512 [2] [1] [0, 1] [0] [] []
  dot_S4096x16x512_S128x512_S4096x16x128_2_1_01_0_n_n_wf : DotDims.WF S4096x16x512 S128x512 S4096x16x128 [2] [1] [0, 1] [0] [] []
  dot_S4096x16x128_S4096x16x128_S4096x16x16_2_2_1_1_0_0_wf : DotDims.WF S4096x16x128 S4096x16x128 S4096x16x16 [2] [2] [1] [1] [0] [0]
  dot_S4096x16x16_S4096x16x512_S4096x16x512_2_1_1_2_0_0_wf : DotDims.WF S4096x16x16 S4096x16x512 S4096x16x512 [2] [1] [1] [2] [0] [0]

variable [Facts₀]

def dot_S4096x16x512_S512x512_S4096x16x512_2_1_01_0_n_n : DotDims S4096x16x512 S512x512 S4096x16x512 where
  lhsContracting := [2]
  rhsContracting := [1]
  lhsNonContracting := [0, 1]
  rhsNonContracting := [0]
  lhsBatch := []
  rhsBatch := []
  wf := dot_S4096x16x512_S512x512_S4096x16x512_2_1_01_0_n_n_wf
def dot_S4096x16x512_S128x512_S4096x16x128_2_1_01_0_n_n : DotDims S4096x16x512 S128x512 S4096x16x128 where
  lhsContracting := [2]
  rhsContracting := [1]
  lhsNonContracting := [0, 1]
  rhsNonContracting := [0]
  lhsBatch := []
  rhsBatch := []
  wf := dot_S4096x16x512_S128x512_S4096x16x128_2_1_01_0_n_n_wf
def dot_S4096x16x128_S4096x16x128_S4096x16x16_2_2_1_1_0_0 : DotDims S4096x16x128 S4096x16x128 S4096x16x16 where
  lhsContracting := [2]
  rhsContracting := [2]
  lhsNonContracting := [1]
  rhsNonContracting := [1]
  lhsBatch := [0]
  rhsBatch := [0]
  wf := dot_S4096x16x128_S4096x16x128_S4096x16x16_2_2_1_1_0_0_wf
def dot_S4096x16x16_S4096x16x512_S4096x16x512_2_1_1_2_0_0 : DotDims S4096x16x16 S4096x16x512 S4096x16x512 where
  lhsContracting := [2]
  rhsContracting := [1]
  lhsNonContracting := [1]
  rhsNonContracting := [2]
  lhsBatch := [0]
  rhsBatch := [0]
  wf := dot_S4096x16x16_S4096x16x512_S4096x16x512_2_1_1_2_0_0_wf

class Facts : Prop extends Facts₀ where

variable [Facts]
-- ==== Proof.Spec.lean ====
import Idealize.ShloMosaic.PureOps.Ideal
import Idealize.ShloMosaic.Lib.ValueIdx

/-!
# The common specification

A graph-attention layer followed by a batch normalisation over all graphs and nodes, written once over the extended
reals and indexed by plain coordinates: 4096 graphs of 16 nodes with 512 channels.

For one graph with node features `xr` (16 × 512) and adjacency `ar` (16 × 16):
* `lin`: the linear map `h = xr · Wᵀ`;
* `proj`: a projection `h · Wpᵀ + bp` (queries and keys);
* `score`: `q · kᵀ`; `rowMax`, `expo`: the shifted exponentials of a softmax row;
* `adjN`: the adjacency row divided by the larger of its absolute row sum and a small positive constant;
* `hpFrom`: `relu (((adjN + 1 · softmax) · ½) · h)`, from `h` and the shifted exponentials;
* `hpRow`: the same as a function of the graph's own rows only.

Then two ways of normalising `hp` per channel over all 65536 rows:
* `outK`: from per-block partial sums of `hp` and `hp²` (32 blocks of 2048 rows, each partial sum stored eight times
  scaled by ⅛), variance as `max (E[hp²] − mean², 0)`, and the affine form `hp · scale + shift`;
* `outR`: mean and variance as `E[(hp − mean)²]` over all rows at once, and `(hp − mean) · invstd · g + b`.
They agree when every entry of `hp`, `g`, `b` is a real number (`outK_eq_outR`, proved in the algebra module).
-/

noncomputable section

open scoped BigOperators

namespace Cert.Spec

open Idealize.ShloMosaic Idealize.ShloMosaic.ValueIdx

/-! ## The constants, as the extended reals their patterns denote -/

abbrev negInf : EReal := Ideal.ofBits .f32 0xFF800000#32
abbrev zero : EReal := Ideal.ofBits .f32 0x00000000#32
abbrev one : EReal := Ideal.ofBits .f32 0x3F800000#32
abbrev half : EReal := Ideal.ofBits .f32 0x3F000000#32
abbrev two : EReal := Ideal.ofBits .f32 0x40000000#32
abbrev eighth : EReal := Ideal.ofBits .f32 0x3E000000#32
abbrev eps12 : EReal := Ideal.ofBits .f32 0x2B8CBCCC#32
abbrev eps5 : EReal := Ideal.ofBits .f32 0x3727C5AC#32
abbrev cnt : EReal := Ideal.ofBits .f32 0x47800000#32

/-! ## Arrays by coordinates -/

/-- A rank-3 array read by its three coordinates. -/
def cur3 {n0 n1 n2 : Nat} (a : (⟨3, ![n0, n1, n2]⟩ : Shape).Idx → EReal) : Fin n0 → Fin n1 → Fin n2 → EReal :=
  fun i j k => a (ix3 i j k)
/-- A rank-2 array read by its two coordinates. -/
def cur2 {n0 n1 : Nat} (a : (⟨2, ![n0, n1]⟩ : Shape).Idx → EReal) : Fin n0 → Fin n1 → EReal :=
  fun i j => a (ix2 i j)
/-- A rank-1 array read by its coordinate. -/
def cur1 {n0 : Nat} (a : (⟨1, ![n0]⟩ : Shape).Idx → EReal) : Fin n0 → EReal :=
  fun i => a (ix1 i)

/-! ## Rows of a block and of the whole batch -/

/-- Row `r` of a block of 128 graphs flattened to 2048 rows belongs to graph `r / 16` of the block … -/
def gOf (r : Fin 2048) : Fin 128 := ⟨r.val / 16, by have := r.isLt; omega⟩
/-- … and is its node `r % 16`. -/
def nOf (r : Fin 2048) : Fin 16 := ⟨r.val % 16, Nat.mod_lt _ (by decide)⟩
/-- Row `r` of all 4096 graphs flattened to 65536 rows belongs to graph `r / 16` … -/
def gOfAll (r : Fin 65536) : Fin 4096 := ⟨r.val / 16, by have := r.isLt; omega⟩
/-- … and is its node `r % 16`. -/
def nOfAll (r : Fin 65536) : Fin 16 := ⟨r.val % 16, Nat.mod_lt _ (by decide)⟩
/-- Graph `n` of block `b` is graph `128 b + n` of the batch. -/
def rowOf (b : Fin 32) (n : Fin 128) : Fin 4096 := ⟨128 * b.val + n.val, by have := b.isLt; have := n.isLt; omega⟩

/-! ## One graph -/

section Graph

variable (W : Fin 512 → Fin 512 → EReal) (Wq : Fin 128 → Fin 512 → EReal) (bq : Fin 128 → EReal)
  (Wk : Fin 128 → Fin 512 → EReal) (bk : Fin 128 → EReal)

/-- `h = xr · Wᵀ`. -/
def lin (xr : Fin 16 → Fin 512 → EReal) (v : Fin 16) (o : Fin 512) : EReal :=
  ∑ c : Fin 512, xr v c * W o c

/-- A projection of `h` with bias: `h · Wpᵀ + bp`. -/
def proj (Wp : Fin 128 → Fin 512 → EReal) (bp : Fin 128 → EReal) (h : Fin 16 → Fin 512 → EReal)
    (v : Fin 16) (j : Fin 128) : EReal :=
  (∑ o : Fin 512, h v o * Wp j o) + bp j

/-- Attention scores `q · kᵀ`. -/
def score (q k : Fin 16 → Fin 128 → EReal) (v w : Fin 16) : EReal :=
  ∑ j : Fin 128, q v j * k w j

/-- The maximum of a score row, folded from −∞ (and once more against −∞, as both programs spell it). -/
def rowMax (s : Fin 16 → Fin 16 → EReal) (v : Fin 16) : EReal :=
  max negInf ((Finset.univ : Finset (Fin 16)).fold max negInf (fun w => s v w))

/-- The shifted exponentials of a softmax row. -/
def expo (s : Fin 16 → Fin 16 → EReal) (v w : Fin 16) : EReal :=
  Ideal.exp (s v w - rowMax s v)

/-- The L1-normalised adjacency row: divided by `max (∑ |·|) ε`. -/
def adjN (ar : Fin 16 → Fin 16 → EReal) (v w : Fin 16) : EReal :=
  Ideal.div (ar v w) (max (∑ w' : Fin 16, max (ar v w') (-(ar v w'))) eps12)

/-- The mixed graph `(adjN + 1 · softmax) · ½` from the shifted exponentials `e`. -/
def mix (ar e : Fin 16 → Fin 16 → EReal) (v w : Fin 16) : EReal :=
  (adjN ar v w + one * Ideal.div (e v w) (∑ w' : Fin 16, e v w')) * half

/-- Message passing and relu, from `h` and the shifted exponentials. -/
def hpFrom (ar : Fin 16 → Fin 16 → EReal) (h : Fin 16 → Fin 512 → EReal) (e : Fin 16 → Fin 16 → EReal)
    (v : Fin 16) (c : Fin 512) : EReal :=
  max (∑ w : Fin 16, mix ar e v w * h w c) zero

/-- The shifted exponentials of one graph, from its own features. -/
def expoRow (xr : Fin 16 → Fin 512 → EReal) : Fin 16 → Fin 16 → EReal :=
  expo (score (proj Wq bq (lin W xr)) (proj Wk bk (lin W xr)))

/-- The layer's output before normalisation, for one graph, from its own rows. -/
def hpRow (xr : Fin 16 → Fin 512 → EReal) (ar : Fin 16 → Fin 16 → EReal) : Fin 16 → Fin 512 → EReal :=
  hpFrom ar (lin W xr) (expoRow W Wq bq Wk bk xr)

/-- … and for every graph of the batch. -/
def hpAll (x : Fin 4096 → Fin 16 → Fin 512 → EReal) (adj : Fin 4096 → Fin 16 → Fin 16 → EReal) :
    Fin 4096 → Fin 16 → Fin 512 → EReal :=
  fun n => hpRow W Wq bq Wk bk (x n) (adj n)

end Graph

/-! ## The normalisation, two ways -/

section Norm

variable (hp : Fin 4096 → Fin 16 → Fin 512 → EReal)

/-- Block `b`'s partial sum of channel `c`, scaled by ⅛ (it is stored in eight rows). -/
def partK (b : Fin 32) (c : Fin 512) : EReal :=
  (∑ r : Fin 2048, hp (rowOf b (gOf r)) (nOf r) c) * eighth
/-- Block `b`'s partial sum of squares of channel `c`, scaled by ⅛. -/
def partSqK (b : Fin 32) (c : Fin 512) : EReal :=
  (∑ r : Fin 2048, hp (rowOf b (gOf r)) (nOf r) c * hp (rowOf b (gOf r)) (nOf r) c) * eighth

/-- The sum over all blocks and all eight stored rows. -/
def sumK (c : Fin 512) : EReal := zero + ∑ b : Fin 32, ∑ _j : Fin 8, partK hp b c
def sqK (c : Fin 512) : EReal := zero + ∑ b : Fin 32, ∑ _j : Fin 8, partSqK hp b c
def meanK (c : Fin 512) : EReal := Ideal.div (sumK hp c) cnt
def varK (c : Fin 512) : EReal := max (Ideal.div (sqK hp c) cnt - meanK hp c * meanK hp c) zero
def scaleK (g : Fin 512 → EReal) (c : Fin 512) : EReal := g c * Ideal.rsqrt (varK hp c + eps5)
def shiftK (g b : Fin 512 → EReal) (c : Fin 512) : EReal := b c - meanK hp c * scaleK hp g c
/-- The two-pass form: `x + 1 · (hp · scale + shift)`. -/
def outK (x : Fin 4096 → Fin 16 → Fin 512 → EReal) (g b : Fin 512 → EReal) (n : Fin 4096) (v : Fin 16) (c : Fin 512) : EReal :=
  x n v c + one * (hp n v c * scaleK hp g c + shiftK hp g b c)

def sumR (c : Fin 512) : EReal := zero + ∑ r : Fin 65536, hp (gOfAll r) (nOfAll r) c
def meanR (c : Fin 512) : EReal := Ideal.div (sumR hp c) cnt
def varR (c : Fin 512) : EReal :=
  Ideal.div (zero + ∑ r : Fin 65536, (hp (gOfAll r) (nOfAll r) c - meanR hp c) * (hp (gOfAll r) (nOfAll r) c - meanR hp c)) cnt
/-- The direct form: `x + 1 · ((hp − mean) · invstd · g + b)`. -/
def outR (x : Fin 4096 → Fin 16 → Fin 512 → EReal) (g b : Fin 512 → EReal) (n : Fin 4096) (v : Fin 16) (c : Fin 512) : EReal :=
  x n v c + one * ((hp n v c - meanR hp c) * Ideal.rsqrt (varR hp c + eps5) * g c + b c)

end Norm

/-- An extended real that is a real number. -/
def IsReal (x : EReal) : Prop := ∃ r : ℝ, x = (r : EReal)

end Cert.Spec

end
-- ==== Proof.Consts.lean ====
import proofs.«175194_j59081570125129_2_alg».proof.Proof.Spec

/-! The float constants of the two programs as the extended reals their patterns denote. -/

noncomputable section

namespace Cert.Consts

open Idealize.ShloMosaic Cert.Spec

theorem negInf_eq : negInf = ⊥ := by
  simp [negInf, Ideal.ofBits, Ideal.ieee]
theorem zero_eq : zero = 0 := by
  simp [zero, Ideal.ofBits, Ideal.ieee]
theorem one_eq : one = 1 := by
  simp [one, Ideal.ofBits, Ideal.ieee, -EReal.coe_mul]; norm_num
theorem half_eq : half = (((1 : ℝ) / 2 : ℝ) : EReal) := by
  simp [half, Ideal.ofBits, Ideal.ieee, -EReal.coe_mul]; norm_num
theorem two_eq : two = ((2 : ℝ) : EReal) := by
  simp [two, Ideal.ofBits, Ideal.ieee, -EReal.coe_mul]; norm_num
theorem eighth_eq : eighth = (((1 : ℝ) / 8 : ℝ) : EReal) := by
  simp [eighth, Ideal.ofBits, Ideal.ieee, -EReal.coe_mul]; norm_num
theorem cnt_eq : cnt = ((65536 : ℝ) : EReal) := by
  simp [cnt, Ideal.ofBits, Ideal.ieee, -EReal.coe_mul]; norm_num
/-- The pattern is the normal number `(2^23 + 834764) · 2^(87 − 127 − 23)`. -/
theorem eps12_pos : ∃ e : ℝ, 0 < e ∧ eps12 = (e : EReal) := by
  refine ⟨(9223372 : ℝ) * (2 : ℝ) ^ (-63 : Int), by positivity, ?_⟩
  simp [eps12, Ideal.ofBits, Ideal.ieee, -EReal.coe_mul]
/-- The pattern is the normal number `(2^23 + 2606508) · 2^(110 − 127 − 23)`. -/
theorem eps5_pos : ∃ e : ℝ, 0 < e ∧ eps5 = (e : EReal) := by
  refine ⟨(10995116 : ℝ) * (2 : ℝ) ^ (-40 : Int), by positivity, ?_⟩
  simp [eps5, Ideal.ofBits, Ideal.ieee, -EReal.coe_mul]
/-- Dividing by two is multiplying by a half, on every extended real. -/
theorem div_two (y : EReal) : Ideal.div y two = y * half := by
  rw [two_eq, half_eq]
  exact Ideal.div_coe (by norm_num) y

end Cert.Consts

end
-- ==== Proof.Algebra.lean ====
import proofs.«175194_j59081570125129_2_alg».proof.Proof.Spec
import proofs.«175194_j59081570125129_2_alg».proof.Proof.Consts

/-! The two normalisations agree on real entries. -/

noncomputable section

namespace Cert.Algebra

open Idealize.ShloMosaic Cert.Spec

open scoped BigOperators

/-- The coercion of the reals into the extended reals commutes with finite sums. -/
private theorem alg_coe_sum {ι : Type} (s : Finset ι) (f : ι → ℝ) :
    ((∑ i ∈ s, f i : ℝ) : EReal) = ∑ i ∈ s, (f i : EReal) := by
  classical
  refine Finset.induction_on s (by simp) ?_
  intro i s hi ih
  rw [Finset.sum_insert hi, Finset.sum_insert hi, EReal.coe_add, ih]

/-- Summing block by block (32 blocks of 2048 rows, row `r` of block `b` being row `2048 b + r` of the batch) is
    summing over all 65536 rows. -/
private theorem alg_reindex (f : Fin 4096 → Fin 16 → ℝ) :
    ∑ b : Fin 32, ∑ r : Fin 2048, f (rowOf b (gOf r)) (nOf r) = ∑ r' : Fin 65536, f (gOfAll r') (nOfAll r') := by
  rw [← Fintype.sum_prod_type' (f := fun (b : Fin 32) (r : Fin 2048) => f (rowOf b (gOf r)) (nOf r))]
  refine Fintype.sum_equiv (finProdFinEquiv (m := 32) (n := 2048)) _ _ ?_
  rintro ⟨b, r⟩
  have h1 : gOfAll (finProdFinEquiv (m := 32) (n := 2048) (b, r)) = rowOf b (gOf r) := by
    apply Fin.ext
    simp only [gOfAll, rowOf, gOf, finProdFinEquiv, Equiv.coe_fn_mk]
    omega
  have h2 : nOfAll (finProdFinEquiv (m := 32) (n := 2048) (b, r)) = nOf r := by
    apply Fin.ext
    simp only [nOfAll, nOf, finProdFinEquiv, Equiv.coe_fn_mk]
    omega
  show f (rowOf b (gOf r)) (nOf r) = f (gOfAll (finProdFinEquiv (b, r))) (nOfAll (finProdFinEquiv (b, r)))
  rw [h1, h2]

/-- The stored partial sums — each block's sum eight times over, scaled by an eighth — add up to the sum over all
    rows. -/
private theorem alg_sumK (f : Fin 4096 → Fin 16 → ℝ) :
    zero + ∑ b : Fin 32, ∑ _j : Fin 8, (∑ r : Fin 2048, (f (rowOf b (gOf r)) (nOf r) : EReal)) * eighth
      = ((∑ r' : Fin 65536, f (gOfAll r') (nOfAll r') : ℝ) : EReal) := by
  have hb : ∀ b : Fin 32,
      (∑ _j : Fin 8, (∑ r : Fin 2048, (f (rowOf b (gOf r)) (nOf r) : EReal)) * eighth)
        = ((∑ r : Fin 2048, f (rowOf b (gOf r)) (nOf r) : ℝ) : EReal) := by
    intro b
    rw [Consts.eighth_eq, ← alg_coe_sum, ← EReal.coe_mul, ← alg_coe_sum]
    congr 1
    rw [Finset.sum_const, Finset.card_univ, Fintype.card_fin, nsmul_eq_mul]
    push_cast
    ring
  rw [Consts.zero_eq, zero_add, Finset.sum_congr rfl (fun b _ => hb b), ← alg_coe_sum, alg_reindex]

/-- The mean of the squares less the square of the mean is the mean squared deviation, over 65536 values. -/
private theorem alg_var (u : Fin 65536 → ℝ) :
    (∑ r, u r * u r) * (1 / 65536) - ((∑ r, u r) * (1 / 65536)) * ((∑ r, u r) * (1 / 65536))
      = (∑ r, (u r - (∑ r, u r) * (1 / 65536)) * (u r - (∑ r, u r) * (1 / 65536))) * (1 / 65536) := by
  generalize hμ : (∑ r, u r) * (1 / 65536 : ℝ) = μ
  have hS : (∑ r, u r) = 65536 * μ := by rw [← hμ]; ring
  have h : ∀ r, (u r - μ) * (u r - μ) = u r * u r - 2 * μ * u r + μ * μ := fun r => by ring
  simp only [h, Finset.sum_add_distrib, Finset.sum_sub_distrib, ← Finset.mul_sum, Finset.sum_const,
    Finset.card_univ, Fintype.card_fin, nsmul_eq_mul, hS]
  push_cast
  ring

/-- The mean of channel `c` over all rows, for real entries `a`. -/
private def alg_mu (a : Fin 4096 → Fin 16 → Fin 512 → ℝ) (c : Fin 512) : ℝ :=
  (∑ r : Fin 65536, a (gOfAll r) (nOfAll r) c) * (1 / 65536)

/-- The mean squared deviation of channel `c` over all rows, for real entries `a`. -/
private def alg_V (a : Fin 4096 → Fin 16 → Fin 512 → ℝ) (c : Fin 512) : ℝ :=
  (∑ r : Fin 65536, (a (gOfAll r) (nOfAll r) c - alg_mu a c) * (a (gOfAll r) (nOfAll r) c - alg_mu a c)) * (1 / 65536)

private theorem alg_V_nonneg (a : Fin 4096 → Fin 16 → Fin 512 → ℝ) (c : Fin 512) : 0 ≤ alg_V a c :=
  mul_nonneg (Finset.sum_nonneg fun _ _ => mul_self_nonneg _) (by norm_num)

private theorem alg_sumK_eq (a : Fin 4096 → Fin 16 → Fin 512 → ℝ) (c : Fin 512) :
    sumK (fun n v c => (a n v c : EReal)) c = ((∑ r : Fin 65536, a (gOfAll r) (nOfAll r) c : ℝ) : EReal) :=
  alg_sumK (fun n v => a n v c)

private theorem alg_sqK_eq (a : Fin 4096 → Fin 16 → Fin 512 → ℝ) (c : Fin 512) :
    sqK (fun n v c => (a n v c : EReal)) c
      = ((∑ r : Fin 65536, a (gOfAll r) (nOfAll r) c * a (gOfAll r) (nOfAll r) c : ℝ) : EReal) := by
  have h := alg_sumK (fun n v => a n v c * a n v c)
  simp only [EReal.coe_mul] at h
  exact h

private theorem alg_meanK_eq (a : Fin 4096 → Fin 16 → Fin 512 → ℝ) (c : Fin 512) :
    meanK (fun n v c => (a n v c : EReal)) c = (alg_mu a c : EReal) := by
  unfold meanK alg_mu
  rw [alg_sumK_eq, Consts.cnt_eq, Ideal.div_coe (by norm_num), ← EReal.coe_mul]

private theorem alg_meanR_eq (a : Fin 4096 → Fin 16 → Fin 512 → ℝ) (c : Fin 512) :
    meanR (fun n v c => (a n v c : EReal)) c = (alg_mu a c : EReal) := by
  simp only [meanR, sumR, alg_mu]
  rw [Consts.zero_eq, zero_add, ← alg_coe_sum, Consts.cnt_eq, Ideal.div_coe (by norm_num), ← EReal.coe_mul]

private theorem alg_varR_eq (a : Fin 4096 → Fin 16 → Fin 512 → ℝ) (c : Fin 512) :
    varR (fun n v c => (a n v c : EReal)) c = (alg_V a c : EReal) := by
  unfold varR
  rw [alg_meanR_eq]
  simp only [← EReal.coe_sub, ← EReal.coe_mul]
  rw [Consts.zero_eq, zero_add, ← alg_coe_sum, Consts.cnt_eq, Ideal.div_coe (by norm_num), ← EReal.coe_mul]
  rfl

private theorem alg_varK_eq (a : Fin 4096 → Fin 16 → Fin 512 → ℝ) (c : Fin 512) :
    varK (fun n v c => (a n v c : EReal)) c = (alg_V a c : EReal) := by
  unfold varK
  rw [alg_sqK_eq, alg_meanK_eq, Consts.cnt_eq, Ideal.div_coe (by norm_num), ← EReal.coe_mul, ← EReal.coe_mul,
    ← EReal.coe_sub, Consts.zero_eq]
  have ht : (∑ r : Fin 65536, a (gOfAll r) (nOfAll r) c * a (gOfAll r) (nOfAll r) c) * (1 / 65536)
      - alg_mu a c * alg_mu a c = alg_V a c := alg_var (fun r => a (gOfAll r) (nOfAll r) c)
  rw [ht, max_eq_left (EReal.coe_nonneg.mpr (alg_V_nonneg a c))]

theorem outK_eq_outR (hp : Fin 4096 → Fin 16 → Fin 512 → EReal) (x : Fin 4096 → Fin 16 → Fin 512 → EReal)
    (g b : Fin 512 → EReal) (hhp : ∀ n v c, IsReal (hp n v c)) (hg : ∀ c, IsReal (g c)) (hb : ∀ c, IsReal (b c))
    (n : Fin 4096) (v : Fin 16) (c : Fin 512) :
    outK hp x g b n v c = outR hp x g b n v c := by
  choose a ha using hhp
  choose γ hγ using hg
  choose β hβ using hb
  obtain rfl : hp = fun n v c => (a n v c : EReal) := by funext n v c; exact ha n v c
  obtain rfl : g = fun c => (γ c : EReal) := funext hγ
  obtain rfl : b = fun c => (β c : EReal) := funext hβ
  obtain ⟨e, he0, he⟩ := Consts.eps5_pos
  have hpos : 0 < alg_V a c + e := add_pos_of_nonneg_of_pos (alg_V_nonneg a c) he0
  have hρ : Ideal.rsqrt ((alg_V a c : EReal) + eps5) = (((Real.sqrt (alg_V a c + e))⁻¹ : ℝ) : EReal) := by
    rw [he, ← EReal.coe_add, Ideal.rsqrt_coe, if_neg (not_lt.mpr hpos.le), if_neg hpos.ne']
  unfold outK outR shiftK scaleK
  rw [alg_varK_eq, alg_varR_eq, alg_meanK_eq, alg_meanR_eq, hρ]
  refine congrArg (fun t => x n v c + one * t) ?_
  simp only [← EReal.coe_mul, ← EReal.coe_add, ← EReal.coe_sub]
  refine congrArg (fun t : ℝ => (t : EReal)) ?_
  ring

end Cert.Algebra

end
-- ==== Proof.Finite.lean ====
import proofs.«175194_j59081570125129_2_alg».proof.Proof.Spec
import proofs.«175194_j59081570125129_2_alg».proof.Proof.Consts

/-! Real inputs give a real layer output. -/

noncomputable section

namespace Cert.Finite

open Idealize.ShloMosaic Cert.Spec
open scoped BigOperators

/-- A positive real number among the extended reals. -/
private def FinPos (x : EReal) : Prop := ∃ r : ℝ, 0 < r ∧ x = (r : EReal)

private theorem fin_zero : IsReal (0 : EReal) := ⟨0, rfl⟩

private theorem fin_add {x y : EReal} (hx : IsReal x) (hy : IsReal y) : IsReal (x + y) := by
  obtain ⟨a, rfl⟩ := hx; obtain ⟨b, rfl⟩ := hy; exact ⟨a + b, (EReal.coe_add a b).symm⟩

private theorem fin_mul {x y : EReal} (hx : IsReal x) (hy : IsReal y) : IsReal (x * y) := by
  obtain ⟨a, rfl⟩ := hx; obtain ⟨b, rfl⟩ := hy; exact ⟨a * b, (EReal.coe_mul a b).symm⟩

private theorem fin_sub {x y : EReal} (hx : IsReal x) (hy : IsReal y) : IsReal (x - y) := by
  obtain ⟨a, rfl⟩ := hx; obtain ⟨b, rfl⟩ := hy; exact ⟨a - b, (EReal.coe_sub a b).symm⟩

private theorem fin_neg {x : EReal} (hx : IsReal x) : IsReal (-x) := by
  obtain ⟨a, rfl⟩ := hx; exact ⟨-a, (EReal.coe_neg a).symm⟩

private theorem fin_max {x y : EReal} (hx : IsReal x) (hy : IsReal y) : IsReal (max x y) := by
  rcases max_choice x y with h | h <;> rw [h] <;> assumption

/-- A finite sum of reals is a real. -/
private theorem fin_sum {ι : Type} (s : Finset ι) (f : ι → EReal) (h : ∀ i ∈ s, IsReal (f i)) :
    IsReal (∑ i ∈ s, f i) :=
  Finset.sum_induction f IsReal (fun _ _ => fin_add) fin_zero h

private theorem fin_pos_real {x : EReal} (hx : FinPos x) : IsReal x := by
  obtain ⟨a, -, rfl⟩ := hx; exact ⟨a, rfl⟩

private theorem fin_pos_add {x y : EReal} (hx : FinPos x) (hy : FinPos y) : FinPos (x + y) := by
  obtain ⟨a, ha, rfl⟩ := hx; obtain ⟨b, hb, rfl⟩ := hy
  exact ⟨a + b, add_pos ha hb, (EReal.coe_add a b).symm⟩

/-- A nonempty finite sum of positive reals is a positive real. -/
private theorem fin_pos_sum {ι : Type} (s : Finset ι) (hs : s.Nonempty) (f : ι → EReal)
    (h : ∀ i ∈ s, FinPos (f i)) : FinPos (∑ i ∈ s, f i) :=
  Finset.sum_induction_nonempty f FinPos (fun _ _ => fin_pos_add) hs h

/-- A real divided by a positive real is a real. -/
private theorem fin_div {x y : EReal} (hx : IsReal x) (hy : FinPos y) : IsReal (Ideal.div x y) := by
  obtain ⟨b, hb, rfl⟩ := hy
  rw [Ideal.div_coe hb.ne']
  exact fin_mul hx ⟨1 / b, rfl⟩

/-- The larger of a real and a positive real is a positive real. -/
private theorem fin_max_pos {x y : EReal} (hx : IsReal x) (hy : FinPos y) : FinPos (max x y) := by
  obtain ⟨a, rfl⟩ := hx; obtain ⟨b, hb, rfl⟩ := hy
  refine ⟨max a b, lt_of_lt_of_le hb (le_max_right a b), ?_⟩
  rcases le_total a b with h | h
  · rw [max_eq_right h, max_eq_right (EReal.coe_le_coe_iff.mpr h)]
  · rw [max_eq_left h, max_eq_left (EReal.coe_le_coe_iff.mpr h)]

/-- The exponential of a real is a positive real. -/
private theorem fin_exp {x : EReal} (hx : IsReal x) : FinPos (Ideal.exp x) := by
  obtain ⟨a, rfl⟩ := hx; exact ⟨Real.exp a, Real.exp_pos a, rfl⟩

private theorem fin_lin (W : Fin 512 → Fin 512 → EReal) (xr : Fin 16 → Fin 512 → EReal)
    (hW : ∀ o c, IsReal (W o c)) (hx : ∀ v c, IsReal (xr v c)) (v : Fin 16) (o : Fin 512) :
    IsReal (lin W xr v o) :=
  fin_sum _ _ fun c _ => fin_mul (hx v c) (hW o c)

private theorem fin_proj (Wp : Fin 128 → Fin 512 → EReal) (bp : Fin 128 → EReal) (h : Fin 16 → Fin 512 → EReal)
    (hWp : ∀ j o, IsReal (Wp j o)) (hbp : ∀ j, IsReal (bp j)) (hh : ∀ v o, IsReal (h v o))
    (v : Fin 16) (j : Fin 128) : IsReal (proj Wp bp h v j) :=
  fin_add (fin_sum _ _ fun o _ => fin_mul (hh v o) (hWp j o)) (hbp j)

private theorem fin_score (q k : Fin 16 → Fin 128 → EReal) (hq : ∀ v j, IsReal (q v j))
    (hk : ∀ v j, IsReal (k v j)) (v w : Fin 16) : IsReal (score q k v w) :=
  fin_sum _ _ fun j _ => fin_mul (hq v j) (hk w j)

/-- The maximum folded from −∞ over the sixteen entries of a row is one of those entries. -/
private theorem fin_rowMax (s : Fin 16 → Fin 16 → EReal) (hs : ∀ v w, IsReal (s v w)) (v : Fin 16) :
    IsReal (rowMax s v) := by
  obtain ⟨i, -, hi⟩ := Finset.exists_mem_eq_sup (Finset.univ : Finset (Fin 16)) Finset.univ_nonempty
    (fun w => s v w)
  have hfold : (Finset.univ : Finset (Fin 16)).fold max (⊥ : EReal) (fun w => s v w) = s v i := hi
  have hn : negInf = ⊥ := Consts.negInf_eq
  rw [rowMax, hn, hfold, max_eq_right bot_le]
  exact hs v i

private theorem fin_expo (s : Fin 16 → Fin 16 → EReal) (hs : ∀ v w, IsReal (s v w)) (v w : Fin 16) :
    FinPos (expo s v w) :=
  fin_exp (fin_sub (hs v w) (fin_rowMax s hs v))

private theorem fin_adjN (ar : Fin 16 → Fin 16 → EReal) (ha : ∀ v w, IsReal (ar v w)) (v w : Fin 16) :
    IsReal (adjN ar v w) := by
  obtain ⟨e, he, hee⟩ := Consts.eps12_pos
  exact fin_div (ha v w)
    (fin_max_pos (fin_sum _ _ fun w' _ => fin_max (ha v w') (fin_neg (ha v w'))) ⟨e, he, hee⟩)

private theorem fin_mix (ar e : Fin 16 → Fin 16 → EReal) (ha : ∀ v w, IsReal (ar v w))
    (he : ∀ v w, FinPos (e v w)) (v w : Fin 16) : IsReal (mix ar e v w) := by
  have h1 : IsReal one := ⟨1, Consts.one_eq⟩
  have h2 : IsReal half := ⟨_, Consts.half_eq⟩
  exact fin_mul (fin_add (fin_adjN ar ha v w)
    (fin_mul h1 (fin_div (fin_pos_real (he v w))
      (fin_pos_sum _ Finset.univ_nonempty _ fun w' _ => he v w')))) h2

private theorem fin_hpFrom (ar : Fin 16 → Fin 16 → EReal) (h : Fin 16 → Fin 512 → EReal)
    (e : Fin 16 → Fin 16 → EReal) (ha : ∀ v w, IsReal (ar v w)) (hh : ∀ v c, IsReal (h v c))
    (he : ∀ v w, FinPos (e v w)) (v : Fin 16) (c : Fin 512) : IsReal (hpFrom ar h e v c) := by
  have h0 : IsReal zero := ⟨0, Consts.zero_eq⟩
  exact fin_max (fin_sum _ _ fun w _ => fin_mul (fin_mix ar e ha he v w) (hh w c)) h0

theorem hpRow_isReal (W : Fin 512 → Fin 512 → EReal) (Wq : Fin 128 → Fin 512 → EReal) (bq : Fin 128 → EReal)
    (Wk : Fin 128 → Fin 512 → EReal) (bk : Fin 128 → EReal) (xr : Fin 16 → Fin 512 → EReal) (ar : Fin 16 → Fin 16 → EReal)
    (hW : ∀ o c, IsReal (W o c)) (hWq : ∀ j o, IsReal (Wq j o)) (hbq : ∀ j, IsReal (bq j))
    (hWk : ∀ j o, IsReal (Wk j o)) (hbk : ∀ j, IsReal (bk j))
    (hx : ∀ v c, IsReal (xr v c)) (ha : ∀ v w, IsReal (ar v w)) (v : Fin 16) (c : Fin 512) :
    IsReal (hpRow W Wq bq Wk bk xr ar v c) := by
  have hlin := fin_lin W xr hW hx
  exact fin_hpFrom ar (lin W xr) _ ha hlin
    (fin_expo _ (fin_score _ _ (fin_proj Wq bq _ hWq hbq hlin) (fin_proj Wk bk _ hWk hbk hlin))) v c

end Cert.Finite

end
-- ==== Proof.PreReal.lean ====
import proofs.«175194_j59081570125129_2_alg».proof.Pre_finite_inputs
import proofs.«175194_j59081570125129_2_alg».proof.Proof.Gen.Pre_finite_inputs
import proofs.«175194_j59081570125129_2_alg».proof.Proof.Spec
import Idealize.ShloMosaic.Lib.ReduceAll

/-! The precondition says every entry of every argument is a real number. -/

noncomputable section

namespace Cert.PreReal

open Idealize.ShloMosaic Cert.Spec

/-- The rank-0 result of a reduction over all axes has one index. -/
private instance pre_scalar_subsingleton : Subsingleton Cert.Pre_finite_inputs.S_.Idx :=
  ⟨fun _ _ => funext fun d => d.elim0⟩

/-- `|x| < +∞` on the extended reals says that `x` is a real number: the absolute value of either infinity is `+∞`. -/
private theorem pre_elem (x : EReal)
    (h : Ideal.cmp .olt (max x (-x)) (Ideal.ofBits .f32 0x7F800000#32) = 1#1) : IsReal x := by
  have hinf : Ideal.ofBits .f32 0x7F800000#32 = (⊤ : EReal) := by simp [Ideal.ofBits, Ideal.ieee]
  rw [hinf] at h
  induction x using EReal.rec with
  | bot => simp [Ideal.cmp] at h
  | top => simp [Ideal.cmp] at h
  | coe r => exact ⟨r, rfl⟩

/-- `jnp.all(|x| < +∞)` being true says every entry of `x` is a real number, at any shape. -/
private theorem pre_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hu j = 1#1) (i : s.Idx) : IsReal (x i) :=
  pre_elem (x i) (Host.reduce_andi_all _ _ hr hu j e i)

theorem fn_isReal [Cert.Pre_finite_inputs.Facts]
    (a0 : FVec Ideal Cert.Pre_finite_inputs.S4096x16x512 .f32) (a1 : FVec Ideal Cert.Pre_finite_inputs.S4096x16x16 .f32)
    (a2 : FVec Ideal Cert.Pre_finite_inputs.S512x512 .f32) (a3 : FVec Ideal Cert.Pre_finite_inputs.S128x512 .f32)
    (a4 : FVec Ideal Cert.Pre_finite_inputs.S128 .f32) (a5 : FVec Ideal Cert.Pre_finite_inputs.S128x512 .f32)
    (a6 : FVec Ideal Cert.Pre_finite_inputs.S128 .f32) (a7 : FVec Ideal Cert.Pre_finite_inputs.S512 .f32)
    (a8 : FVec Ideal Cert.Pre_finite_inputs.S512 .f32)
    (h : Cert.Pre_finite_inputs.fn (F := Ideal) a0 a1 a2 a3 a4 a5 a6 a7 a8 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) := by
  -- the claim at the scalar result's one index, with the printed function's chain of operations in view
  have h0 := congrFun h ValueIdx.ix0
  dsimp only [Cert.Pre_finite_inputs.fn, Cert.Pre_finite_inputs.fn_part1, Cert.Pre_finite_inputs.fn_part2] at h0
  -- the nine `jnp.all`s are and-ed from the left: peel them off from the last to the first
  obtain ⟨h1, e8⟩ := IntOp.andi_eq_one.1 h0
  obtain ⟨h1, e7⟩ := IntOp.andi_eq_one.1 h1
  obtain ⟨h1, e6⟩ := IntOp.andi_eq_one.1 h1
  obtain ⟨h1, e5⟩ := IntOp.andi_eq_one.1 h1
  obtain ⟨h1, e4⟩ := IntOp.andi_eq_one.1 h1
  obtain ⟨h1, e3⟩ := IntOp.andi_eq_one.1 h1
  obtain ⟨h1, e2⟩ := IntOp.andi_eq_one.1 h1
  obtain ⟨e0, e1⟩ := IntOp.andi_eq_one.1 h1
  exact ⟨pre_all a0 _ _ _ _ e0, pre_all a1 _ _ _ _ e1, pre_all a2 _ _ _ _ e2, pre_all a3 _ _ _ _ e3,
    pre_all a4 _ _ _ _ e4, pre_all a5 _ _ _ _ e5, pre_all a6 _ _ _ _ e6, pre_all a7 _ _ _ _ e7,
    pre_all a8 _ _ _ _ e8⟩

end Cert.PreReal

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.KPayHE.lean ====
import proofs.«175194_j59081570125129_2_alg».proof.Proof.Gen.KernelIdeal.Skeleton
import proofs.«175194_j59081570125129_2_alg».proof.Proof.Spec
import proofs.«175194_j59081570125129_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

/-! The linear map and the shifted softmax exponentials of a block, read at an index.

The block of 128 graphs is flattened to 2048 rows (row `16 n + v` is node `v` of graph `n`), multiplied by the
transposed weights on the flat rows, and regrouped; the scores are a product batched over the graphs; the row maximum is
folded from −∞ and subtracted before the exponential. Each step is read at explicit coordinates and the steps are chained. -/

noncomputable section

namespace Cert.KernelIdeal.PayHE

open Idealize.ShloMosaic Idealize.ShloMosaic.ValueIdx Cert.KernelIdeal Cert.KernelIdeal.Gen Cert.Spec
open scoped BigOperators

/-! ## The linear map on the flattened block -/

/-- The flattened block times the transposed weight: row `16 n + v` of the flat product is the linear map of node
    `v` of graph `n`. -/
private theorem he_pay4_apply (v0 : Vec Ideal S128x16x512 .f32) (v3 : Vec Ideal S512x512 .f32) (n : Fin 128) (v : Fin 16) (o : Fin 512)
    (r : Fin 2048) (hr : r.val = 16 * n.val + v.val) :
    k0_pay4 (F := Ideal) v0 v3 (ix2 r o) = ∑ c : Fin 512, v0 (ix3 n v c) * v3 (ix2 o c) := by
  unfold k0_pay4
  refine (Cert.PlainDot.matmul_zero_apply 2048 512 512 none _ _ (ix2 r o)).trans ?_
  refine Finset.sum_congr rfl fun c _ => ?_
  refine congrArg₂ (· * ·) ?_ ?_
  · show shapeCast S2048x512 v0 shapeCasts_S128x16x512_S2048x512 (ix2 r c) = v0 (ix3 n v c)
    refine shapeCast_apply v0 _ (ix2 r c) (ix3 n v c) ?_
    rw [Shape.rowMajor_val_three, Shape.rowMajor_val_two]
    show (n.val * 16 + v.val) * 512 + c.val = r.val * 512 + c.val
    omega
  · show transpose S512x512 [1, 0] v3 transposes_S512x512_p1_0_S512x512 (ix2 c o) = v3 (ix2 o c)
    refine transpose_apply [1, 0] v3 _ (ix2 c o) (ix2 o c) ?_
    intro b
    match b with
    | ⟨0, _⟩ => rfl
    | ⟨1, _⟩ => rfl

/-! ## A projection with bias, over any flat array -/

/-- `h · Wpᵀ + bp` on the flat rows, regrouped into graphs and nodes. -/
private def he_proj (hf : FVec Ideal S2048x512 .f32) (Wp : Vec Ideal S128x512 .f32) (bp : Vec Ideal S128 .f32) :
    FVec Ideal S128x16x128 .f32 :=
  shapeCast S128x16x128
    (addf
      (matmul dot_S2048x512_S512x128_S2048x128_1_0_0_1_n_n none (truncf .bf16 hf bitsLt_bf16_f32)
        (transpose S512x128 [1, 0] (truncf .bf16 Wp bitsLt_bf16_f32) transposes_S128x512_p1_0_S512x128)
        (constant S2048x128 .f32 0x00000000#32))
      (broadcastTo S2048x128 (shapeCast S1x128 bp shapeCasts_S128_S1x128) broadcasts_S1x128_S2048x128))
    shapeCasts_S2048x128_S128x16x128

private theorem he_proj_apply (hf : FVec Ideal S2048x512 .f32) (Wp : Vec Ideal S128x512 .f32) (bp : Vec Ideal S128 .f32)
    (n : Fin 128) (v : Fin 16) (j : Fin 128) (r : Fin 2048) (hr : r.val = 16 * n.val + v.val) :
    he_proj hf Wp bp (ix3 n v j) = (∑ o : Fin 512, hf (ix2 r o) * Wp (ix2 j o)) + bp (ix1 j) := by
  unfold he_proj
  refine (shapeCast_apply _ shapeCasts_S2048x128_S128x16x128 (ix3 n v j) (ix2 r j) ?_).trans ?_
  · rw [Shape.rowMajor_val_two, Shape.rowMajor_val_three]
    show r.val * 128 + j.val = (n.val * 16 + v.val) * 128 + j.val
    omega
  refine (addf_apply _ _ _).trans ?_
  refine congrArg₂ (· + ·) ?_ ?_
  · refine (Cert.PlainDot.matmul_zero_apply 2048 512 128 none _ _ (ix2 r j)).trans ?_
    refine Finset.sum_congr rfl fun o _ => ?_
    refine congrArg₂ (· * ·) rfl ?_
    show transpose S512x128 [1, 0] Wp transposes_S128x512_p1_0_S512x128 (ix2 o j) = Wp (ix2 j o)
    refine transpose_apply [1, 0] Wp _ (ix2 o j) (ix2 j o) ?_
    intro b
    match b with
    | ⟨0, _⟩ => rfl
    | ⟨1, _⟩ => rfl
  · refine (broadcastTo_apply (shapeCast S1x128 bp shapeCasts_S128_S1x128) broadcasts_S1x128_S2048x128 (ix2 r j) (ix2 0 j) ?_).trans ?_
    · intro a
      match a with
      | ⟨0, _⟩ => rfl
      | ⟨1, _⟩ => rfl
    · refine shapeCast_apply bp _ (ix2 0 j) (ix1 j) ?_
      rw [Shape.rowMajor_val_one, Shape.rowMajor_val_two]
      show j.val = 0 * 128 + j.val
      omega

/-! ## The scores: a product batched over the graphs -/

private theorem he_lhs0 (i : S128x16x16.Idx) (q : dot_S128x16x128_S128x16x128_S128x16x16_2_2_1_1_0_0.contr.Idx) :
    (dot_S128x16x128_S128x16x128_S128x16x16_2_2_1_1_0_0.lhsIdx i q 0).val = (i 0).val := by
  unfold DotDims.lhsIdx
  rw [dif_pos (show (0 : Fin S128x16x128.rank) ∈ dot_S128x16x128_S128x16x128_S128x16x16_2_2_1_1_0_0.lhsBatch by decide)]
  rfl
private theorem he_lhs1 (i : S128x16x16.Idx) (q : dot_S128x16x128_S128x16x128_S128x16x16_2_2_1_1_0_0.contr.Idx) :
    (dot_S128x16x128_S128x16x128_S128x16x16_2_2_1_1_0_0.lhsIdx i q 1).val = (i 1).val := by
  unfold DotDims.lhsIdx
  rw [dif_neg (show ¬(1 : Fin S128x16x128.rank) ∈ dot_S128x16x128_S128x16x128_S128x16x16_2_2_1_1_0_0.lhsBatch by decide), dif_pos (show (1 : Fin S128x16x128.rank) ∈ dot_S128x16x128_S128x16x128_S128x16x16_2_2_1_1_0_0.lhsNonContracting by decide)]
  rfl
private theorem he_lhs2 (i : S128x16x16.Idx) (q : dot_S128x16x128_S128x16x128_S128x16x16_2_2_1_1_0_0.contr.Idx) :
    (dot_S128x16x128_S128x16x128_S128x16x16_2_2_1_1_0_0.lhsIdx i q 2).val = (q ⟨0, by decide⟩).val :=
  dot_S128x16x128_S128x16x128_S128x16x16_2_2_1_1_0_0.lhsIdx_val_of_single rfl i q
private theorem he_rhs0 (i : S128x16x16.Idx) (q : dot_S128x16x128_S128x16x128_S128x16x16_2_2_1_1_0_0.contr.Idx) :
    (dot_S128x16x128_S128x16x128_S128x16x16_2_2_1_1_0_0.rhsIdx i q 0).val = (i 0).val := by
  unfold DotDims.rhsIdx
  rw [dif_pos (show (0 : Fin S128x16x128.rank) ∈ dot_S128x16x128_S128x16x128_S128x16x16_2_2_1_1_0_0.rhsBatch by decide)]
  rfl
private theorem he_rhs1 (i : S128x16x16.Idx) (q : dot_S128x16x128_S128x16x128_S128x16x16_2_2_1_1_0_0.contr.Idx) :
    (dot_S128x16x128_S128x16x128_S128x16x16_2_2_1_1_0_0.rhsIdx i q 1).val = (i 2).val := by
  unfold DotDims.rhsIdx
  rw [dif_neg (show ¬(1 : Fin S128x16x128.rank) ∈ dot_S128x16x128_S128x16x128_S128x16x16_2_2_1_1_0_0.rhsBatch by decide), dif_pos (show (1 : Fin S128x16x128.rank) ∈ dot_S128x16x128_S128x16x128_S128x16x16_2_2_1_1_0_0.rhsNonContracting by decide)]
  rfl
private theorem he_rhs2 (i : S128x16x16.Idx) (q : dot_S128x16x128_S128x16x128_S128x16x16_2_2_1_1_0_0.contr.Idx) :
    (dot_S128x16x128_S128x16x128_S128x16x16_2_2_1_1_0_0.rhsIdx i q 2).val = (q ⟨0, by decide⟩).val :=
  dot_S128x16x128_S128x16x128_S128x16x16_2_2_1_1_0_0.rhsIdx_val_of_single rfl i q

/-- `q · kᵀ` per graph, into the zero accumulator. -/
private def he_score (q k : FVec Ideal S128x16x128 .f32) : FVec Ideal S128x16x16 .f32 :=
  matmul dot_S128x16x128_S128x16x128_S128x16x16_2_2_1_1_0_0 none (truncf .bf16 q bitsLt_bf16_f32) (truncf .bf16 k bitsLt_bf16_f32)
    (constant S128x16x16 .f32 0x00000000#32)

private theorem he_score_apply (q k : FVec Ideal S128x16x128 .f32) (n : Fin 128) (v w : Fin 16) :
    he_score q k (ix3 n v w) = ∑ j : Fin 128, q (ix3 n v j) * k (ix3 n w j) := by
  unfold he_score
  refine (Ideal.matmul_constant_zero_apply dot_S128x16x128_S128x16x128_S128x16x16_2_2_1_1_0_0 none _ _ (ix3 n v w)).trans ?_
  rw [← Equiv.sum_comp (contrEquiv1 dot_S128x16x128_S128x16x128_S128x16x16_2_2_1_1_0_0 128 rfl rfl).symm]
  refine Finset.sum_congr rfl fun j _ => ?_
  have hk := contrEquiv1_symm_val dot_S128x16x128_S128x16x128_S128x16x16_2_2_1_1_0_0 128 rfl rfl j
  have el : dot_S128x16x128_S128x16x128_S128x16x16_2_2_1_1_0_0.lhsIdx (ix3 n v w) ((contrEquiv1 dot_S128x16x128_S128x16x128_S128x16x16_2_2_1_1_0_0 128 rfl rfl).symm j) = ix3 n v j :=
    funext fun a => Fin.ext (by
      match a with
      | ⟨0, _⟩ => exact he_lhs0 _ _
      | ⟨1, _⟩ => exact he_lhs1 _ _
      | ⟨2, _⟩ => exact (he_lhs2 _ _).trans hk)
  have er : dot_S128x16x128_S128x16x128_S128x16x16_2_2_1_1_0_0.rhsIdx (ix3 n v w) ((contrEquiv1 dot_S128x16x128_S128x16x128_S128x16x16_2_2_1_1_0_0 128 rfl rfl).symm j) = ix3 n w j :=
    funext fun a => Fin.ext (by
      match a with
      | ⟨0, _⟩ => exact he_rhs0 _ _
      | ⟨1, _⟩ => exact he_rhs1 _ _
      | ⟨2, _⟩ => exact (he_rhs2 _ _).trans hk)
  rw [el, er]
  rfl

/-! ## The row maximum and the shifted exponentials, over any score array -/

/-- The row maximum folded from −∞, once more against −∞, spread back over the row. -/
private def he_bmax (s : FVec Ideal S128x16x16 .f32) : FVec Ideal S128x16x16 .f32 :=
  broadcastTo S128x16x16
    (shapeCast S128x16x1
      (maximumf (broadcast S128x16 (Scalar.ofBits (F := Ideal) .f32 0xFF800000#32))
        (multiReduction .maximumf [2] S128x16 s 0xFF800000#32 reduces_S128x16x16_S128x16 (.inl rfl) rfl))
      shapeCasts_S128x16_S128x16x1)
    broadcasts_S128x16x1_S128x16x16

private theorem he_bmax_apply (s : FVec Ideal S128x16x16 .f32) (n : Fin 128) (v w : Fin 16) :
    he_bmax s (ix3 n v w) = max negInf ((Finset.univ : Finset (Fin 16)).fold max negInf (fun w' => s (ix3 n v w'))) := by
  unfold he_bmax
  refine (broadcastTo_apply _ broadcasts_S128x16x1_S128x16x16 (ix3 n v w) (ix3 n v 0) ?_).trans ?_
  · intro a
    match a with
    | ⟨0, _⟩ => rfl
    | ⟨1, _⟩ => rfl
    | ⟨2, _⟩ => rfl
  refine (shapeCast_apply _ shapeCasts_S128x16_S128x16x1 (ix3 n v 0) (ix2 n v) ?_).trans ?_
  · rw [Shape.rowMajor_val_two, Shape.rowMajor_val_three]
    show n.val * 16 + v.val = (n.val * 16 + v.val) * 1 + 0
    omega
  show max negInf (multiReduction .maximumf [2] S128x16 s 0xFF800000#32 reduces_S128x16x16_S128x16 (.inl rfl) rfl (ix2 n v)) = _
  refine congrArg (max negInf) ?_
  refine (Ideal.multiReduction_maximumf_single s _ reduces_S128x16x16_S128x16 (.inl rfl) rfl (ix2 n v)).trans ?_
  show (Finset.univ : Finset (Fin 16)).fold max negInf (fun w' => s (reduces_S128x16x16_S128x16.lift (ix2 n v) w')) = _
  refine congrArg (fun f => (Finset.univ : Finset (Fin 16)).fold max negInf f) (funext fun w' => ?_)
  exact congrArg s (funext fun c => Fin.ext (by
    match c with
    | ⟨0, _⟩ => rfl
    | ⟨1, _⟩ => rfl
    | ⟨2, _⟩ => rfl))

/-- The exponential of each score less its row's maximum. -/
private def he_expo (s : FVec Ideal S128x16x16 .f32) : FVec Ideal S128x16x16 .f32 :=
  exp (subf s (he_bmax s))

private theorem he_expo_apply (s : FVec Ideal S128x16x16 .f32) (n : Fin 128) (v w : Fin 16) :
    he_expo s (ix3 n v w)
      = Ideal.exp (s (ix3 n v w) - max negInf ((Finset.univ : Finset (Fin 16)).fold max negInf (fun w' => s (ix3 n v w')))) := by
  unfold he_expo
  show Ideal.exp (s (ix3 n v w) - he_bmax s (ix3 n v w)) = _
  rw [he_bmax_apply s n v w]

/-! ## The two payloads -/

theorem k0_pay5_apply (v0 : Vec Ideal S128x16x512 .f32) (v3 : Vec Ideal S512x512 .f32) (n : Fin 128) (v : Fin 16) (o : Fin 512) :
    k0_pay5 (F := Ideal) v0 v3 (ix3 n v o) = lin (cur2 v3) (cur3 v0 n) v o := by
  unfold k0_pay5
  have hlt : 16 * n.val + v.val < 2048 := by have := n.isLt; have := v.isLt; omega
  refine (shapeCast_apply (k0_pay4 (F := Ideal) v0 v3) shapeCasts_S2048x512_S128x16x512 (ix3 n v o) (ix2 ⟨16 * n.val + v.val, hlt⟩ o) ?_).trans ?_
  · rw [Shape.rowMajor_val_two, Shape.rowMajor_val_three]
    show (16 * n.val + v.val) * 512 + o.val = (n.val * 16 + v.val) * 512 + o.val
    omega
  · exact he_pay4_apply v0 v3 n v o _ rfl

/-- The softmax payload is the chain of the parts above, term for term. -/
private theorem he_pay6_eq (v0 : Vec Ideal S128x16x512 .f32) (v3 : Vec Ideal S512x512 .f32) (v8 v9 : Vec Ideal S128x512 .f32)
    (v10 v11 : Vec Ideal S128 .f32) :
    k0_pay6 (F := Ideal) v0 v3 v8 v9 v10 v11
      = he_expo (he_score (he_proj (k0_pay4 (F := Ideal) v0 v3) v8 v10) (he_proj (k0_pay4 (F := Ideal) v0 v3) v9 v11)) := rfl

/-- A projection of the block's linear map, at a node of graph `n`. -/
private theorem he_proj_lin (v0 : Vec Ideal S128x16x512 .f32) (v3 : Vec Ideal S512x512 .f32) (Wp : Vec Ideal S128x512 .f32)
    (bp : Vec Ideal S128 .f32) (n : Fin 128) (v : Fin 16) (j : Fin 128) :
    he_proj (k0_pay4 (F := Ideal) v0 v3) Wp bp (ix3 n v j) = proj (cur2 Wp) (cur1 bp) (lin (cur2 v3) (cur3 v0 n)) v j := by
  have hlt : 16 * n.val + v.val < 2048 := by have := n.isLt; have := v.isLt; omega
  refine (he_proj_apply _ Wp bp n v j ⟨16 * n.val + v.val, hlt⟩ rfl).trans ?_
  refine congrArg (· + bp (ix1 j)) (Finset.sum_congr rfl fun o _ => ?_)
  exact congrArg (· * Wp (ix2 j o)) (he_pay4_apply v0 v3 n v o _ rfl)

theorem k0_pay6_apply (v0 : Vec Ideal S128x16x512 .f32) (v3 : Vec Ideal S512x512 .f32) (v8 v9 : Vec Ideal S128x512 .f32)
    (v10 v11 : Vec Ideal S128 .f32) (n : Fin 128) (v w : Fin 16) :
    k0_pay6 (F := Ideal) v0 v3 v8 v9 v10 v11 (ix3 n v w)
      = expoRow (cur2 v3) (cur2 v8) (cur1 v10) (cur2 v9) (cur1 v11) (cur3 v0 n) v w := by
  rw [he_pay6_eq]
  have hS : ∀ v w : Fin 16,
      he_score (he_proj (k0_pay4 (F := Ideal) v0 v3) v8 v10) (he_proj (k0_pay4 (F := Ideal) v0 v3) v9 v11) (ix3 n v w)
        = score (proj (cur2 v8) (cur1 v10) (lin (cur2 v3) (cur3 v0 n))) (proj (cur2 v9) (cur1 v11) (lin (cur2 v3) (cur3 v0 n))) v w := by
    intro v w
    refine (he_score_apply _ _ n v w).trans ?_
    refine Finset.sum_congr rfl fun j _ => ?_
    exact congrArg₂ (· * ·) (he_proj_lin v0 v3 v8 v10 n v j) (he_proj_lin v0 v3 v9 v11 n w j)
  refine (he_expo_apply _ n v w).trans ?_
  unfold expoRow expo rowMax
  rw [hS v w, funext (hS v)]

/-! ## Region 1: the same two terms -/

theorem k1_pay3_apply (v0 : Vec Ideal S128x16x512 .f32) (v3 : Vec Ideal S512x512 .f32) (n : Fin 128) (v : Fin 16) (o : Fin 512) :
    k1_pay3 (F := Ideal) v0 v3 (ix3 n v o) = lin (cur2 v3) (cur3 v0 n) v o :=
  (congrFun (rfl : k1_pay3 (F := Ideal) v0 v3 = k0_pay5 (F := Ideal) v0 v3) (ix3 n v o)).trans (k0_pay5_apply v0 v3 n v o)

theorem k1_pay4_apply (v0 : Vec Ideal S128x16x512 .f32) (v3 : Vec Ideal S512x512 .f32) (v8 v9 : Vec Ideal S128x512 .f32)
    (v10 v11 : Vec Ideal S128 .f32) (n : Fin 128) (v w : Fin 16) :
    k1_pay4 (F := Ideal) v0 v3 v8 v9 v10 v11 (ix3 n v w)
      = expoRow (cur2 v3) (cur2 v8) (cur1 v10) (cur2 v9) (cur1 v11) (cur3 v0 n) v w :=
  (congrFun (rfl : k1_pay4 (F := Ideal) v0 v3 v8 v9 v10 v11 = k0_pay6 (F := Ideal) v0 v3 v8 v9 v10 v11) (ix3 n v w)).trans
    (k0_pay6_apply v0 v3 v8 v9 v10 v11 n v w)

end Cert.KernelIdeal.PayHE

end
-- ==== Proof.KPayTail.lean ====
import proofs.«175194_j59081570125129_2_alg».proof.Proof.Gen.KernelIdeal.Skeleton
import proofs.«175194_j59081570125129_2_alg».proof.Proof.Spec
import Idealize.ShloMosaic.Lib.Pipeline.Value
import Idealize.ShloMosaic.Lib.ValueIdx
import Idealize.ShloMosaic.Lib.ValueLayout
import Idealize.ShloMosaic.PureOps.Ideal.Laws

/-! What a block stores, from its linear map and shifted exponentials, read at an index. -/

noncomputable section

namespace Cert.KernelIdeal.PayTail

open Idealize.ShloMosaic Idealize.ShloMosaic.ValueIdx Cert.KernelIdeal Cert.KernelIdeal.Gen Cert.Spec

open scoped BigOperators

/-! ## Layout steps read at coordinates -/

section Layout
variable {α : Type}

/-- An [a, b] array cast to [a, b, 1] reads, at (n, v, u), the operand at (n, v). -/
theorem tail_cast_ab_ab1 {a b : ℕ} (x : (⟨2, ![a, b]⟩ : Shape).Idx → α)
    (h : (⟨2, ![a, b]⟩ : Shape).ShapeCasts ⟨3, ![a, b, 1]⟩) (n : Fin a) (v : Fin b) (u : Fin 1) :
    shapeCast ⟨3, ![a, b, 1]⟩ x h (ix3 n v u) = x (ix2 n v) :=
  shapeCast_apply x h _ _ (by
    have hu : u.val = 0 := by omega
    rw [Shape.rowMajor_val_two, Shape.rowMajor_val_three]
    show n.val * b + v.val = (n.val * b + v.val) * 1 + u.val
    rw [hu, Nat.mul_one, Nat.add_zero])

/-- An [a, b, 1] array broadcast to [a, b, c] reads, at (n, v, w), the operand at (n, v, 0). -/
theorem tail_bcast_ab1_abc {a b c : ℕ} (x : (⟨3, ![a, b, 1]⟩ : Shape).Idx → α)
    (h : (⟨3, ![a, b, 1]⟩ : Shape).Broadcasts ⟨3, ![a, b, c]⟩) (n : Fin a) (v : Fin b) (w : Fin c) :
    broadcastTo ⟨3, ![a, b, c]⟩ x h (ix3 n v w) = x (ix3 n v (0 : Fin 1)) := by
  refine broadcastTo_apply x h (ix3 n v w) (ix3 n v (0 : Fin 1)) fun ax => ?_
  match ax with
  | ⟨0, _⟩ =>
    show n.val = if a = 1 then 0 else n.val
    split
    · have := n.isLt; omega
    · rfl
  | ⟨1, _⟩ =>
    show v.val = if b = 1 then 0 else v.val
    split
    · have := v.isLt; omega
    · rfl
  | ⟨2, _⟩ => rfl

/-- A [c] array cast to [1, 1, c] reads, at (u, u', k), the operand at k. -/
theorem tail_cast_c_11c {c : ℕ} (x : (⟨1, ![c]⟩ : Shape).Idx → α)
    (h : (⟨1, ![c]⟩ : Shape).ShapeCasts ⟨3, ![1, 1, c]⟩) (u u' : Fin 1) (k : Fin c) :
    shapeCast ⟨3, ![1, 1, c]⟩ x h (ix3 u u' k) = x (ix1 k) :=
  shapeCast_apply x h _ _ (by
    have hu : u.val = 0 := by omega
    have hu' : u'.val = 0 := by omega
    rw [Shape.rowMajor_val_one, Shape.rowMajor_val_three]
    show k.val = (u.val * 1 + u'.val) * c + k.val
    rw [hu, hu']
    simp)

/-- A [1, 1, c] array broadcast to [a, b, c] reads, at (n, v, k), the operand at (0, 0, k). -/
theorem tail_bcast_11c_abc {a b c : ℕ} (x : (⟨3, ![1, 1, c]⟩ : Shape).Idx → α)
    (h : (⟨3, ![1, 1, c]⟩ : Shape).Broadcasts ⟨3, ![a, b, c]⟩) (n : Fin a) (v : Fin b) (k : Fin c) :
    broadcastTo ⟨3, ![a, b, c]⟩ x h (ix3 n v k) = x (ix3 (0 : Fin 1) (0 : Fin 1) k) := by
  refine broadcastTo_apply x h (ix3 n v k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A block of 128 graphs of 16 nodes flattened to 2048 rows reads, at row r, graph r / 16 at node r % 16. -/
theorem tail_flat_apply (X : S128x16x512.Idx → α) (h : S128x16x512.ShapeCasts S2048x512) (r : Fin 2048) (c : Fin 512) :
    shapeCast S2048x512 X h (ix2 r c) = X (ix3 (gOf r) (nOf r) c) :=
  shapeCast_apply X h _ _ (by
    rw [Shape.rowMajor_val_three, Shape.rowMajor_val_two]
    show ((r.val / 16) * 16 + r.val % 16) * 512 + c.val = r.val * 512 + c.val
    omega)

end Layout

/-! ## Sums along one axis -/

/-- The sum over the last axis of a [128, 16, 16] array, at (n, v). -/
theorem tail_lanesum (x : FVec Ideal S128x16x16 .f32) (h : S128x16x16.Reduces [2] S128x16) (hφ : FKind.Formats .f32)
    (hacc : (0x00000000#32 : BitVec 32) = FKind.add.neutral .f32 hφ) (n : Fin 128) (v : Fin 16) :
    multiReduction .add [2] S128x16 x 0x00000000#32 h hφ hacc (ix2 n v) = ∑ w : Fin 16, x (ix3 n v w) := by
  refine (Ideal.multiReduction_add_single x _ h hφ hacc (ix2 n v)).trans ?_
  refine Finset.sum_congr rfl fun w _ => congrArg x ?_
  funext ax
  refine Fin.ext ?_
  match ax with
  | ⟨0, _⟩ => rfl
  | ⟨1, _⟩ => rfl
  | ⟨2, _⟩ => rfl

/-- The sum over the rows of a [2048, 512] array, at channel c. -/
theorem tail_colsum (X : FVec Ideal S2048x512 .f32) (h : S2048x512.Reduces [0] S512) (hφ : FKind.Formats .f32)
    (hacc : (0x00000000#32 : BitVec 32) = FKind.add.neutral .f32 hφ) (c : Fin 512) :
    multiReduction .add [0] S512 X 0x00000000#32 h hφ hacc (ix1 c) = ∑ r : Fin 2048, X (ix2 r c) := by
  refine (Ideal.multiReduction_add_single X _ h hφ hacc (ix1 c)).trans ?_
  refine Finset.sum_congr rfl fun r _ => congrArg X ?_
  funext ax
  refine Fin.ext ?_
  match ax with
  | ⟨0, _⟩ => rfl
  | ⟨1, _⟩ => rfl

/-- The row sum kept as a unit axis and broadcast back over the row, at (n, v, w). -/
theorem tail_rowsum_apply (x : FVec Ideal S128x16x16 .f32) (n : Fin 128) (v w : Fin 16) :
    broadcastTo S128x16x16 (shapeCast S128x16x1 (multiReduction .add [2] S128x16 x 0x00000000#32
        reduces_S128x16x16_S128x16 (.inl rfl) rfl) shapeCasts_S128x16_S128x16x1) broadcasts_S128x16x1_S128x16x16 (ix3 n v w)
      = ∑ w' : Fin 16, x (ix3 n v w') :=
  (tail_bcast_ab1_abc _ _ n v w).trans ((tail_cast_ab_ab1 _ _ n v 0).trans (tail_lanesum x _ _ _ n v))

/-! ## The body's stages, as functions of the block's arrays -/

/-- Each row of the shifted exponentials divided by its sum: the attention weights. -/
def tailSoft (v38 : FVec Ideal S128x16x16 .f32) : FVec Ideal S128x16x16 .f32 :=
  divf v38 (broadcastTo S128x16x16 (shapeCast S128x16x1 (multiReduction .add [2] S128x16 v38 0x00000000#32
    reduces_S128x16x16_S128x16 (.inl rfl) rfl) shapeCasts_S128x16_S128x16x1) broadcasts_S128x16x1_S128x16x16)

/-- Each adjacency row divided by the larger of its absolute sum and the small constant. -/
def tailAdj (v1 : Vec Ideal S128x16x16 .f32) : FVec Ideal S128x16x16 .f32 :=
  divf v1 (broadcastTo S128x16x16 (maximumf (shapeCast S128x16x1 (multiReduction .add [2] S128x16 (absf v1) 0x00000000#32
    reduces_S128x16x16_S128x16 (.inl rfl) rfl) shapeCasts_S128x16_S128x16x1)
    (broadcast S128x16x1 (Scalar.ofBits .f32 0x2B8CBCCC#32))) broadcasts_S128x16x1_S128x16x16)

/-- The mixed graph: (normalised adjacency + 1 · attention) · ½. -/
def tailMix (v1 : Vec Ideal S128x16x16 .f32) (v38 : FVec Ideal S128x16x16 .f32) : FVec Ideal S128x16x16 .f32 :=
  mulf (addf (tailAdj v1) (mulf (broadcast S128x16x16 (Scalar.ofBits .f32 0x3F800000#32)) (tailSoft v38)))
    (broadcast S128x16x16 (Scalar.ofBits .f32 0x3F000000#32))

/-- Message passing along the mixed graph, then relu. -/
def tailHp (v1 : Vec Ideal S128x16x16 .f32) (v26 : FVec Ideal S128x16x512 .f32) (v38 : FVec Ideal S128x16x16 .f32) :
    FVec Ideal S128x16x512 .f32 :=
  maximumf (matmul dot_S128x16x16_S128x16x512_S128x16x512_2_1_1_2_0_0 none (truncf .bf16 (tailMix v1 v38) bitsLt_bf16_f32)
      (truncf .bf16 v26 bitsLt_bf16_f32) (constant S128x16x512 .f32 0x00000000#32))
    (broadcast S128x16x512 (Scalar.ofBits .f32 0x00000000#32))

/-- A per-channel sum over the 2048 rows, scaled by ⅛ and stored in eight equal rows. -/
def tailStore (X : FVec Ideal S2048x512 .f32) : FVec Ideal S1x8x512 .f32 :=
  shapeCast S1x8x512 (broadcastTo S8x512 (shapeCast S1x512 (mulf (multiReduction .add [0] S512 X 0x00000000#32
    reduces_S2048x512_S512 (.inl rfl) rfl) (broadcast S512 (Scalar.ofBits .f32 0x3E000000#32))) shapeCasts_S512_S1x512)
    broadcasts_S1x512_S8x512) shapeCasts_S8x512_S1x8x512

/-- A per-channel vector spread over every graph and node. -/
def tailChan (y : Vec Ideal S512 .f32) : FVec Ideal S128x16x512 .f32 :=
  broadcastTo S128x16x512 (shapeCast S1x1x512 (shapeCast S512 y shapeCasts_S512_S512) shapeCasts_S512_S1x1x512)
    broadcasts_S1x1x512_S128x16x512

theorem tail_pay1_eq (v1 : Vec Ideal S128x16x16 .f32) (v26 : FVec Ideal S128x16x512 .f32) (v38 : FVec Ideal S128x16x16 .f32) :
    k0_pay1 (F := Ideal) v1 v26 v38 = shapeCast S2048x512 (tailHp v1 v26 v38) shapeCasts_S128x16x512_S2048x512 := rfl

theorem tail_pay2_eq (v1 : Vec Ideal S128x16x16 .f32) (v26 : FVec Ideal S128x16x512 .f32) (v38 : FVec Ideal S128x16x16 .f32) :
    k0_pay2 (F := Ideal) v1 v26 v38 = tailStore (k0_pay1 (F := Ideal) v1 v26 v38) := rfl

theorem tail_pay3_eq (v1 : Vec Ideal S128x16x16 .f32) (v26 : FVec Ideal S128x16x512 .f32) (v38 : FVec Ideal S128x16x16 .f32) :
    k0_pay3 (F := Ideal) v1 v26 v38
      = tailStore (mulf (k0_pay1 (F := Ideal) v1 v26 v38) (k0_pay1 (F := Ideal) v1 v26 v38)) := rfl

theorem tail_k1pay1_eq (v0 : Vec Ideal S128x16x512 .f32) (v1 : Vec Ideal S128x16x16 .f32) (v26 : FVec Ideal S128x16x512 .f32)
    (v38 : FVec Ideal S128x16x16 .f32) (v60 v62 : Vec Ideal S512 .f32) :
    k1_pay1 (F := Ideal) v0 v1 v26 v38 v60 v62
      = addf v0 (mulf (broadcast S128x16x512 (Scalar.ofBits .f32 0x3F800000#32))
          (addf (mulf (tailHp v1 v26 v38) (tailChan v60)) (tailChan v62))) := rfl

/-! ## Each stage at coordinates -/

theorem tail_soft_apply (v38 : FVec Ideal S128x16x16 .f32) (n : Fin 128) (v w : Fin 16) :
    tailSoft v38 (ix3 n v w) = Ideal.div (v38 (ix3 n v w)) (∑ w' : Fin 16, v38 (ix3 n v w')) :=
  congrArg (Ideal.div (v38 (ix3 n v w))) (tail_rowsum_apply v38 n v w)

theorem tail_adj_apply (v1 : Vec Ideal S128x16x16 .f32) (n : Fin 128) (v w : Fin 16) :
    tailAdj v1 (ix3 n v w) = adjN (cur3 v1 n) v w := by
  refine congrArg (Ideal.div (v1 (ix3 n v w))) ?_
  refine (tail_bcast_ab1_abc _ _ n v w).trans ?_
  refine congrArg (fun t => max t eps12) ?_
  exact (tail_cast_ab_ab1 _ _ n v 0).trans (tail_lanesum (absf v1) _ _ _ n v)

theorem tail_mix_apply (v1 : Vec Ideal S128x16x16 .f32) (v38 : FVec Ideal S128x16x16 .f32) (n : Fin 128) (v w : Fin 16) :
    tailMix v1 v38 (ix3 n v w) = mix (cur3 v1 n) (cur3 v38 n) v w := by
  show (tailAdj v1 (ix3 n v w) + one * tailSoft v38 (ix3 n v w)) * half = _
  rw [tail_adj_apply, tail_soft_apply]
  rfl

/-! ## The batched product at coordinates -/

theorem tail_lhs0 (i : S128x16x512.Idx) (q : dot_S128x16x16_S128x16x512_S128x16x512_2_1_1_2_0_0.contr.Idx) :
    (dot_S128x16x16_S128x16x512_S128x16x512_2_1_1_2_0_0.lhsIdx i q 0).val = (i 0).val := by
  unfold DotDims.lhsIdx
  rw [dif_pos (show (0 : Fin S128x16x16.rank) ∈ dot_S128x16x16_S128x16x512_S128x16x512_2_1_1_2_0_0.lhsBatch by decide)]
  rfl
theorem tail_lhs1 (i : S128x16x512.Idx) (q : dot_S128x16x16_S128x16x512_S128x16x512_2_1_1_2_0_0.contr.Idx) :
    (dot_S128x16x16_S128x16x512_S128x16x512_2_1_1_2_0_0.lhsIdx i q 1).val = (i 1).val := by
  unfold DotDims.lhsIdx
  rw [dif_neg (show ¬(1 : Fin S128x16x16.rank) ∈ dot_S128x16x16_S128x16x512_S128x16x512_2_1_1_2_0_0.lhsBatch by decide),
    dif_pos (show (1 : Fin S128x16x16.rank) ∈ dot_S128x16x16_S128x16x512_S128x16x512_2_1_1_2_0_0.lhsNonContracting by decide)]
  rfl
theorem tail_lhs2 (i : S128x16x512.Idx) (q : dot_S128x16x16_S128x16x512_S128x16x512_2_1_1_2_0_0.contr.Idx) :
    (dot_S128x16x16_S128x16x512_S128x16x512_2_1_1_2_0_0.lhsIdx i q 2).val = (q ⟨0, by decide⟩).val :=
  dot_S128x16x16_S128x16x512_S128x16x512_2_1_1_2_0_0.lhsIdx_val_of_single rfl i q
theorem tail_rhs0 (i : S128x16x512.Idx) (q : dot_S128x16x16_S128x16x512_S128x16x512_2_1_1_2_0_0.contr.Idx) :
    (dot_S128x16x16_S128x16x512_S128x16x512_2_1_1_2_0_0.rhsIdx i q 0).val = (i 0).val := by
  unfold DotDims.rhsIdx
  rw [dif_pos (show (0 : Fin S128x16x512.rank) ∈ dot_S128x16x16_S128x16x512_S128x16x512_2_1_1_2_0_0.rhsBatch by decide)]
  rfl
theorem tail_rhs1 (i : S128x16x512.Idx) (q : dot_S128x16x16_S128x16x512_S128x16x512_2_1_1_2_0_0.contr.Idx) :
    (dot_S128x16x16_S128x16x512_S128x16x512_2_1_1_2_0_0.rhsIdx i q 1).val = (q ⟨0, by decide⟩).val :=
  dot_S128x16x16_S128x16x512_S128x16x512_2_1_1_2_0_0.rhsIdx_val_of_single rfl i q
theorem tail_rhs2 (i : S128x16x512.Idx) (q : dot_S128x16x16_S128x16x512_S128x16x512_2_1_1_2_0_0.contr.Idx) :
    (dot_S128x16x16_S128x16x512_S128x16x512_2_1_1_2_0_0.rhsIdx i q 2).val = (i 2).val := by
  unfold DotDims.rhsIdx
  rw [dif_neg (show ¬(2 : Fin S128x16x512.rank) ∈ dot_S128x16x16_S128x16x512_S128x16x512_2_1_1_2_0_0.rhsBatch by decide),
    dif_pos (show (2 : Fin S128x16x512.rank) ∈ dot_S128x16x16_S128x16x512_S128x16x512_2_1_1_2_0_0.rhsNonContracting by decide)]
  rfl

/-- The batched product into the zero accumulator, at (n, v, c): the sum over the 16 neighbours. -/
theorem tail_matmul_apply (L : FVec Ideal S128x16x16 .bf16) (R : FVec Ideal S128x16x512 .bf16) (n : Fin 128) (v : Fin 16) (c : Fin 512) :
    matmul dot_S128x16x16_S128x16x512_S128x16x512_2_1_1_2_0_0 none L R (constant (F := Ideal) S128x16x512 .f32 0x00000000#32) (ix3 n v c)
      = ∑ w : Fin 16, L (ix3 n v w) * R (ix3 n w c) := by
  refine (Ideal.matmul_constant_zero_apply dot_S128x16x16_S128x16x512_S128x16x512_2_1_1_2_0_0 none L R (ix3 n v c)).trans ?_
  rw [← Equiv.sum_comp (ValueIdx.contrEquiv1 dot_S128x16x16_S128x16x512_S128x16x512_2_1_1_2_0_0 16 rfl rfl).symm]
  refine Finset.sum_congr rfl fun k _ => ?_
  have hk := ValueIdx.contrEquiv1_symm_val dot_S128x16x16_S128x16x512_S128x16x512_2_1_1_2_0_0 16 rfl rfl k
  have el : dot_S128x16x16_S128x16x512_S128x16x512_2_1_1_2_0_0.lhsIdx (ix3 n v c)
      ((ValueIdx.contrEquiv1 dot_S128x16x16_S128x16x512_S128x16x512_2_1_1_2_0_0 16 rfl rfl).symm k) = ix3 n v k :=
    funext fun a => Fin.ext (by
      match a with
      | ⟨0, _⟩ => exact tail_lhs0 _ _
      | ⟨1, _⟩ => exact tail_lhs1 _ _
      | ⟨2, _⟩ => exact (tail_lhs2 _ _).trans hk)
  have er : dot_S128x16x16_S128x16x512_S128x16x512_2_1_1_2_0_0.rhsIdx (ix3 n v c)
      ((ValueIdx.contrEquiv1 dot_S128x16x16_S128x16x512_S128x16x512_2_1_1_2_0_0 16 rfl rfl).symm k) = ix3 n k c :=
    funext fun a => Fin.ext (by
      match a with
      | ⟨0, _⟩ => exact tail_rhs0 _ _
      | ⟨1, _⟩ => exact (tail_rhs1 _ _).trans hk
      | ⟨2, _⟩ => exact tail_rhs2 _ _)
  rw [el, er]

/-! ## The layer output, the stored sums and the channel vectors at coordinates -/

theorem tail_hp_apply (v1 : Vec Ideal S128x16x16 .f32) (v26 : FVec Ideal S128x16x512 .f32) (v38 : FVec Ideal S128x16x16 .f32)
    (n : Fin 128) (v : Fin 16) (c : Fin 512) :
    tailHp v1 v26 v38 (ix3 n v c) = hpFrom (cur3 v1 n) (cur3 v26 n) (cur3 v38 n) v c := by
  refine congrArg (fun t => max t zero) ?_
  refine (tail_matmul_apply _ _ n v c).trans ?_
  refine Finset.sum_congr rfl fun w _ => ?_
  exact congrArg (fun t => t * v26 (ix3 n w c)) (tail_mix_apply v1 v38 n v w)

theorem tail_store_apply (X : FVec Ideal S2048x512 .f32) (z : Fin 1) (j : Fin 8) (c : Fin 512) :
    tailStore X (ix3 z j c) = (∑ r : Fin 2048, X (ix2 r c)) * eighth := by
  refine (shapeCast_ab_1ab_apply _ _ z j c).trans ?_
  refine (broadcastTo_1b_ab_apply _ _ j c).trans ?_
  refine (shapeCast_a_1a_apply _ _ (0 : Fin 1) c).trans ?_
  exact congrArg (fun t => t * eighth) (tail_colsum X _ _ _ c)

theorem tail_chan_apply (y : Vec Ideal S512 .f32) (n : Fin 128) (v : Fin 16) (c : Fin 512) :
    tailChan y (ix3 n v c) = y (ix1 c) := by
  refine (tail_bcast_11c_abc _ _ n v c).trans ?_
  refine (tail_cast_c_11c _ _ (0 : Fin 1) (0 : Fin 1) c).trans ?_
  rw [shapeCast_self]

/-! ## The three stored values -/

theorem k0_pay2_apply (v1 : Vec Ideal S128x16x16 .f32) (v26 : FVec Ideal S128x16x512 .f32) (v38 : FVec Ideal S128x16x16 .f32)
    (z : Fin 1) (j : Fin 8) (c : Fin 512) :
    k0_pay2 (F := Ideal) v1 v26 v38 (ix3 z j c)
      = (∑ r : Fin 2048, hpFrom (cur3 v1 (gOf r)) (cur3 v26 (gOf r)) (cur3 v38 (gOf r)) (nOf r) c) * eighth := by
  rw [tail_pay2_eq, tail_store_apply, tail_pay1_eq]
  refine congrArg (fun t => t * eighth) (Finset.sum_congr rfl fun r _ => ?_)
  exact (tail_flat_apply _ _ r c).trans (tail_hp_apply v1 v26 v38 (gOf r) (nOf r) c)

theorem k0_pay3_apply (v1 : Vec Ideal S128x16x16 .f32) (v26 : FVec Ideal S128x16x512 .f32) (v38 : FVec Ideal S128x16x16 .f32)
    (z : Fin 1) (j : Fin 8) (c : Fin 512) :
    k0_pay3 (F := Ideal) v1 v26 v38 (ix3 z j c)
      = (∑ r : Fin 2048, hpFrom (cur3 v1 (gOf r)) (cur3 v26 (gOf r)) (cur3 v38 (gOf r)) (nOf r) c
            * hpFrom (cur3 v1 (gOf r)) (cur3 v26 (gOf r)) (cur3 v38 (gOf r)) (nOf r) c) * eighth := by
  rw [tail_pay3_eq, tail_store_apply, tail_pay1_eq]
  refine congrArg (fun t => t * eighth) (Finset.sum_congr rfl fun r _ => ?_)
  have e := (tail_flat_apply (tailHp v1 v26 v38) shapeCasts_S128x16x512_S2048x512 r c).trans
    (tail_hp_apply v1 v26 v38 (gOf r) (nOf r) c)
  show shapeCast S2048x512 (tailHp v1 v26 v38) shapeCasts_S128x16x512_S2048x512 (ix2 r c)
      * shapeCast S2048x512 (tailHp v1 v26 v38) shapeCasts_S128x16x512_S2048x512 (ix2 r c) = _
  rw [e]

theorem k1_pay1_apply (v0 : Vec Ideal S128x16x512 .f32) (v1 : Vec Ideal S128x16x16 .f32) (v26 : FVec Ideal S128x16x512 .f32)
    (v38 : FVec Ideal S128x16x16 .f32) (v60 v62 : Vec Ideal S512 .f32) (n : Fin 128) (v : Fin 16) (c : Fin 512) :
    k1_pay1 (F := Ideal) v0 v1 v26 v38 v60 v62 (ix3 n v c)
      = v0 (ix3 n v c) + one * (hpFrom (cur3 v1 n) (cur3 v26 n) (cur3 v38 n) v c * v60 (ix1 c) + v62 (ix1 c)) := by
  rw [tail_k1pay1_eq]
  show v0 (ix3 n v c) + one * (tailHp v1 v26 v38 (ix3 n v c) * tailChan v60 (ix3 n v c) + tailChan v62 (ix3 n v c)) = _
  rw [tail_hp_apply, tail_chan_apply, tail_chan_apply]

end Cert.KernelIdeal.PayTail

end
-- ==== Proof.KOut.lean ====
import proofs.«175194_j59081570125129_2_alg».proof.Proof.Gen.KernelIdeal.Frame
import proofs.«175194_j59081570125129_2_alg».proof.Proof.KPayHE
import proofs.«175194_j59081570125129_2_alg».proof.Proof.KPayTail

/-! What each output window's buffer holds after the body, read at an index, from the input blocks. -/

noncomputable section

namespace Cert.KernelIdeal.Out

open Idealize.ShloMosaic Idealize.ShloMosaic.ValueIdx Cert.KernelIdeal Cert.KernelIdeal.Gen Cert.Spec

/-! ## Zero offsets, however they are spelt -/

theorem out_hz1 : (![0] : Fin 1 → Nat) = fun _ => 0 := funext fun a => by fin_cases a <;> rfl
theorem out_hz2 : (![0, 0] : Fin 2 → Nat) = fun _ => 0 := funext fun a => by fin_cases a <;> rfl
theorem out_hz3 : (![0, 0, 0] : Fin 3 → Nat) = fun _ => 0 := funext fun a => by fin_cases a <;> rfl

/-! ## The layer output of one graph, from the block's own rows -/

/-- With the linear map and the shifted exponentials read off the block, the message-passing stage is the
    layer output of the graph's own rows. -/
theorem out_hp0 (x0 : Vec Ideal S128x16x512 .f32) (x1 : Vec Ideal S128x16x16 .f32) (x2 : Vec Ideal S512x512 .f32)
    (x3 x4 : Vec Ideal S128x512 .f32) (x5 x6 : Vec Ideal S128 .f32) (n : Fin 128) :
    hpFrom (cur3 x1 n) (cur3 (k0_pay5 (F := Ideal) x0 x2) n) (cur3 (k0_pay6 (F := Ideal) x0 x2 x3 x4 x5 x6) n)
      = hpRow (cur2 x2) (cur2 x3) (cur1 x5) (cur2 x4) (cur1 x6) (cur3 x0 n) (cur3 x1 n) := by
  have e5 : cur3 (k0_pay5 (F := Ideal) x0 x2) n = lin (cur2 x2) (cur3 x0 n) :=
    funext fun v => funext fun o => PayHE.k0_pay5_apply x0 x2 n v o
  have e6 : cur3 (k0_pay6 (F := Ideal) x0 x2 x3 x4 x5 x6) n
      = expoRow (cur2 x2) (cur2 x3) (cur1 x5) (cur2 x4) (cur1 x6) (cur3 x0 n) :=
    funext fun v => funext fun w => PayHE.k0_pay6_apply x0 x2 x3 x4 x5 x6 n v w
  rw [e5, e6]
  rfl

theorem out_hp1 (x0 : Vec Ideal S128x16x512 .f32) (x1 : Vec Ideal S128x16x16 .f32) (x2 : Vec Ideal S512x512 .f32)
    (x3 x4 : Vec Ideal S128x512 .f32) (x5 x6 : Vec Ideal S128 .f32) (n : Fin 128) :
    hpFrom (cur3 x1 n) (cur3 (k1_pay3 (F := Ideal) x0 x2) n) (cur3 (k1_pay4 (F := Ideal) x0 x2 x3 x4 x5 x6) n)
      = hpRow (cur2 x2) (cur2 x3) (cur1 x5) (cur2 x4) (cur1 x6) (cur3 x0 n) (cur3 x1 n) := by
  have e3 : cur3 (k1_pay3 (F := Ideal) x0 x2) n = lin (cur2 x2) (cur3 x0 n) :=
    funext fun v => funext fun o => PayHE.k1_pay3_apply x0 x2 n v o
  have e4 : cur3 (k1_pay4 (F := Ideal) x0 x2 x3 x4 x5 x6) n
      = expoRow (cur2 x2) (cur2 x3) (cur1 x5) (cur2 x4) (cur1 x6) (cur3 x0 n) :=
    funext fun v => funext fun w => PayHE.k1_pay4_apply x0 x2 x3 x4 x5 x6 n v w
  rw [e3, e4]
  rfl

/-! ## The three output buffers -/

theorem out0_7_apply (x0 : Vec Ideal S128x16x512 .f32) (x1 : Vec Ideal S128x16x16 .f32) (x2 : Vec Ideal S512x512 .f32)
    (x3 x4 : Vec Ideal S128x512 .f32) (x5 x6 : Vec Ideal S128 .f32) (z : Fin 1) (j : Fin 8) (c : Fin 512) :
    out0_7 (F := Ideal) x0 x1 x2 x3 x4 x5 x6 (ix3 z j c)
      = (∑ r : Fin 2048, hpRow (cur2 x2) (cur2 x3) (cur1 x5) (cur2 x4) (cur1 x6) (cur3 x0 (gOf r)) (cur3 x1 (gOf r)) (nOf r) c) * eighth := by
  unfold out0_7
  rw [View.canon_unit_zero out_hz3]
  simp only [View.ld_unit_zero (S := S128x16x512) out_hz3, View.ld_unit_zero (S := S128x16x16) out_hz3,
    View.ld_unit_zero (S := S512x512) out_hz2, View.ld_unit_zero (S := S128x512) out_hz2, View.ld_unit_zero (S := S128) out_hz1]
  rw [PayTail.k0_pay2_apply]
  refine congrArg (fun t => t * eighth) (Finset.sum_congr rfl fun r _ => ?_)
  rw [out_hp0]

theorem out0_8_apply (x0 : Vec Ideal S128x16x512 .f32) (x1 : Vec Ideal S128x16x16 .f32) (x2 : Vec Ideal S512x512 .f32)
    (x3 x4 : Vec Ideal S128x512 .f32) (x5 x6 : Vec Ideal S128 .f32) (z : Fin 1) (j : Fin 8) (c : Fin 512) :
    out0_8 (F := Ideal) x0 x1 x2 x3 x4 x5 x6 (ix3 z j c)
      = (∑ r : Fin 2048, hpRow (cur2 x2) (cur2 x3) (cur1 x5) (cur2 x4) (cur1 x6) (cur3 x0 (gOf r)) (cur3 x1 (gOf r)) (nOf r) c
            * hpRow (cur2 x2) (cur2 x3) (cur1 x5) (cur2 x4) (cur1 x6) (cur3 x0 (gOf r)) (cur3 x1 (gOf r)) (nOf r) c) * eighth := by
  unfold out0_8
  rw [View.canon_unit_zero out_hz3]
  simp only [View.ld_unit_zero (S := S128x16x512) out_hz3, View.ld_unit_zero (S := S128x16x16) out_hz3,
    View.ld_unit_zero (S := S512x512) out_hz2, View.ld_unit_zero (S := S128x512) out_hz2, View.ld_unit_zero (S := S128) out_hz1]
  rw [PayTail.k0_pay3_apply]
  refine congrArg (fun t => t * eighth) (Finset.sum_congr rfl fun r _ => ?_)
  rw [out_hp0]

theorem out1_9_apply (x0 : Vec Ideal S128x16x512 .f32) (x1 : Vec Ideal S128x16x16 .f32) (x2 : Vec Ideal S512x512 .f32)
    (x3 x4 : Vec Ideal S128x512 .f32) (x5 x6 : Vec Ideal S128 .f32) (x7 x8 : Vec Ideal S512 .f32) (n : Fin 128) (v : Fin 16) (c : Fin 512) :
    out1_9 (F := Ideal) x0 x1 x2 x3 x4 x5 x6 x7 x8 (ix3 n v c)
      = x0 (ix3 n v c) + one * (hpRow (cur2 x2) (cur2 x3) (cur1 x5) (cur2 x4) (cur1 x6) (cur3 x0 n) (cur3 x1 n) v c * x7 (ix1 c) + x8 (ix1 c)) := by
  unfold out1_9
  rw [View.canon_unit_zero out_hz3]
  simp only [View.ld_unit_zero (S := S128x16x512) out_hz3, View.ld_unit_zero (S := S128x16x16) out_hz3,
    View.ld_unit_zero (S := S512x512) out_hz2, View.ld_unit_zero (S := S128x512) out_hz2, View.ld_unit_zero (S := S128) out_hz1,
    View.ld_unit_zero (S := S512) out_hz1]
  rw [PayTail.k1_pay1_apply, out_hp1]

end Cert.KernelIdeal.Out

end
-- ==== Proof.KBlocks.lean ====
import proofs.«175194_j59081570125129_2_alg».proof.Proof.Gen.KernelIdeal.Frame
import proofs.«175194_j59081570125129_2_alg».proof.Proof.KOut
import Idealize.ShloMosaic.Lib.Pipeline.Value

/-! From blocks to arrays: what each region's output arrays hold when the region ends, as one function of the arrays
    the region finds. Region 0 writes, for each of its 32 blocks of 128 graphs, the block's partial sums; region 1
    writes the normalised output block by block. -/

set_option maxRecDepth 16384

noncomputable section

namespace Cert.KernelIdeal.Blocks

open Idealize.ShloMosaic Idealize.ShloMosaic.TcCoe Idealize.ShloMosaic.ValueIdx Cert.KernelIdeal Cert.KernelIdeal.Gen Cert.Spec
open Idealize.ShloMosaic.Pipeline (Dat)

variable (V : (c : Dev nD) → (b : Ref sig .tc) → Buf (Elt Ideal) ((c : Thread nD τ).loc b))

/-- The layer's output before normalisation, of the argument arrays as a region finds them. -/
def hpOf (c : Dev nD) : Fin 4096 → Fin 16 → Fin 512 → EReal :=
  hpAll (cur2 (V c main_arg2)) (cur2 (V c main_arg3)) (cur1 (V c main_arg4)) (cur2 (V c main_arg5)) (cur1 (V c main_arg6))
    (cur3 (V c main_arg0)) (cur3 (V c main_arg1))

/-! ## Region 0

Point t of the grid reads block t of the node features and of the adjacency (graphs 128 t … 128 t + 127), the whole of
each weight array, and writes row t of the two [32, 8, 512] arrays of partial sums. -/

/-- The index maps over the grid: the two graph-indexed inputs and the two outputs move with the point on the first
    axis; every other block index is 0. -/
theorem kb0_idx : ∀ t : Fin cfg0.N,
    win0_0.index t (0 : Fin 3) = t.val ∧ win0_0.index t (1 : Fin 3) = 0 ∧ win0_0.index t (2 : Fin 3) = 0
  ∧ win0_1.index t (0 : Fin 3) = t.val ∧ win0_1.index t (1 : Fin 3) = 0 ∧ win0_1.index t (2 : Fin 3) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 1) = 0
  ∧ win0_6.index t (0 : Fin 1) = 0
  ∧ win0_7.index t (0 : Fin 3) = t.val ∧ win0_7.index t (1 : Fin 3) = 0 ∧ win0_7.index t (2 : Fin 3) = 0
  ∧ win0_8.index t (0 : Fin 3) = t.val ∧ win0_8.index t (1 : Fin 3) = 0 ∧ win0_8.index t (2 : Fin 3) = 0 :=
  (by decide +kernel : ∀ t : Fin grid0.N, _)

/-- The grid has 32 points. -/
theorem kb0_N : cfg0.N = 32 := N_0

/-- Block t of the node features is rows 128 t … of the array. -/
theorem kb0_iblk0 (c : Dev nD) (t : Fin cfg0.N) (x : S128x16x512.Idx) (k : S4096x16x512.Idx)
    (hk0 : (k 0).val = 128 * t.val + (x 0).val) (hk1 : (k 1).val = (x 1).val) (hk2 : (k 2).val = (x 2).val) :
    (iblk0 V c 0 t : Vec Ideal S128x16x512 .f32) x = (V c main_arg0 : S4096x16x512.Idx → EReal) k := by
  obtain ⟨e0, e1, e2, -⟩ := kb0_idx t
  unfold iblk0
  rw [View.read_apply]
  show V c main_arg0 _ = V c main_arg0 _
  congr 1
  funext a
  apply Fin.ext
  match a with
  | ⟨0, _⟩ => show win0_0.index t 0 * 128 + 1 * (x 0).val = (k 0).val; rw [e0, hk0]; omega
  | ⟨1, _⟩ => show win0_0.index t 1 * 16 + 1 * (x 1).val = (k 1).val; rw [e1, hk1]; omega
  | ⟨2, _⟩ => show win0_0.index t 2 * 512 + 1 * (x 2).val = (k 2).val; rw [e2, hk2]; omega

/-- Block t of the adjacency is rows 128 t … of the array. -/
theorem kb0_iblk1 (c : Dev nD) (t : Fin cfg0.N) (x : S128x16x16.Idx) (k : S4096x16x16.Idx)
    (hk0 : (k 0).val = 128 * t.val + (x 0).val) (hk1 : (k 1).val = (x 1).val) (hk2 : (k 2).val = (x 2).val) :
    (iblk0 V c 1 t : Vec Ideal S128x16x16 .f32) x = (V c main_arg1 : S4096x16x16.Idx → EReal) k := by
  obtain ⟨-, -, -, e0, e1, e2, -⟩ := kb0_idx t
  unfold iblk0
  rw [View.read_apply]
  show V c main_arg1 _ = V c main_arg1 _
  congr 1
  funext a
  apply Fin.ext
  match a with
  | ⟨0, _⟩ => show win0_1.index t 0 * 128 + 1 * (x 0).val = (k 0).val; rw [e0, hk0]; omega
  | ⟨1, _⟩ => show win0_1.index t 1 * 16 + 1 * (x 1).val = (k 1).val; rw [e1, hk1]; omega
  | ⟨2, _⟩ => show win0_1.index t 2 * 16 + 1 * (x 2).val = (k 2).val; rw [e2, hk2]; omega

/-- The weight windows' blocks are the whole arrays. -/
theorem kb0_iblk2 (c : Dev nD) (t : Fin cfg0.N) : (iblk0 V c 2 t : Vec Ideal S512x512 .f32) = (V c main_arg2 : S512x512.Idx → EReal) := by
  obtain ⟨-, -, -, -, -, -, e0, e1, -⟩ := kb0_idx t
  funext x
  unfold iblk0
  rw [View.read_apply]
  show V c main_arg2 _ = V c main_arg2 _
  congr 1
  funext a
  apply Fin.ext
  match a with
  | ⟨0, _⟩ => show win0_2.index t 0 * 512 + 1 * (x 0).val = (x 0).val; rw [e0]; omega
  | ⟨1, _⟩ => show win0_2.index t 1 * 512 + 1 * (x 1).val = (x 1).val; rw [e1]; omega

theorem kb0_iblk3 (c : Dev nD) (t : Fin cfg0.N) : (iblk0 V c 3 t : Vec Ideal S128x512 .f32) = (V c main_arg3 : S128x512.Idx → EReal) := by
  obtain ⟨-, -, -, -, -, -, -, -, e0, e1, -⟩ := kb0_idx t
  funext x
  unfold iblk0
  rw [View.read_apply]
  show V c main_arg3 _ = V c main_arg3 _
  congr 1
  funext a
  apply Fin.ext
  match a with
  | ⟨0, _⟩ => show win0_3.index t 0 * 128 + 1 * (x 0).val = (x 0).val; rw [e0]; omega
  | ⟨1, _⟩ => show win0_3.index t 1 * 512 + 1 * (x 1).val = (x 1).val; rw [e1]; omega

theorem kb0_iblk4 (c : Dev nD) (t : Fin cfg0.N) : (iblk0 V c 4 t : Vec Ideal S128x512 .f32) = (V c main_arg5 : S128x512.Idx → EReal) := by
  obtain ⟨-, -, -, -, -, -, -, -, -, -, e0, e1, -⟩ := kb0_idx t
  funext x
  unfold iblk0
  rw [View.read_apply]
  show V c main_arg5 _ = V c main_arg5 _
  congr 1
  funext a
  apply Fin.ext
  match a with
  | ⟨0, _⟩ => show win0_4.index t 0 * 128 + 1 * (x 0).val = (x 0).val; rw [e0]; omega
  | ⟨1, _⟩ => show win0_4.index t 1 * 512 + 1 * (x 1).val = (x 1).val; rw [e1]; omega

theorem kb0_iblk5 (c : Dev nD) (t : Fin cfg0.N) : (iblk0 V c 5 t : Vec Ideal S128 .f32) = (V c main_arg4 : S128.Idx → EReal) := by
  obtain ⟨-, -, -, -, -, -, -, -, -, -, -, -, e0, -⟩ := kb0_idx t
  funext x
  unfold iblk0
  rw [View.read_apply]
  show V c main_arg4 _ = V c main_arg4 _
  congr 1
  funext a
  apply Fin.ext
  match a with
  | ⟨0, _⟩ => show win0_5.index t 0 * 128 + 1 * (x 0).val = (x 0).val; rw [e0]; omega

theorem kb0_iblk6 (c : Dev nD) (t : Fin cfg0.N) : (iblk0 V c 6 t : Vec Ideal S128 .f32) = (V c main_arg6 : S128.Idx → EReal) := by
  obtain ⟨-, -, -, -, -, -, -, -, -, -, -, -, -, e0, -⟩ := kb0_idx t
  funext x
  unfold iblk0
  rw [View.read_apply]
  show V c main_arg6 _ = V c main_arg6 _
  congr 1
  funext a
  apply Fin.ext
  match a with
  | ⟨0, _⟩ => show win0_6.index t 0 * 128 + 1 * (x 0).val = (x 0).val; rw [e0]; omega

/-- Graph n of block t of the node features is graph 128 t + n of the batch. -/
theorem kb0_x (c : Dev nD) (t : Fin cfg0.N) (b : Fin 32) (hb : b.val = t.val) (n : Fin 128) :
    cur3 (iblk0 V c 0 t : Vec Ideal S128x16x512 .f32) n = cur3 (V c main_arg0 : S4096x16x512.Idx → EReal) (rowOf b n) := by
  funext v k
  exact kb0_iblk0 V c t (ix3 n v k) (ix3 (rowOf b n) v k)
    (by show (rowOf b n).val = 128 * t.val + n.val; unfold rowOf; rw [← hb]) rfl rfl

/-- Graph n of block t of the adjacency is graph 128 t + n of the batch. -/
theorem kb0_adj (c : Dev nD) (t : Fin cfg0.N) (b : Fin 32) (hb : b.val = t.val) (n : Fin 128) :
    cur3 (iblk0 V c 1 t : Vec Ideal S128x16x16 .f32) n = cur3 (V c main_arg1 : S4096x16x16.Idx → EReal) (rowOf b n) := by
  funext v k
  exact kb0_iblk1 V c t (ix3 n v k) (ix3 (rowOf b n) v k)
    (by show (rowOf b n).val = 128 * t.val + n.val; unfold rowOf; rw [← hb]) rfl rfl

/-- What point t writes back to the array of partial sums is block t of the array of block sums: the body's result
    at the blocks it read, which are rows 128 t … of the graph-indexed arrays and the whole of each weight array. -/
theorem kb0_flushed7 (c : Dev nD) (t : Fin cfg0.N) :
    (dat0 (F := Ideal) V c).flushed 7 t = ((cfg0.win 7).blk t).view.read (Elt Ideal) (fun i : S32x8x512.Idx => partK (hpOf V c) (i 0) (i 2)) := by
  show (cfg0.win 7).cut (grid0.coords t) ((dat0 (F := Ideal) V c).after 7 t) = _
  rw [after0_7]
  funext j
  rw [View.read_apply, cast_eq]
  obtain ⟨-, -, -, -, -, -, -, -, -, -, -, -, -, -, e0, e1, e2, -⟩ := kb0_idx t
  have hj0 : (j 0).val < 1 := (j 0).isLt
  have hx : (cfg0.win 7).xinj (grid0.coords t) j = ix3 (⟨(j 0).val, (j 0).isLt⟩ : Fin 1) (⟨(j 1).val, (j 1).isLt⟩ : Fin 8) (⟨(j 2).val, (j 2).isLt⟩ : Fin 512) :=
    funext fun a => by match a with | ⟨0, _⟩ => rfl | ⟨1, _⟩ => rfl | ⟨2, _⟩ => rfl
  have hb : ((((cfg0.win 7).blk t).view.emb j 0 : Fin 32)).val = t.val := by
    show win0_7.index t 0 * 1 + 1 * (j 0).val = t.val
    rw [e0]; omega
  have hc : (((cfg0.win 7).blk t).view.emb j 2 : Fin 512) = (⟨(j 2).val, (j 2).isLt⟩ : Fin 512) := by
    apply Fin.ext
    show win0_7.index t 2 * 512 + 1 * (j 2).val = (j 2).val
    rw [e2]; omega
  refine (congrArg (out0_7 (F := Ideal) (iblk0 V c 0 t) (iblk0 V c 1 t) (iblk0 V c 2 t) (iblk0 V c 3 t) (iblk0 V c 4 t) (iblk0 V c 5 t) (iblk0 V c 6 t)) hx).trans ?_
  refine (Out.out0_7_apply (iblk0 V c 0 t) (iblk0 V c 1 t) (iblk0 V c 2 t) (iblk0 V c 3 t) (iblk0 V c 4 t) (iblk0 V c 5 t) (iblk0 V c 6 t) _ _ _).trans ?_
  rw [hc, kb0_iblk2 V c t, kb0_iblk3 V c t, kb0_iblk4 V c t, kb0_iblk5 V c t, kb0_iblk6 V c t]
  unfold partK
  refine congrArg (· * eighth) (Finset.sum_congr rfl fun r _ => ?_)
  rw [kb0_x V c t _ hb (gOf r), kb0_adj V c t _ hb (gOf r)]
  rfl

/-- An index of the partial-sum array lies in point t's block iff each coordinate is in the block's range. -/
theorem kb0_mem7 (t : Fin cfg0.N) (i : S32x8x512.Idx) :
    i ∈ ((cfg0.win 7).blk t).view.set ↔ ∀ a : Fin 3, win0_7.index t a * S1x8x512.size a ≤ (i a).val ∧ (i a).val < win0_7.index t a * S1x8x512.size a + S1x8x512.size a := by
  show i ∈ ((View.whole main_v0_0).slice (win0_7.rect t)).set ↔ _
  rw [View.set_slice_whole, Rect.mem_set_unit]
  exact Iff.rfl

/-- Row b of the partial-sum array is point b's block. -/
theorem kb0_cover7 (i : S32x8x512.Idx) : ∃ t : Fin cfg0.N, (cfg0.win 7).flush t = true ∧ i ∈ ((cfg0.win 7).blk t).view.set := by
  have h0 : (i 0).val < 32 := (i 0).isLt
  have h1 : (i 1).val < 8 := (i 1).isLt
  have h2 : (i 2).val < 512 := (i 2).isLt
  obtain ⟨t, ht⟩ : ∃ t : Fin cfg0.N, t.val = (i 0).val := ⟨Fin.cast kb0_N.symm ⟨(i 0).val, h0⟩, rfl⟩
  refine ⟨t, flush0_7 t, ?_⟩
  rw [kb0_mem7]
  obtain ⟨-, -, -, -, -, -, -, -, -, -, -, -, -, -, e0, e1, e2, -⟩ := kb0_idx t
  intro a
  match a with
  | ⟨0, _⟩ => show win0_7.index t 0 * 1 ≤ (i 0).val ∧ (i 0).val < win0_7.index t 0 * 1 + 1; rw [e0]; omega
  | ⟨1, _⟩ => show win0_7.index t 1 * 8 ≤ (i 1).val ∧ (i 1).val < win0_7.index t 1 * 8 + 8; rw [e1]; omega
  | ⟨2, _⟩ => show win0_7.index t 2 * 512 ≤ (i 2).val ∧ (i 2).val < win0_7.index t 2 * 512 + 512; rw [e2]; omega

/-- The array of partial sums when region 0 ends: the 32 points' blocks are its 32 rows. -/
theorem arr0_7 (c : Dev nD) :
    (dat0 (F := Ideal) V c).arrAt 7 cfg0.N = fun i : S32x8x512.Idx => partK (hpOf V c) (i 0) (i 2) :=
  (dat0 (F := Ideal) V c).arrAt_eq_of_cover 7 (fun i : S32x8x512.Idx => partK (hpOf V c) (i 0) (i 2))
    (fun t _ => kb0_flushed7 V c t) kb0_cover7

/-- The same for the array of partial sums of squares. -/
theorem kb0_flushed8 (c : Dev nD) (t : Fin cfg0.N) :
    (dat0 (F := Ideal) V c).flushed 8 t = ((cfg0.win 8).blk t).view.read (Elt Ideal) (fun i : S32x8x512.Idx => partSqK (hpOf V c) (i 0) (i 2)) := by
  show (cfg0.win 8).cut (grid0.coords t) ((dat0 (F := Ideal) V c).after 8 t) = _
  rw [after0_8]
  funext j
  rw [View.read_apply, cast_eq]
  obtain ⟨-, -, -, -, -, -, -, -, -, -, -, -, -, -, -, -, -, e0, e1, e2⟩ := kb0_idx t
  have hj0 : (j 0).val < 1 := (j 0).isLt
  have hx : (cfg0.win 8).xinj (grid0.coords t) j = ix3 (⟨(j 0).val, (j 0).isLt⟩ : Fin 1) (⟨(j 1).val, (j 1).isLt⟩ : Fin 8) (⟨(j 2).val, (j 2).isLt⟩ : Fin 512) :=
    funext fun a => by match a with | ⟨0, _⟩ => rfl | ⟨1, _⟩ => rfl | ⟨2, _⟩ => rfl
  have hb : ((((cfg0.win 8).blk t).view.emb j 0 : Fin 32)).val = t.val := by
    show win0_8.index t 0 * 1 + 1 * (j 0).val = t.val
    rw [e0]; omega
  have hc : (((cfg0.win 8).blk t).view.emb j 2 : Fin 512) = (⟨(j 2).val, (j 2).isLt⟩ : Fin 512) := by
    apply Fin.ext
    show win0_8.index t 2 * 512 + 1 * (j 2).val = (j 2).val
    rw [e2]; omega
  refine (congrArg (out0_8 (F := Ideal) (iblk0 V c 0 t) (iblk0 V c 1 t) (iblk0 V c 2 t) (iblk0 V c 3 t) (iblk0 V c 4 t) (iblk0 V c 5 t) (iblk0 V c 6 t)) hx).trans ?_
  refine (Out.out0_8_apply (iblk0 V c 0 t) (iblk0 V c 1 t) (iblk0 V c 2 t) (iblk0 V c 3 t) (iblk0 V c 4 t) (iblk0 V c 5 t) (iblk0 V c 6 t) _ _ _).trans ?_
  rw [hc, kb0_iblk2 V c t, kb0_iblk3 V c t, kb0_iblk4 V c t, kb0_iblk5 V c t, kb0_iblk6 V c t]
  unfold partSqK
  refine congrArg (· * eighth) (Finset.sum_congr rfl fun r _ => ?_)
  rw [kb0_x V c t _ hb (gOf r), kb0_adj V c t _ hb (gOf r)]
  rfl

/-- An index of the partial-sum-of-squares array lies in point t's block iff each coordinate is in the block's range. -/
theorem kb0_mem8 (t : Fin cfg0.N) (i : S32x8x512.Idx) :
    i ∈ ((cfg0.win 8).blk t).view.set ↔ ∀ a : Fin 3, win0_8.index t a * S1x8x512.size a ≤ (i a).val ∧ (i a).val < win0_8.index t a * S1x8x512.size a + S1x8x512.size a := by
  show i ∈ ((View.whole main_v0_1).slice (win0_8.rect t)).set ↔ _
  rw [View.set_slice_whole, Rect.mem_set_unit]
  exact Iff.rfl

/-- Row b of the partial-sum-of-squares array is point b's block. -/
theorem kb0_cover8 (i : S32x8x512.Idx) : ∃ t : Fin cfg0.N, (cfg0.win 8).flush t = true ∧ i ∈ ((cfg0.win 8).blk t).view.set := by
  have h0 : (i 0).val < 32 := (i 0).isLt
  have h1 : (i 1).val < 8 := (i 1).isLt
  have h2 : (i 2).val < 512 := (i 2).isLt
  obtain ⟨t, ht⟩ : ∃ t : Fin cfg0.N, t.val = (i 0).val := ⟨Fin.cast kb0_N.symm ⟨(i 0).val, h0⟩, rfl⟩
  refine ⟨t, flush0_8 t, ?_⟩
  rw [kb0_mem8]
  obtain ⟨-, -, -, -, -, -, -, -, -, -, -, -, -, -, -, -, -, e0, e1, e2⟩ := kb0_idx t
  intro a
  match a with
  | ⟨0, _⟩ => show win0_8.index t 0 * 1 ≤ (i 0).val ∧ (i 0).val < win0_8.index t 0 * 1 + 1; rw [e0]; omega
  | ⟨1, _⟩ => show win0_8.index t 1 * 8 ≤ (i 1).val ∧ (i 1).val < win0_8.index t 1 * 8 + 8; rw [e1]; omega
  | ⟨2, _⟩ => show win0_8.index t 2 * 512 ≤ (i 2).val ∧ (i 2).val < win0_8.index t 2 * 512 + 512; rw [e2]; omega

/-- The array of partial sums of squares when region 0 ends. -/
theorem arr0_8 (c : Dev nD) :
    (dat0 (F := Ideal) V c).arrAt 8 cfg0.N = fun i : S32x8x512.Idx => partSqK (hpOf V c) (i 0) (i 2) :=
  (dat0 (F := Ideal) V c).arrAt_eq_of_cover 8 (fun i : S32x8x512.Idx => partSqK (hpOf V c) (i 0) (i 2))
    (fun t _ => kb0_flushed8 V c t) kb0_cover8

/-! ## Region 1

Point t reads block t of the node features and of the adjacency, the whole of each weight array, of the scale and of
the shift, and writes block t (graphs 128 t … 128 t + 127) of the output. -/

/-- The index maps over the grid: the two graph-indexed inputs and the output move with the point on the first
    axis; every other block index is 0. -/
theorem kb1_idx : ∀ t : Fin cfg1.N,
    win1_0.index t (0 : Fin 3) = t.val ∧ win1_0.index t (1 : Fin 3) = 0 ∧ win1_0.index t (2 : Fin 3) = 0
  ∧ win1_1.index t (0 : Fin 3) = t.val ∧ win1_1.index t (1 : Fin 3) = 0 ∧ win1_1.index t (2 : Fin 3) = 0
  ∧ win1_2.index t (0 : Fin 2) = 0 ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 1) = 0
  ∧ win1_6.index t (0 : Fin 1) = 0
  ∧ win1_7.index t (0 : Fin 1) = 0
  ∧ win1_8.index t (0 : Fin 1) = 0
  ∧ win1_9.index t (0 : Fin 3) = t.val ∧ win1_9.index t (1 : Fin 3) = 0 ∧ win1_9.index t (2 : Fin 3) = 0 :=
  (by decide +kernel : ∀ t : Fin grid1.N, _)

/-- The grid has 32 points. -/
theorem kb1_N : cfg1.N = 32 := N_1

/-- Block t of the node features is rows 128 t … of the array. -/
theorem kb1_iblk0 (c : Dev nD) (t : Fin cfg1.N) (x : S128x16x512.Idx) (k : S4096x16x512.Idx)
    (hk0 : (k 0).val = 128 * t.val + (x 0).val) (hk1 : (k 1).val = (x 1).val) (hk2 : (k 2).val = (x 2).val) :
    (iblk1 V c 0 t : Vec Ideal S128x16x512 .f32) x = (V c main_arg0 : S4096x16x512.Idx → EReal) k := by
  obtain ⟨e0, e1, e2, -⟩ := kb1_idx t
  unfold iblk1
  rw [View.read_apply]
  show V c main_arg0 _ = V c main_arg0 _
  congr 1
  funext a
  apply Fin.ext
  match a with
  | ⟨0, _⟩ => show win1_0.index t 0 * 128 + 1 * (x 0).val = (k 0).val; rw [e0, hk0]; omega
  | ⟨1, _⟩ => show win1_0.index t 1 * 16 + 1 * (x 1).val = (k 1).val; rw [e1, hk1]; omega
  | ⟨2, _⟩ => show win1_0.index t 2 * 512 + 1 * (x 2).val = (k 2).val; rw [e2, hk2]; omega

/-- Block t of the adjacency is rows 128 t … of the array. -/
theorem kb1_iblk1 (c : Dev nD) (t : Fin cfg1.N) (x : S128x16x16.Idx) (k : S4096x16x16.Idx)
    (hk0 : (k 0).val = 128 * t.val + (x 0).val) (hk1 : (k 1).val = (x 1).val) (hk2 : (k 2).val = (x 2).val) :
    (iblk1 V c 1 t : Vec Ideal S128x16x16 .f32) x = (V c main_arg1 : S4096x16x16.Idx → EReal) k := by
  obtain ⟨-, -, -, e0, e1, e2, -⟩ := kb1_idx t
  unfold iblk1
  rw [View.read_apply]
  show V c main_arg1 _ = V c main_arg1 _
  congr 1
  funext a
  apply Fin.ext
  match a with
  | ⟨0, _⟩ => show win1_1.index t 0 * 128 + 1 * (x 0).val = (k 0).val; rw [e0, hk0]; omega
  | ⟨1, _⟩ => show win1_1.index t 1 * 16 + 1 * (x 1).val = (k 1).val; rw [e1, hk1]; omega
  | ⟨2, _⟩ => show win1_1.index t 2 * 16 + 1 * (x 2).val = (k 2).val; rw [e2, hk2]; omega

/-! The weight windows' blocks, and the scale's and the shift's, are the whole arrays. -/

theorem kb1_iblk2 (c : Dev nD) (t : Fin cfg1.N) : (iblk1 V c 2 t : Vec Ideal S512x512 .f32) = (V c main_arg2 : S512x512.Idx → EReal) := by
  obtain ⟨-, -, -, -, -, -, e0, e1, -⟩ := kb1_idx t
  funext x
  unfold iblk1
  rw [View.read_apply]
  show V c main_arg2 _ = V c main_arg2 _
  congr 1
  funext a
  apply Fin.ext
  match a with
  | ⟨0, _⟩ => show win1_2.index t 0 * 512 + 1 * (x 0).val = (x 0).val; rw [e0]; omega
  | ⟨1, _⟩ => show win1_2.index t 1 * 512 + 1 * (x 1).val = (x 1).val; rw [e1]; omega

theorem kb1_iblk3 (c : Dev nD) (t : Fin cfg1.N) : (iblk1 V c 3 t : Vec Ideal S128x512 .f32) = (V c main_arg3 : S128x512.Idx → EReal) := by
  obtain ⟨-, -, -, -, -, -, -, -, e0, e1, -⟩ := kb1_idx t
  funext x
  unfold iblk1
  rw [View.read_apply]
  show V c main_arg3 _ = V c main_arg3 _
  congr 1
  funext a
  apply Fin.ext
  match a with
  | ⟨0, _⟩ => show win1_3.index t 0 * 128 + 1 * (x 0).val = (x 0).val; rw [e0]; omega
  | ⟨1, _⟩ => show win1_3.index t 1 * 512 + 1 * (x 1).val = (x 1).val; rw [e1]; omega

theorem kb1_iblk4 (c : Dev nD) (t : Fin cfg1.N) : (iblk1 V c 4 t : Vec Ideal S128x512 .f32) = (V c main_arg5 : S128x512.Idx → EReal) := by
  obtain ⟨-, -, -, -, -, -, -, -, -, -, e0, e1, -⟩ := kb1_idx t
  funext x
  unfold iblk1
  rw [View.read_apply]
  show V c main_arg5 _ = V c main_arg5 _
  congr 1
  funext a
  apply Fin.ext
  match a with
  | ⟨0, _⟩ => show win1_4.index t 0 * 128 + 1 * (x 0).val = (x 0).val; rw [e0]; omega
  | ⟨1, _⟩ => show win1_4.index t 1 * 512 + 1 * (x 1).val = (x 1).val; rw [e1]; omega

theorem kb1_iblk5 (c : Dev nD) (t : Fin cfg1.N) : (iblk1 V c 5 t : Vec Ideal S128 .f32) = (V c main_arg4 : S128.Idx → EReal) := by
  obtain ⟨-, -, -, -, -, -, -, -, -, -, -, -, e0, -⟩ := kb1_idx t
  funext x
  unfold iblk1
  rw [View.read_apply]
  show V c main_arg4 _ = V c main_arg4 _
  congr 1
  funext a
  apply Fin.ext
  match a with
  | ⟨0, _⟩ => show win1_5.index t 0 * 128 + 1 * (x 0).val = (x 0).val; rw [e0]; omega

theorem kb1_iblk6 (c : Dev nD) (t : Fin cfg1.N) : (iblk1 V c 6 t : Vec Ideal S128 .f32) = (V c main_arg6 : S128.Idx → EReal) := by
  obtain ⟨-, -, -, -, -, -, -, -, -, -, -, -, -, e0, -⟩ := kb1_idx t
  funext x
  unfold iblk1
  rw [View.read_apply]
  show V c main_arg6 _ = V c main_arg6 _
  congr 1
  funext a
  apply Fin.ext
  match a with
  | ⟨0, _⟩ => show win1_6.index t 0 * 128 + 1 * (x 0).val = (x 0).val; rw [e0]; omega

theorem kb1_iblk7 (c : Dev nD) (t : Fin cfg1.N) : (iblk1 V c 7 t : Vec Ideal S512 .f32) = (V c main_v14 : S512.Idx → EReal) := by
  obtain ⟨-, -, -, -, -, -, -, -, -, -, -, -, -, -, e0, -⟩ := kb1_idx t
  funext x
  unfold iblk1
  rw [View.read_apply]
  show V c main_v14 _ = V c main_v14 _
  congr 1
  funext a
  apply Fin.ext
  match a with
  | ⟨0, _⟩ => show win1_7.index t 0 * 512 + 1 * (x 0).val = (x 0).val; rw [e0]; omega

theorem kb1_iblk8 (c : Dev nD) (t : Fin cfg1.N) : (iblk1 V c 8 t : Vec Ideal S512 .f32) = (V c main_v16 : S512.Idx → EReal) := by
  obtain ⟨-, -, -, -, -, -, -, -, -, -, -, -, -, -, -, e0, -⟩ := kb1_idx t
  funext x
  unfold iblk1
  rw [View.read_apply]
  show V c main_v16 _ = V c main_v16 _
  congr 1
  funext a
  apply Fin.ext
  match a with
  | ⟨0, _⟩ => show win1_8.index t 0 * 512 + 1 * (x 0).val = (x 0).val; rw [e0]; omega

/-- Graph n of block t of the node features is graph 128 t + n of the batch. -/
theorem kb1_x (c : Dev nD) (t : Fin cfg1.N) (b : Fin 32) (hb : b.val = t.val) (n : Fin 128) :
    cur3 (iblk1 V c 0 t : Vec Ideal S128x16x512 .f32) n = cur3 (V c main_arg0 : S4096x16x512.Idx → EReal) (rowOf b n) := by
  funext v k
  exact kb1_iblk0 V c t (ix3 n v k) (ix3 (rowOf b n) v k)
    (by show (rowOf b n).val = 128 * t.val + n.val; unfold rowOf; rw [← hb]) rfl rfl

/-- Graph n of block t of the adjacency is graph 128 t + n of the batch. -/
theorem kb1_adj (c : Dev nD) (t : Fin cfg1.N) (b : Fin 32) (hb : b.val = t.val) (n : Fin 128) :
    cur3 (iblk1 V c 1 t : Vec Ideal S128x16x16 .f32) n = cur3 (V c main_arg1 : S4096x16x16.Idx → EReal) (rowOf b n) := by
  funext v k
  exact kb1_iblk1 V c t (ix3 n v k) (ix3 (rowOf b n) v k)
    (by show (rowOf b n).val = 128 * t.val + n.val; unfold rowOf; rw [← hb]) rfl rfl

/-- What point t writes back to the output is block t of the normalised output: graph n of the block is graph
    128 t + n of the batch, and the scale and the shift are read whole. -/
theorem kb1_flushed9 (c : Dev nD) (t : Fin cfg1.N) :
    (dat1 (F := Ideal) V c).flushed 9 t = ((cfg1.win 9).blk t).view.read (Elt Ideal) (fun i : S4096x16x512.Idx =>
      cur3 (V c main_arg0) (i 0) (i 1) (i 2) + one * (hpOf V c (i 0) (i 1) (i 2) * cur1 (V c main_v14) (i 2) + cur1 (V c main_v16) (i 2))) := by
  show (cfg1.win 9).cut (grid1.coords t) ((dat1 (F := Ideal) V c).after 9 t) = _
  rw [after1_9]
  funext j
  rw [View.read_apply, cast_eq]
  obtain ⟨-, -, -, -, -, -, -, -, -, -, -, -, -, -, -, -, e0, e1, e2⟩ := kb1_idx t
  have hj0 : (j 0).val < 128 := (j 0).isLt
  have hj1 : (j 1).val < 16 := (j 1).isLt
  have hj2 : (j 2).val < 512 := (j 2).isLt
  have hx : (cfg1.win 9).xinj (grid1.coords t) j = ix3 (⟨(j 0).val, hj0⟩ : Fin 128) (⟨(j 1).val, hj1⟩ : Fin 16) (⟨(j 2).val, hj2⟩ : Fin 512) :=
    funext fun a => by match a with | ⟨0, _⟩ => rfl | ⟨1, _⟩ => rfl | ⟨2, _⟩ => rfl
  have hn : (((cfg1.win 9).blk t).view.emb j 0 : Fin 4096) = rowOf (Fin.cast kb1_N t) (⟨(j 0).val, hj0⟩ : Fin 128) := by
    apply Fin.ext
    show win1_9.index t 0 * 128 + 1 * (j 0).val = 128 * t.val + (j 0).val
    rw [e0]; omega
  have hv : (((cfg1.win 9).blk t).view.emb j 1 : Fin 16) = (⟨(j 1).val, hj1⟩ : Fin 16) := by
    apply Fin.ext
    show win1_9.index t 1 * 16 + 1 * (j 1).val = (j 1).val
    rw [e1]; omega
  have hc : (((cfg1.win 9).blk t).view.emb j 2 : Fin 512) = (⟨(j 2).val, hj2⟩ : Fin 512) := by
    apply Fin.ext
    show win1_9.index t 2 * 512 + 1 * (j 2).val = (j 2).val
    rw [e2]; omega
  refine (congrArg (out1_9 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t)) hx).trans ?_
  refine (Out.out1_9_apply (iblk1 V c 0 t) (iblk1 V c 1 t) (iblk1 V c 2 t) (iblk1 V c 3 t) (iblk1 V c 4 t) (iblk1 V c 5 t) (iblk1 V c 6 t) (iblk1 V c 7 t) (iblk1 V c 8 t) _ _ _).trans ?_
  rw [hn, hv, hc, kb1_x V c t (Fin.cast kb1_N t) rfl, kb1_adj V c t (Fin.cast kb1_N t) rfl,
    kb1_iblk0 V c t (ix3 (⟨(j 0).val, hj0⟩ : Fin 128) (⟨(j 1).val, hj1⟩ : Fin 16) (⟨(j 2).val, hj2⟩ : Fin 512))
      (ix3 (rowOf (Fin.cast kb1_N t) (⟨(j 0).val, hj0⟩ : Fin 128)) (⟨(j 1).val, hj1⟩ : Fin 16) (⟨(j 2).val, hj2⟩ : Fin 512)) rfl rfl rfl,
    kb1_iblk2 V c t, kb1_iblk3 V c t, kb1_iblk4 V c t, kb1_iblk5 V c t, kb1_iblk6 V c t, kb1_iblk7 V c t, kb1_iblk8 V c t]
  rfl

/-- An index of the output lies in point t's block iff each coordinate is in the block's range. -/
theorem kb1_mem9 (t : Fin cfg1.N) (i : S4096x16x512.Idx) :
    i ∈ ((cfg1.win 9).blk t).view.set ↔ ∀ a : Fin 3, win1_9.index t a * S128x16x512.size a ≤ (i a).val ∧ (i a).val < win1_9.index t a * S128x16x512.size a + S128x16x512.size a := by
  show i ∈ ((View.whole main_v17).slice (win1_9.rect t)).set ↔ _
  rw [View.set_slice_whole, Rect.mem_set_unit]
  exact Iff.rfl

/-- Graph g of the output is in the block of point g / 128. -/
theorem kb1_cover9 (i : S4096x16x512.Idx) : ∃ t : Fin cfg1.N, (cfg1.win 9).flush t = true ∧ i ∈ ((cfg1.win 9).blk t).view.set := by
  have h0 : (i 0).val < 4096 := (i 0).isLt
  have h1 : (i 1).val < 16 := (i 1).isLt
  have h2 : (i 2).val < 512 := (i 2).isLt
  obtain ⟨t, ht⟩ : ∃ t : Fin cfg1.N, t.val = (i 0).val / 128 := ⟨Fin.cast kb1_N.symm ⟨(i 0).val / 128, by omega⟩, rfl⟩
  refine ⟨t, flush1_9 t, ?_⟩
  rw [kb1_mem9]
  obtain ⟨-, -, -, -, -, -, -, -, -, -, -, -, -, -, -, -, e0, e1, e2⟩ := kb1_idx t
  intro a
  match a with
  | ⟨0, _⟩ => show win1_9.index t 0 * 128 ≤ (i 0).val ∧ (i 0).val < win1_9.index t 0 * 128 + 128; rw [e0]; omega
  | ⟨1, _⟩ => show win1_9.index t 1 * 16 ≤ (i 1).val ∧ (i 1).val < win1_9.index t 1 * 16 + 16; rw [e1]; omega
  | ⟨2, _⟩ => show win1_9.index t 2 * 512 ≤ (i 2).val ∧ (i 2).val < win1_9.index t 2 * 512 + 512; rw [e2]; omega

/-- The output when region 1 ends: the 32 points' blocks of 128 graphs fill it. -/
theorem arr1_9 (c : Dev nD) :
    (dat1 (F := Ideal) V c).arrAt 9 cfg1.N = fun i : S4096x16x512.Idx =>
      cur3 (V c main_arg0) (i 0) (i 1) (i 2) + one * (hpOf V c (i 0) (i 1) (i 2) * cur1 (V c main_v14) (i 2) + cur1 (V c main_v16) (i 2)) :=
  (dat1 (F := Ideal) V c).arrAt_eq_of_cover 9 (fun i : S4096x16x512.Idx =>
      cur3 (V c main_arg0) (i 0) (i 1) (i 2) + one * (hpOf V c (i 0) (i 1) (i 2) * cur1 (V c main_v14) (i 2) + cur1 (V c main_v16) (i 2)))
    (fun t _ => kb1_flushed9 V c t) kb1_cover9

end Cert.KernelIdeal.Blocks

end
-- ==== Proof.KHost.lean ====
import proofs.«175194_j59081570125129_2_alg».proof.Proof.Gen.KernelIdeal.Frame
import proofs.«175194_j59081570125129_2_alg».proof.Proof.Spec
import Idealize.ShloMosaic.Lib.StableHlo.Run
import Idealize.ShloMosaic.PureOps.Ideal.Laws
import Idealize.ShloMosaic.PureOps.Reduce
import Idealize.ShloMosaic.Lib.ValueIdx

/-! The host operations between the two regions: from the two [32,8,512] arrays of partial sums and the affine
    parameters to the per-channel scale and shift. Each partial sum was stored eight times scaled by ⅛, so the plain
    sum over blocks and stored rows is the total; mean, variance `max (E[hp²] − mean², 0)`, `scale = g · rsqrt (var + ε)`
    and `shift = b − mean · scale` follow. -/

noncomputable section

open scoped BigOperators

namespace Cert.KernelIdeal.KHost

open Cert.KernelIdeal Cert.KernelIdeal.Gen Cert.Spec
open Idealize.ShloMosaic Idealize.ShloMosaic.TcCoe Idealize.ShloMosaic.ValueIdx Idealize.ShloMosaic.StableHlo

/-! ## A sum over two leading axes -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- The sum over the indices of a rank-3 array whose last coordinate is `c` is the double sum over the first two. -/
theorem sum_filter_last {n0 n1 n2 : Nat} (f : (⟨3, ![n0, n1, n2]⟩ : Shape).Idx → EReal) (c : Fin n2) :
    ∑ i ∈ Finset.univ.filter (fun i : (⟨3, ![n0, n1, n2]⟩ : Shape).Idx => ((i 2 : Fin n2) : Nat) = c.val), f i
      = ∑ b : Fin n0, ∑ j : Fin n1, f (ix3 b j c) := by
  rw [Finset.sum_filter, ← Equiv.sum_comp (idxEquiv3 (n0 := n0) (n1 := n1) (n2 := n2)).symm, Fintype.sum_prod_type]
  refine Finset.sum_congr rfl fun b _ => ?_
  rw [Fintype.sum_prod_type]
  refine Finset.sum_congr rfl fun j _ => ?_
  show (∑ c' : Fin n2, if ((c' : Fin n2) : Nat) = c.val then f (ix3 b j c') else 0) = f (ix3 b j c)
  simp only [Fin.val_inj, Finset.sum_ite_eq', Finset.mem_univ, if_true]

/-- The host's float sum of a [32,8,512] array over its first two axes, at channel `c`: the initial value plus the
    double sum over blocks and rows. -/
theorem hostReduceAdd_two (h' : (⟨3, ![32, 8, 512]⟩ : Shape).ReducesTo [0, 1] (⟨1, ![512]⟩ : Shape))
    (x : (⟨3, ![32, 8, 512]⟩ : Shape).Idx → EReal) (init : EReal) (c : Fin 512) :
    Ideal.hostReduceAdd h' x init (ix1 c) = init + ∑ b : Fin 32, ∑ j : Fin 8, x (ix3 b j c) := by
  unfold Ideal.hostReduceAdd
  refine congrArg (init + ·) ?_
  rw [← sum_filter_last x c]
  refine Finset.sum_congr (Finset.filter_congr fun i _ => ?_) fun _ _ => rfl
  simp [funext_iff, Fin.ext_iff, Fin.forall_fin_one, h'.drop_apply_val_of_eq i 0 2]

/-! ## The stretch as functions of the arrays it reads -/

/-- The per-channel sum of a [32,8,512] array over its first two axes, from the zero word. -/
def sumT (a : FVec Ideal S32x8x512 .f32) : FVec Ideal S512 .f32 :=
  Host.reduceAdd (F := Ideal) a (constant (F := Ideal) S_ .f32 0x00000000#32) reducesTo_S32x8x512_S512_d0_1 h_S_
/-- … divided by the row count 65536. -/
def meanT (a : FVec Ideal S32x8x512 .f32) : FVec Ideal S512 .f32 :=
  Host.divf (F := Ideal) (sumT a) (broadcastInDim S512 ![] bcast_S_S512 (constant (F := Ideal) S_ .f32 0x47800000#32))
/-- The variance as `max (E[hp²] − mean², 0)`. -/
def varT (a0 a1 : FVec Ideal S32x8x512 .f32) : FVec Ideal S512 .f32 :=
  maximumf (subf (meanT a1) (mulf (meanT a0) (meanT a0))) (broadcastInDim S512 ![] bcast_S_S512 (constant (F := Ideal) S_ .f32 0x00000000#32))
/-- `scale = g · rsqrt (var + ε)`. -/
def scaleT (a0 a1 : FVec Ideal S32x8x512 .f32) (g : FVec Ideal S512 .f32) : FVec Ideal S512 .f32 :=
  mulf g (Host.rsqrt (F := Ideal) (addf (varT a0 a1) (broadcastInDim S512 ![] bcast_S_S512 (constant (F := Ideal) S_ .f32 0x3727C5AC#32))))
/-- `shift = b − mean · scale`. -/
def shiftT (a0 a1 : FVec Ideal S32x8x512 .f32) (g b : FVec Ideal S512 .f32) : FVec Ideal S512 .f32 :=
  subf b (mulf (meanT a0) (scaleT a0 a1 g))

/-- After the stretch, from ANY contents `Wv`, the scale buffer holds `scaleT` of the two partial-sum arrays and `g`. -/
theorem host_v14 (Wv : Valuation τ sig (Elt Ideal)) :
    StableHlo.after (hostOps1 (F := Ideal)) Wv (Proc.devRef .tc main_v14)
      = scaleT (Wv (Proc.devRef .tc main_v0_0)) (Wv (Proc.devRef .tc main_v0_1)) (Wv (Proc.devRef .tc main_arg7)) := by
  after_results_simp <;> rfl

/-- … and the shift buffer `shiftT` of them, `g` and `b`. -/
theorem host_v16 (Wv : Valuation τ sig (Elt Ideal)) :
    StableHlo.after (hostOps1 (F := Ideal)) Wv (Proc.devRef .tc main_v16)
      = shiftT (Wv (Proc.devRef .tc main_v0_0)) (Wv (Proc.devRef .tc main_v0_1)) (Wv (Proc.devRef .tc main_arg7)) (Wv (Proc.devRef .tc main_arg8)) := by
  after_results_simp <;> rfl

/-! ## Read at a channel -/

theorem sumT_apply (a : FVec Ideal S32x8x512 .f32) (c : Fin 512) :
    sumT a (ix1 c) = zero + ∑ b : Fin 32, ∑ j : Fin 8, a (ix3 b j c) := by
  unfold sumT
  simp only [Host.reduceAdd, Ideal.hostReduceAdd_def]
  exact hostReduceAdd_two reducesTo_S32x8x512_S512_d0_1 a _ c

/-- With the two arrays holding the blocks' partial sums, the sums are the specification's. -/
theorem sumT_part (hp : Fin 4096 → Fin 16 → Fin 512 → EReal) (c : Fin 512) :
    sumT (fun i : S32x8x512.Idx => partK hp (i 0) (i 2)) (ix1 c) = sumK hp c := by
  rw [sumT_apply]; rfl

theorem sumT_partSq (hp : Fin 4096 → Fin 16 → Fin 512 → EReal) (c : Fin 512) :
    sumT (fun i : S32x8x512.Idx => partSqK hp (i 0) (i 2)) (ix1 c) = sqK hp c := by
  rw [sumT_apply]; rfl

theorem scaleT_apply (a0 a1 : FVec Ideal S32x8x512 .f32) (g : FVec Ideal S512 .f32) (c : Fin 512) :
    scaleT a0 a1 g (ix1 c)
      = g (ix1 c) * Ideal.rsqrt (max (Ideal.div (sumT a1 (ix1 c)) cnt
          - Ideal.div (sumT a0 (ix1 c)) cnt * Ideal.div (sumT a0 (ix1 c)) cnt) zero + eps5) := rfl

theorem meanT_apply (a0 : FVec Ideal S32x8x512 .f32) (c : Fin 512) :
    meanT a0 (ix1 c) = Ideal.div (sumT a0 (ix1 c)) cnt := rfl

theorem shiftT_apply (a0 a1 : FVec Ideal S32x8x512 .f32) (g b : FVec Ideal S512 .f32) (c : Fin 512) :
    shiftT a0 a1 g b (ix1 c) = b (ix1 c) - meanT a0 (ix1 c) * scaleT a0 a1 g (ix1 c) := rfl

/-- The scale the second region reads is the specification's, when the first region's arrays hold the partial sums. -/
theorem scale_eq (hp : Fin 4096 → Fin 16 → Fin 512 → EReal) (g : FVec Ideal S512 .f32) (c : Fin 512) :
    scaleT (fun i : S32x8x512.Idx => partK hp (i 0) (i 2)) (fun i : S32x8x512.Idx => partSqK hp (i 0) (i 2)) g (ix1 c)
      = scaleK hp (cur1 g) c := by
  rw [scaleT_apply, sumT_part, sumT_partSq]; rfl

/-- … and so is the shift. -/
theorem shift_eq (hp : Fin 4096 → Fin 16 → Fin 512 → EReal) (g b : FVec Ideal S512 .f32) (c : Fin 512) :
    shiftT (fun i : S32x8x512.Idx => partK hp (i 0) (i 2)) (fun i : S32x8x512.Idx => partSqK hp (i 0) (i 2)) g b (ix1 c)
      = shiftK hp (cur1 g) (cur1 b) c := by
  rw [shiftT_apply, scale_eq, meanT_apply, sumT_part]; rfl

end Cert.KernelIdeal.KHost

end
-- ==== Proof.KRunNamed.lean ====
import proofs.«175194_j59081570125129_2_alg».proof.Proof.Gen.KernelIdeal.Frame

/-! The kernel program's run with its result named: every weakly fair execution terminates, the argument arrays end
    as launched, and the result buffer ends at what the last segment boundary holds there. -/

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the three segments (first region, the host stretch between, second region) from the launch memory: the
    last thread state holds every unscoped buffer at the last boundary's contents, read here at the result buffer and at
    the nine arguments. -/
theorem run : θ_run defs (onTc (τ := τ) (main (F := F))) ⟨m, fun _ => 0, ρ⟩ (fun r => ∀ c : Dev nD,
      r.2.mem ((c.tc : Thread nD τ).loc main_v17) = W3 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v17 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c)⟩)

end Cert.KernelIdeal.RunNamed

end
-- ==== Proof.KValue.lean ====
import proofs.«175194_j59081570125129_2_alg».proof.Proof.Gen.KernelIdeal.Frame
import proofs.«175194_j59081570125129_2_alg».proof.Proof.KBlocks
import proofs.«175194_j59081570125129_2_alg».proof.Proof.KHost
import proofs.«175194_j59081570125129_2_alg».proof.Proof.KRunNamed

/-! The kernel program's result as one function of its arguments: the first region leaves the blocks' partial sums,
    the host operations turn them into the per-channel scale and shift, the second region writes
    `x + 1 · (hp · scale + shift)` block by block — the specification's two-pass form `outK` of the layer output
    `hp` of the launch arguments. Neither region nor the host stretch writes an argument, so every boundary finds the
    arguments as launched. -/

noncomputable section

namespace Cert.KernelIdeal.KValue

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The layer's output before normalisation, of the arguments as launched. -/
def hp0 (c : Dev nD) : Fin 4096 → Fin 16 → Fin 512 → EReal := Blocks.hpOf (V0 m ρ) c

/-! ## The arguments at the second region's entry -/

theorem V2_arg0 (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)
theorem V2_arg1 (c : Dev nD) : V2 m ρ c main_arg1 = m ((c : Thread nD τ).loc main_arg1) :=
  ((W3_arr m ρ c 1).trans (((dat1 (V2 m ρ) c).arrAt_in 1 rfl _).trans (A_eq1 (V2 m ρ) c 1))).symm.trans (W3_main_arg1 m ρ c)
theorem V2_arg2 (c : Dev nD) : V2 m ρ c main_arg2 = m ((c : Thread nD τ).loc main_arg2) :=
  ((W3_arr m ρ c 2).trans (((dat1 (V2 m ρ) c).arrAt_in 2 rfl _).trans (A_eq1 (V2 m ρ) c 2))).symm.trans (W3_main_arg2 m ρ c)
theorem V2_arg3 (c : Dev nD) : V2 m ρ c main_arg3 = m ((c : Thread nD τ).loc main_arg3) :=
  ((W3_arr m ρ c 3).trans (((dat1 (V2 m ρ) c).arrAt_in 3 rfl _).trans (A_eq1 (V2 m ρ) c 3))).symm.trans (W3_main_arg3 m ρ c)
theorem V2_arg4 (c : Dev nD) : V2 m ρ c main_arg4 = m ((c : Thread nD τ).loc main_arg4) :=
  ((W3_arr m ρ c 5).trans (((dat1 (V2 m ρ) c).arrAt_in 5 rfl _).trans (A_eq1 (V2 m ρ) c 5))).symm.trans (W3_main_arg4 m ρ c)
theorem V2_arg5 (c : Dev nD) : V2 m ρ c main_arg5 = m ((c : Thread nD τ).loc main_arg5) :=
  ((W3_arr m ρ c 4).trans (((dat1 (V2 m ρ) c).arrAt_in 4 rfl _).trans (A_eq1 (V2 m ρ) c 4))).symm.trans (W3_main_arg5 m ρ c)
theorem V2_arg6 (c : Dev nD) : V2 m ρ c main_arg6 = m ((c : Thread nD τ).loc main_arg6) :=
  ((W3_arr m ρ c 6).trans (((dat1 (V2 m ρ) c).arrAt_in 6 rfl _).trans (A_eq1 (V2 m ρ) c 6))).symm.trans (W3_main_arg6 m ρ c)

theorem hpOf_V2 (c : Dev nD) : Blocks.hpOf (V2 m ρ) c = hp0 m ρ c := by
  unfold hp0 Blocks.hpOf
  rw [V2_arg0, V2_arg1, V2_arg2, V2_arg3, V2_arg4, V2_arg5, V2_arg6]

/-! ## What the first region leaves, and the affine parameters as launched -/

theorem W1_v0_0 (c : Dev nD) :
    W1 m ρ c (Proc.devRef .tc main_v0_0) = fun i : S32x8x512.Idx => partK (hp0 m ρ c) (i 0) (i 2) :=
  (W1_arr m ρ c 7).trans (Blocks.arr0_7 (V0 m ρ) c)

theorem W1_v0_1 (c : Dev nD) :
    W1 m ρ c (Proc.devRef .tc main_v0_1) = fun i : S32x8x512.Idx => partSqK (hp0 m ρ c) (i 0) (i 2) :=
  (W1_arr m ρ c 8).trans (Blocks.arr0_8 (V0 m ρ) c)

theorem W1_arg7 (c : Dev nD) : W1 m ρ c (Proc.devRef .tc main_arg7) = m ((c : Thread nD τ).loc main_arg7) :=
  W1_of_ne m ρ c main_arg7 (by decide)

theorem W1_arg8 (c : Dev nD) : W1 m ρ c (Proc.devRef .tc main_arg8) = m ((c : Thread nD τ).loc main_arg8) :=
  W1_of_ne m ρ c main_arg8 (by decide)

/-! ## Scale and shift at the second region's entry -/

theorem V2_scale (c : Dev nD) (ch : Fin 512) :
    cur1 (V2 m ρ c main_v14) ch = scaleK (hp0 m ρ c) (cur1 (m ((c : Thread nD τ).loc main_arg7))) ch := by
  show StableHlo.after (hostOps1 (F := Ideal)) (W1 m ρ c) (Proc.devRef .tc main_v14) (ix1 ch) = _
  rw [KHost.host_v14, W1_v0_0, W1_v0_1, W1_arg7]
  exact KHost.scale_eq _ _ ch

theorem V2_shift (c : Dev nD) (ch : Fin 512) :
    cur1 (V2 m ρ c main_v16) ch
      = shiftK (hp0 m ρ c) (cur1 (m ((c : Thread nD τ).loc main_arg7))) (cur1 (m ((c : Thread nD τ).loc main_arg8))) ch := by
  show StableHlo.after (hostOps1 (F := Ideal)) (W1 m ρ c) (Proc.devRef .tc main_v16) (ix1 ch) = _
  rw [KHost.host_v16, W1_v0_0, W1_v0_1, W1_arg7, W1_arg8]
  exact KHost.shift_eq _ _ _ ch

/-! ## The result -/

/-- What the result buffer holds at the last boundary. -/
def result (c : Dev nD) : Buf (Elt Ideal) ((c : Thread nD τ).loc main_v17) :=
  fun i : S4096x16x512.Idx => outK (hp0 m ρ c) (cur3 (m ((c : Thread nD τ).loc main_arg0)))
    (cur1 (m ((c : Thread nD τ).loc main_arg7))) (cur1 (m ((c : Thread nD τ).loc main_arg8))) (i 0) (i 1) (i 2)

theorem W3_v17 (c : Dev nD) : W3 m ρ c (Proc.devRef .tc main_v17) = result m ρ c := by
  refine (W3_arr m ρ c 9).trans ((Blocks.arr1_9 (V2 m ρ) c).trans ?_)
  funext i
  obtain ⟨n, v, ch, rfl⟩ : ∃ (n : Fin 4096) (v : Fin 16) (ch : Fin 512), i = ix3 n v ch := ⟨i 0, i 1, i 2, eq_ix3 i⟩
  show cur3 (V2 m ρ c main_arg0) n v ch
        + one * (Blocks.hpOf (V2 m ρ) c n v ch * cur1 (V2 m ρ c main_v14) ch + cur1 (V2 m ρ c main_v16) ch)
      = outK (hp0 m ρ c) (cur3 (m ((c : Thread nD τ).loc main_arg0))) (cur1 (m ((c : Thread nD τ).loc main_arg7)))
          (cur1 (m ((c : Thread nD τ).loc main_arg8))) n v ch
  rw [hpOf_V2, V2_scale, V2_shift, V2_arg0]
  rfl

/-- Every weakly fair execution of the kernel program terminates, its result at the two-pass form of the layer output of
    the arguments, the arguments unchanged. -/
theorem run : θ_run defs (onTc (τ := τ) (main (F := Ideal))) ⟨m, fun _ => 0, ρ⟩ (fun r => ∀ c : Dev nD,
      r.2.mem ((c.tc : Thread nD τ).loc main_v17) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (W3_v17 m ρ c), (h c).2⟩) (RunNamed.run (F := Ideal) m ρ)

end Cert.KernelIdeal.KValue

end
-- ==== Proof.RefHp.lean ====
import proofs.«175194_j59081570125129_2_alg».proof.Proof.Gen.ReferenceIdeal.Read
import proofs.«175194_j59081570125129_2_alg».proof.Proof.Spec
import proofs.«175194_j59081570125129_2_alg».proof.Proof.Consts
import Idealize.ShloMosaic.Lib.Pipeline.Value
import Idealize.ShloMosaic.Lib.ValueIdx
import Idealize.ShloMosaic.Lib.ValueLayout
import Idealize.ShloMosaic.PureOps.Ideal.Laws

/-! The reference's layer output before normalisation, read at an index: the common specification's. -/

noncomputable section

namespace Cert.ReferenceIdeal.RefHp

open Idealize.ShloMosaic Idealize.ShloMosaic.ValueIdx Cert.ReferenceIdeal Cert.ReferenceIdeal.Read Cert.Spec

section Stages

variable (x0 : (⟨S4096x16x512, .f32⟩ : BufTy).Contents (Elt Ideal)) (x1 : (⟨S4096x16x16, .f32⟩ : BufTy).Contents (Elt Ideal))
  (x2 : (⟨S512x512, .f32⟩ : BufTy).Contents (Elt Ideal)) (x3 : (⟨S128x512, .f32⟩ : BufTy).Contents (Elt Ideal))
  (x4 : (⟨S128, .f32⟩ : BufTy).Contents (Elt Ideal)) (x5 : (⟨S128x512, .f32⟩ : BufTy).Contents (Elt Ideal))
  (x6 : (⟨S128, .f32⟩ : BufTy).Contents (Elt Ideal))

/-- The linear map: stage 0 at (n, v, o) is row v of graph n against row o of the weight. -/
theorem refhp_h (n : Fin 4096) (v : Fin 16) (o : Fin 512) :
    val_main_v0 (F := Ideal) x0 x2 (ix3 n v o) = lin (cur2 x2) (cur3 x0 n) v o := by
  rw [val_main_v0_apply]
  unfold lin
  refine Finset.sum_congr rfl fun k _ => ?_
  have el : lidx_main_v0 (ix3 n v o) k = ix3 n v k :=
    funext fun a => Fin.ext (by match a with | ⟨0, _⟩ => rfl | ⟨1, _⟩ => rfl | ⟨2, _⟩ => rfl)
  have er : ridx_main_v0 (ix3 n v o) k = ix2 o k :=
    funext fun a => Fin.ext (by match a with | ⟨0, _⟩ => rfl | ⟨1, _⟩ => rfl)
  exact congrArg₂ (· * ·) (congrArg x0 el) (congrArg x2 er)

/-- The queries: a projection of the linear map with its bias. -/
theorem refhp_q (n : Fin 4096) (v : Fin 16) (j : Fin 128) :
    val_main_v11 (F := Ideal) x0 x2 x3 x4 (ix3 n v j)
      = proj (cur2 x3) (cur1 x4) (lin (cur2 x2) (cur3 x0 n)) v j := by
  rw [val_main_v11_apply, val_main_v8_apply, val_main_v10_apply, val_main_v9_apply, Ideal.addf_def]
  unfold proj
  refine congrArg₂ (· + ·) (Finset.sum_congr rfl fun k _ => ?_) ?_
  · have el : lidx_main_v8 (ix3 n v j) k = ix3 n v k :=
      funext fun a => Fin.ext (by match a with | ⟨0, _⟩ => rfl | ⟨1, _⟩ => rfl | ⟨2, _⟩ => rfl)
    have er : ridx_main_v8 (ix3 n v j) k = ix2 j k :=
      funext fun a => Fin.ext (by match a with | ⟨0, _⟩ => rfl | ⟨1, _⟩ => rfl)
    exact congrArg₂ (· * ·) ((congrArg (val_main_v0 (F := Ideal) x0 x2) el).trans (refhp_h x0 x2 n v k)) (congrArg x3 er)
  · exact congrArg x4 (funext fun a => Fin.ext (by match a with | ⟨0, _⟩ => rfl))

/-- The keys: the same projection with the other weight and bias. -/
theorem refhp_k (n : Fin 4096) (v : Fin 16) (j : Fin 128) :
    val_main_v15 (F := Ideal) x0 x2 x5 x6 (ix3 n v j)
      = proj (cur2 x5) (cur1 x6) (lin (cur2 x2) (cur3 x0 n)) v j := by
  rw [val_main_v15_apply, val_main_v12_apply, val_main_v14_apply, val_main_v13_apply, Ideal.addf_def]
  unfold proj
  refine congrArg₂ (· + ·) (Finset.sum_congr rfl fun k _ => ?_) ?_
  · have el : lidx_main_v12 (ix3 n v j) k = ix3 n v k :=
      funext fun a => Fin.ext (by match a with | ⟨0, _⟩ => rfl | ⟨1, _⟩ => rfl | ⟨2, _⟩ => rfl)
    have er : ridx_main_v12 (ix3 n v j) k = ix2 j k :=
      funext fun a => Fin.ext (by match a with | ⟨0, _⟩ => rfl | ⟨1, _⟩ => rfl)
    exact congrArg₂ (· * ·) ((congrArg (val_main_v0 (F := Ideal) x0 x2) el).trans (refhp_h x0 x2 n v k)) (congrArg x5 er)
  · exact congrArg x6 (funext fun a => Fin.ext (by match a with | ⟨0, _⟩ => rfl))

/-- The attention scores of graph n. -/
theorem refhp_score (n : Fin 4096) (v w : Fin 16) :
    val_main_v16 (F := Ideal) x0 x2 x3 x4 x5 x6 (ix3 n v w)
      = score (proj (cur2 x3) (cur1 x4) (lin (cur2 x2) (cur3 x0 n))) (proj (cur2 x5) (cur1 x6) (lin (cur2 x2) (cur3 x0 n))) v w := by
  rw [val_main_v16_apply]
  unfold score
  refine Finset.sum_congr rfl fun k _ => ?_
  have el : lidx_main_v16 (ix3 n v w) k = ix3 n v k :=
    funext fun a => Fin.ext (by match a with | ⟨0, _⟩ => rfl | ⟨1, _⟩ => rfl | ⟨2, _⟩ => rfl)
  have er : ridx_main_v16 (ix3 n v w) k = ix3 n w k :=
    funext fun a => Fin.ext (by match a with | ⟨0, _⟩ => rfl | ⟨1, _⟩ => rfl | ⟨2, _⟩ => rfl)
  exact congrArg₂ (· * ·) ((congrArg (val_main_v11 (F := Ideal) x0 x2 x3 x4) el).trans (refhp_q x0 x2 x3 x4 n v k))
    ((congrArg (val_main_v15 (F := Ideal) x0 x2 x5 x6) er).trans (refhp_k x0 x2 x5 x6 n w k))

/-- The scores of graph n, as the specification spells them. -/
abbrev refhp_sc (n : Fin 4096) : Fin 16 → Fin 16 → EReal :=
  score (proj (cur2 x3) (cur1 x4) (lin (cur2 x2) (cur3 x0 n))) (proj (cur2 x5) (cur1 x6) (lin (cur2 x2) (cur3 x0 n)))

/-- A reduce with a maximum body over the last axis, from −∞, is the fold of the maximum along the row. -/
theorem refhp_reduce_max (y : (⟨S4096x16x16, .f32⟩ : BufTy).Contents (Elt Ideal)) (n : Fin 4096) (v : Fin 16) :
    Host.reduce (FloatOps.maximumf (F := Ideal) (φ := .f32)) y (val_main_cst_1 (F := Ideal)) Gen.reducesTo_S4096x16x16_S4096x16_d2 Gen.h_S_ (ix2 n v)
      = (Finset.univ : Finset (Fin 16)).fold max negInf (fun w => y (ix3 n v w)) := by
  have h : S4096x16x16.Reduces [2] S4096x16 := by decide
  refine (Host.reduce_eq_fold_single (s := S4096x16x16) (t := S4096x16) (FloatOps.maximumf (F := Ideal) (φ := .f32)) y
    (val_main_cst_1 (F := Ideal)) Gen.reducesTo_S4096x16x16_S4096x16_d2 h Gen.h_S_ (ix2 n v)).trans ?_
  have hf : (y ∘ h.lift (ix2 n v)) = fun w : Fin 16 => y (ix3 n v w) :=
    funext fun w => congrArg y (funext fun c => Fin.ext (by fin_cases c <;> rfl))
  exact congrArg (fun f => Finset.fold max negInf f (Finset.univ : Finset (Fin 16))) hf

/-- The row maximum of the scores. -/
theorem refhp_rowmax (n : Fin 4096) (v : Fin 16) :
    val_main_v19 (F := Ideal) x0 x2 x3 x4 x5 x6 (ix2 n v) = rowMax (refhp_sc x0 x2 x3 x4 x5 x6 n) v := by
  rw [val_main_v19_apply, val_main_v18_apply, val_main_cst_2_apply]
  simp only [Ideal.maximumf_def, Ideal.ofBits_def]
  unfold rowMax val_main_v17
  refine congrArg (max negInf) ((refhp_reduce_max (val_main_v16 (F := Ideal) x0 x2 x3 x4 x5 x6) n v).trans ?_)
  exact congrArg (fun f => Finset.fold max negInf f (Finset.univ : Finset (Fin 16)))
    (funext fun w => refhp_score x0 x2 x3 x4 x5 x6 n v w)

/-- The shifted exponentials. -/
theorem refhp_expo (n : Fin 4096) (v w : Fin 16) :
    val_main_v23 (F := Ideal) x0 x2 x3 x4 x5 x6 (ix3 n v w) = expo (refhp_sc x0 x2 x3 x4 x5 x6 n) v w := by
  rw [val_main_v23_apply, val_main_v22_apply, val_main_v21_apply, val_main_v20_apply]
  simp only [Ideal.hostUnary_exp_def, Ideal.subf_def]
  unfold expo
  have e : idx_main_v20 (idx_main_v21 (ix3 n v w)) = ix2 n v :=
    funext fun a => Fin.ext (by match a with | ⟨0, _⟩ => rfl | ⟨1, _⟩ => rfl)
  exact congrArg Ideal.exp (congrArg₂ (· - ·) (refhp_score x0 x2 x3 x4 x5 x6 n v w)
    ((congrArg (val_main_v19 (F := Ideal) x0 x2 x3 x4 x5 x6) e).trans (refhp_rowmax x0 x2 x3 x4 x5 x6 n v)))

/-- The softmax denominator: the row sum of the shifted exponentials (the sum's initial value is the zero word). -/
theorem refhp_den (n : Fin 4096) (v w : Fin 16) :
    val_main_v26 (F := Ideal) x0 x2 x3 x4 x5 x6 (ix3 n v w)
      = ∑ w' : Fin 16, expo (refhp_sc x0 x2 x3 x4 x5 x6 n) v w' := by
  rw [val_main_v26_apply, val_main_v25_apply]
  have e : idx_main_v25 (idx_main_v26 (ix3 n v w)) = ix2 n v :=
    funext fun a => Fin.ext (by match a with | ⟨0, _⟩ => rfl | ⟨1, _⟩ => rfl)
  refine (congrArg (val_main_v24 (F := Ideal) x0 x2 x3 x4 x5 x6) e).trans ?_
  rw [val_main_v24_apply, val_main_cst_3_apply, Ideal.ofBits_def, Ideal.ofBits_zero_f32, zero_add]
  refine Finset.sum_congr rfl fun k _ => ?_
  have e2 : idx_main_v24 (ix2 n v) k = ix3 n v k :=
    funext fun a => Fin.ext (by match a with | ⟨0, _⟩ => rfl | ⟨1, _⟩ => rfl | ⟨2, _⟩ => rfl)
  exact (congrArg (val_main_v23 (F := Ideal) x0 x2 x3 x4 x5 x6) e2).trans (refhp_expo x0 x2 x3 x4 x5 x6 n v k)

/-- The softmax. -/
theorem refhp_soft (n : Fin 4096) (v w : Fin 16) :
    val_main_v27 (F := Ideal) x0 x2 x3 x4 x5 x6 (ix3 n v w)
      = Ideal.div (expo (refhp_sc x0 x2 x3 x4 x5 x6 n) v w) (∑ w' : Fin 16, expo (refhp_sc x0 x2 x3 x4 x5 x6 n) v w') := by
  rw [val_main_v27_apply, Ideal.hostDivf_def]
  exact congrArg₂ Ideal.div (refhp_expo x0 x2 x3 x4 x5 x6 n v w) (refhp_den x0 x2 x3 x4 x5 x6 n v w)

/-- The absolute row sum of the adjacency (the sum's initial value is the zero word). -/
theorem refhp_abs_sum (n : Fin 4096) (v : Fin 16) :
    val_main_v2 (F := Ideal) x1 (ix2 n v) = ∑ w' : Fin 16, max (cur3 x1 n v w') (-(cur3 x1 n v w')) := by
  rw [val_main_v2_apply, val_main_cst_apply, Ideal.ofBits_def, Ideal.ofBits_zero_f32, zero_add]
  refine Finset.sum_congr rfl fun k _ => ?_
  rw [val_main_v1_apply]
  have e : idx_main_v2 (ix2 n v) k = ix3 n v k :=
    funext fun a => Fin.ext (by match a with | ⟨0, _⟩ => rfl | ⟨1, _⟩ => rfl | ⟨2, _⟩ => rfl)
  exact congrArg (fun t : EReal => max t (-t)) (congrArg x1 e)

/-- The normalised adjacency. -/
theorem refhp_adjn (n : Fin 4096) (v w : Fin 16) :
    val_main_v7 (F := Ideal) x1 (ix3 n v w) = adjN (cur3 x1 n) v w := by
  rw [val_main_v7_apply, val_main_v6_apply, val_main_v5_apply, val_main_v3_apply, val_main_v4_apply, val_main_cst_0_apply]
  simp only [Ideal.hostDivf_def, Ideal.maximumf_def, Ideal.ofBits_def]
  unfold adjN
  have e : idx_main_v3 (idx_main_v6 (ix3 n v w)) = ix2 n v :=
    funext fun a => Fin.ext (by match a with | ⟨0, _⟩ => rfl | ⟨1, _⟩ => rfl)
  exact congrArg (Ideal.div (x1 (ix3 n v w))) (congrArg (max · eps12)
    ((congrArg (val_main_v2 (F := Ideal) x1) e).trans (refhp_abs_sum x1 n v)))

/-- The mixed graph: dividing by two is multiplying by a half. -/
theorem refhp_mix (n : Fin 4096) (v w : Fin 16) :
    val_main_v32 (F := Ideal) x0 x1 x2 x3 x4 x5 x6 (ix3 n v w)
      = mix (cur3 x1 n) (expo (refhp_sc x0 x2 x3 x4 x5 x6 n)) v w := by
  rw [val_main_v32_apply, val_main_v31_apply, val_main_cst_5_apply, val_main_v30_apply, val_main_v29_apply,
    val_main_v28_apply, val_main_cst_4_apply]
  simp only [Ideal.hostDivf_def, Ideal.addf_def, Ideal.mulf_def, Ideal.ofBits_def]
  unfold mix
  refine (Cert.Consts.div_two _).trans ?_
  exact congrArg (· * half) (congrArg₂ (· + ·) (refhp_adjn x1 n v w)
    (congrArg (one * ·) (refhp_soft x0 x2 x3 x4 x5 x6 n v w)))

end Stages

theorem ref_hp (x0 : (⟨S4096x16x512, .f32⟩ : BufTy).Contents (Elt Ideal)) (x1 : (⟨S4096x16x16, .f32⟩ : BufTy).Contents (Elt Ideal))
    (x2 : (⟨S512x512, .f32⟩ : BufTy).Contents (Elt Ideal)) (x3 : (⟨S128x512, .f32⟩ : BufTy).Contents (Elt Ideal))
    (x4 : (⟨S128, .f32⟩ : BufTy).Contents (Elt Ideal)) (x5 : (⟨S128x512, .f32⟩ : BufTy).Contents (Elt Ideal))
    (x6 : (⟨S128, .f32⟩ : BufTy).Contents (Elt Ideal))
    (n : Fin 4096) (v : Fin 16) (c : Fin 512) :
    val_main_v34 (F := Ideal) x0 x1 x2 x3 x4 x5 x6 (ix3 n v c)
      = hpAll (cur2 x2) (cur2 x3) (cur1 x4) (cur2 x5) (cur1 x6) (cur3 x0) (cur3 x1) n v c := by
  rw [val_main_v34_apply, val_main_call0_v0_apply, val_main_call0_cst_apply, val_main_v33_apply]
  simp only [Ideal.maximumf_def, Ideal.ofBits_def]
  unfold hpAll hpRow hpFrom expoRow
  refine congrArg (max · zero) (Finset.sum_congr rfl fun k _ => ?_)
  have el : lidx_main_v33 (ix3 n v c) k = ix3 n v k :=
    funext fun a => Fin.ext (by match a with | ⟨0, _⟩ => rfl | ⟨1, _⟩ => rfl | ⟨2, _⟩ => rfl)
  have er : ridx_main_v33 (ix3 n v c) k = ix3 n k c :=
    funext fun a => Fin.ext (by match a with | ⟨0, _⟩ => rfl | ⟨1, _⟩ => rfl | ⟨2, _⟩ => rfl)
  exact congrArg₂ (· * ·)
    ((congrArg (val_main_v32 (F := Ideal) x0 x1 x2 x3 x4 x5 x6) el).trans (refhp_mix x0 x1 x2 x3 x4 x5 x6 n v k))
    ((congrArg (val_main_v0 (F := Ideal) x0 x2) er).trans (refhp_h x0 x2 n k c))

end Cert.ReferenceIdeal.RefHp

end
-- ==== Proof.RefOut.lean ====
import proofs.«175194_j59081570125129_2_alg».proof.Proof.Gen.ReferenceIdeal.Read
import proofs.«175194_j59081570125129_2_alg».proof.Proof.Spec
import proofs.«175194_j59081570125129_2_alg».proof.Proof.Consts
import Idealize.ShloMosaic.Lib.Pipeline.Value
import Idealize.ShloMosaic.Lib.ValueIdx
import Idealize.ShloMosaic.Lib.ValueLayout
import Idealize.ShloMosaic.PureOps.Ideal.Laws
import proofs.«175194_j59081570125129_2_alg».proof.Proof.RefHp

/-! The reference's result read at an index: the direct normalisation of the layer output. -/

noncomputable section

namespace Cert.ReferenceIdeal.RefOut

open Idealize.ShloMosaic Idealize.ShloMosaic.ValueIdx Cert.ReferenceIdeal Cert.ReferenceIdeal.Read Cert.Spec
open scoped BigOperators

section Stages

variable (x0 : (⟨S4096x16x512, .f32⟩ : BufTy).Contents (Elt Ideal)) (x1 : (⟨S4096x16x16, .f32⟩ : BufTy).Contents (Elt Ideal))
    (x2 : (⟨S512x512, .f32⟩ : BufTy).Contents (Elt Ideal)) (x3 : (⟨S128x512, .f32⟩ : BufTy).Contents (Elt Ideal))
    (x4 : (⟨S128, .f32⟩ : BufTy).Contents (Elt Ideal)) (x5 : (⟨S128x512, .f32⟩ : BufTy).Contents (Elt Ideal))
    (x6 : (⟨S128, .f32⟩ : BufTy).Contents (Elt Ideal))
    (x7 x8 : (⟨S512, .f32⟩ : BufTy).Contents (Elt Ideal))
    (hp : Fin 4096 → Fin 16 → Fin 512 → EReal)
    (H : ∀ n v c, val_main_v34 (F := Ideal) x0 x1 x2 x3 x4 x5 x6 (ix3 n v c) = hp n v c)

include H

/-- Flat row `r` of the reshaped layer output is node `r % 16` of graph `r / 16`. -/
private theorem ro_flat (r : Fin 65536) (c : Fin 512) :
    val_main_v35 (F := Ideal) x0 x1 x2 x3 x4 x5 x6 (ix2 r c) = hp (gOfAll r) (nOfAll r) c := by
  have e : idx_main_v35 (ix2 r c) = ix3 (gOfAll r) (nOfAll r) c := funext fun a => Fin.ext (by
    match a with
    | ⟨0, _⟩ => show (r.val * 512 + c.val) / 8192 = r.val / 16; have := c.isLt; omega
    | ⟨1, _⟩ => show (r.val * 512 + c.val) / 512 % 16 = r.val % 16; have := c.isLt; omega
    | ⟨2, _⟩ => show (r.val * 512 + c.val) % 512 = c.val; have := c.isLt; omega)
  exact (val_main_v35_apply x0 x1 x2 x3 x4 x5 x6 (ix2 r c)).trans ((congrArg _ e).trans (H _ _ _))

/-- The column sum over all 65536 rows. -/
private theorem ro_sum (c : Fin 512) :
    val_main_v36 (F := Ideal) x0 x1 x2 x3 x4 x5 x6 (ix1 c) = sumR hp c := by
  refine (val_main_v36_apply x0 x1 x2 x3 x4 x5 x6 (ix1 c)).trans ?_
  unfold sumR
  refine congrArg₂ (· + ·) rfl (Finset.sum_congr rfl fun k _ => ?_)
  have e : idx_main_v36 (ix1 c) k = ix2 k c := funext fun a => Fin.ext (by
    match a with
    | ⟨0, _⟩ => rfl
    | ⟨1, _⟩ => rfl)
  exact (congrArg _ e).trans (ro_flat x0 x1 x2 x3 x4 x5 x6 hp H k c)

/-- The mean. -/
private theorem ro_mean (c : Fin 512) :
    val_main_v38 (F := Ideal) x0 x1 x2 x3 x4 x5 x6 (ix1 c) = meanR hp c := by
  refine (val_main_v38_apply x0 x1 x2 x3 x4 x5 x6 (ix1 c)).trans ?_
  rw [ro_sum x0 x1 x2 x3 x4 x5 x6 hp H c, val_main_v37_apply, val_main_cst_7_apply]
  rfl

end Stages

section Stages2

variable (x0 : (⟨S4096x16x512, .f32⟩ : BufTy).Contents (Elt Ideal)) (x1 : (⟨S4096x16x16, .f32⟩ : BufTy).Contents (Elt Ideal))
    (x2 : (⟨S512x512, .f32⟩ : BufTy).Contents (Elt Ideal)) (x3 : (⟨S128x512, .f32⟩ : BufTy).Contents (Elt Ideal))
    (x4 : (⟨S128, .f32⟩ : BufTy).Contents (Elt Ideal)) (x5 : (⟨S128x512, .f32⟩ : BufTy).Contents (Elt Ideal))
    (x6 : (⟨S128, .f32⟩ : BufTy).Contents (Elt Ideal))
    (x7 x8 : (⟨S512, .f32⟩ : BufTy).Contents (Elt Ideal))
    (hp : Fin 4096 → Fin 16 → Fin 512 → EReal)
    (H : ∀ n v c, val_main_v34 (F := Ideal) x0 x1 x2 x3 x4 x5 x6 (ix3 n v c) = hp n v c)

include H

/-- The mean broadcast to every row (for the centred squares). -/
private theorem ro_meanB (r : Fin 65536) (c : Fin 512) :
    val_main_v40 (F := Ideal) x0 x1 x2 x3 x4 x5 x6 (ix2 r c) = meanR hp c := by
  refine (val_main_v40_apply x0 x1 x2 x3 x4 x5 x6 (ix2 r c)).trans ?_
  refine (val_main_v39_apply x0 x1 x2 x3 x4 x5 x6 _).trans ?_
  have e : idx_main_v39 (idx_main_v40 (ix2 r c)) = ix1 c := funext fun a => Fin.ext (by
    match a with
    | ⟨0, _⟩ => rfl)
  exact (congrArg _ e).trans (ro_mean x0 x1 x2 x3 x4 x5 x6 hp H c)

/-- The mean broadcast to every row (for the normalised value). -/
private theorem ro_meanB' (r : Fin 65536) (c : Fin 512) :
    val_main_v47 (F := Ideal) x0 x1 x2 x3 x4 x5 x6 (ix2 r c) = meanR hp c := by
  refine (val_main_v47_apply x0 x1 x2 x3 x4 x5 x6 (ix2 r c)).trans ?_
  refine (val_main_v46_apply x0 x1 x2 x3 x4 x5 x6 _).trans ?_
  have e : idx_main_v46 (idx_main_v47 (ix2 r c)) = ix1 c := funext fun a => Fin.ext (by
    match a with
    | ⟨0, _⟩ => rfl)
  exact (congrArg _ e).trans (ro_mean x0 x1 x2 x3 x4 x5 x6 hp H c)

/-- The centred square of a flat row. -/
private theorem ro_sq (r : Fin 65536) (c : Fin 512) :
    val_main_v42 (F := Ideal) x0 x1 x2 x3 x4 x5 x6 (ix2 r c)
      = (hp (gOfAll r) (nOfAll r) c - meanR hp c) * (hp (gOfAll r) (nOfAll r) c - meanR hp c) := by
  have d : val_main_v41 (F := Ideal) x0 x1 x2 x3 x4 x5 x6 (ix2 r c) = hp (gOfAll r) (nOfAll r) c - meanR hp c := by
    refine (val_main_v41_apply x0 x1 x2 x3 x4 x5 x6 (ix2 r c)).trans ?_
    rw [ro_flat x0 x1 x2 x3 x4 x5 x6 hp H r c, ro_meanB x0 x1 x2 x3 x4 x5 x6 hp H r c]
    rfl
  refine (val_main_v42_apply x0 x1 x2 x3 x4 x5 x6 (ix2 r c)).trans ?_
  rw [d]
  rfl

/-- The variance. -/
private theorem ro_var (c : Fin 512) :
    val_main_v45 (F := Ideal) x0 x1 x2 x3 x4 x5 x6 (ix1 c) = varR hp c := by
  have s : val_main_v43 (F := Ideal) x0 x1 x2 x3 x4 x5 x6 (ix1 c)
      = zero + ∑ r : Fin 65536, (hp (gOfAll r) (nOfAll r) c - meanR hp c) * (hp (gOfAll r) (nOfAll r) c - meanR hp c) := by
    refine (val_main_v43_apply x0 x1 x2 x3 x4 x5 x6 (ix1 c)).trans ?_
    refine congrArg₂ (· + ·) rfl (Finset.sum_congr rfl fun k _ => ?_)
    have e : idx_main_v43 (ix1 c) k = ix2 k c := funext fun a => Fin.ext (by
      match a with
      | ⟨0, _⟩ => rfl
      | ⟨1, _⟩ => rfl)
    exact (congrArg _ e).trans (ro_sq x0 x1 x2 x3 x4 x5 x6 hp H k c)
  refine (val_main_v45_apply x0 x1 x2 x3 x4 x5 x6 (ix1 c)).trans ?_
  rw [s, val_main_v44_apply, val_main_cst_9_apply]
  rfl

/-- The inverse standard deviation. -/
private theorem ro_inv (c : Fin 512) :
    val_main_v51 (F := Ideal) x0 x1 x2 x3 x4 x5 x6 (ix1 c) = Ideal.rsqrt (varR hp c + eps5) := by
  refine (val_main_v51_apply x0 x1 x2 x3 x4 x5 x6 (ix1 c)).trans ?_
  rw [val_main_v50_apply, ro_var x0 x1 x2 x3 x4 x5 x6 hp H c, val_main_v49_apply, val_main_cst_10_apply]
  rfl

/-- The inverse standard deviation broadcast to every row. -/
private theorem ro_invB (r : Fin 65536) (c : Fin 512) :
    val_main_v53 (F := Ideal) x0 x1 x2 x3 x4 x5 x6 (ix2 r c) = Ideal.rsqrt (varR hp c + eps5) := by
  refine (val_main_v53_apply x0 x1 x2 x3 x4 x5 x6 (ix2 r c)).trans ?_
  refine (val_main_v52_apply x0 x1 x2 x3 x4 x5 x6 _).trans ?_
  have e : idx_main_v52 (idx_main_v53 (ix2 r c)) = ix1 c := funext fun a => Fin.ext (by
    match a with
    | ⟨0, _⟩ => rfl)
  exact (congrArg _ e).trans (ro_inv x0 x1 x2 x3 x4 x5 x6 hp H c)

end Stages2

/-- The scale vector broadcast to every row. -/
private theorem ro_g (x7 : (⟨S512, .f32⟩ : BufTy).Contents (Elt Ideal)) (r : Fin 65536) (c : Fin 512) :
    val_main_v56 (F := Ideal) x7 (ix2 r c) = cur1 x7 c := by
  refine (val_main_v56_apply x7 (ix2 r c)).trans ?_
  refine (val_main_v55_apply x7 _).trans ?_
  exact congrArg x7 (funext fun a => Fin.ext (by
    match a with
    | ⟨0, _⟩ => rfl))

/-- The shift vector broadcast to every row. -/
private theorem ro_b (x8 : (⟨S512, .f32⟩ : BufTy).Contents (Elt Ideal)) (r : Fin 65536) (c : Fin 512) :
    val_main_v59 (F := Ideal) x8 (ix2 r c) = cur1 x8 c := by
  refine (val_main_v59_apply x8 (ix2 r c)).trans ?_
  refine (val_main_v58_apply x8 _).trans ?_
  exact congrArg x8 (funext fun a => Fin.ext (by
    match a with
    | ⟨0, _⟩ => rfl))

section Stages3

variable (x0 : (⟨S4096x16x512, .f32⟩ : BufTy).Contents (Elt Ideal)) (x1 : (⟨S4096x16x16, .f32⟩ : BufTy).Contents (Elt Ideal))
    (x2 : (⟨S512x512, .f32⟩ : BufTy).Contents (Elt Ideal)) (x3 : (⟨S128x512, .f32⟩ : BufTy).Contents (Elt Ideal))
    (x4 : (⟨S128, .f32⟩ : BufTy).Contents (Elt Ideal)) (x5 : (⟨S128x512, .f32⟩ : BufTy).Contents (Elt Ideal))
    (x6 : (⟨S128, .f32⟩ : BufTy).Contents (Elt Ideal))
    (x7 x8 : (⟨S512, .f32⟩ : BufTy).Contents (Elt Ideal))
    (hp : Fin 4096 → Fin 16 → Fin 512 → EReal)
    (H : ∀ n v c, val_main_v34 (F := Ideal) x0 x1 x2 x3 x4 x5 x6 (ix3 n v c) = hp n v c)

include H

/-- The normalised, scaled and shifted value of a flat row. -/
private theorem ro_affine (r : Fin 65536) (c : Fin 512) :
    val_main_v60 (F := Ideal) x0 x1 x2 x3 x4 x5 x6 x7 x8 (ix2 r c)
      = (hp (gOfAll r) (nOfAll r) c - meanR hp c) * Ideal.rsqrt (varR hp c + eps5) * cur1 x7 c + cur1 x8 c := by
  have d : val_main_v48 (F := Ideal) x0 x1 x2 x3 x4 x5 x6 (ix2 r c) = hp (gOfAll r) (nOfAll r) c - meanR hp c := by
    refine (val_main_v48_apply x0 x1 x2 x3 x4 x5 x6 (ix2 r c)).trans ?_
    rw [ro_flat x0 x1 x2 x3 x4 x5 x6 hp H r c, ro_meanB' x0 x1 x2 x3 x4 x5 x6 hp H r c]
    rfl
  have m : val_main_v54 (F := Ideal) x0 x1 x2 x3 x4 x5 x6 (ix2 r c)
      = (hp (gOfAll r) (nOfAll r) c - meanR hp c) * Ideal.rsqrt (varR hp c + eps5) := by
    refine (val_main_v54_apply x0 x1 x2 x3 x4 x5 x6 (ix2 r c)).trans ?_
    rw [d, ro_invB x0 x1 x2 x3 x4 x5 x6 hp H r c]
    rfl
  refine (val_main_v60_apply x0 x1 x2 x3 x4 x5 x6 x7 x8 (ix2 r c)).trans ?_
  rw [val_main_v57_apply, m, ro_g x7 r c, ro_b x8 r c]
  rfl

/-- The reshape back: entry `(n, v, c)` is flat row `16 n + v`. -/
private theorem ro_back (n : Fin 4096) (v : Fin 16) (c : Fin 512) :
    val_main_v61 (F := Ideal) x0 x1 x2 x3 x4 x5 x6 x7 x8 (ix3 n v c)
      = (hp n v c - meanR hp c) * Ideal.rsqrt (varR hp c + eps5) * cur1 x7 c + cur1 x8 c := by
  have hr : n.val * 16 + v.val < 65536 := by have := n.isLt; have := v.isLt; omega
  have e : idx_main_v61 (ix3 n v c) = ix2 (⟨n.val * 16 + v.val, hr⟩ : Fin 65536) c := funext fun a => Fin.ext (by
    match a with
    | ⟨0, _⟩ => show ((n.val * 16 + v.val) * 512 + c.val) / 512 = n.val * 16 + v.val; have := c.isLt; omega
    | ⟨1, _⟩ => show ((n.val * 16 + v.val) * 512 + c.val) % 512 = c.val; have := c.isLt; omega)
  have eg : gOfAll (⟨n.val * 16 + v.val, hr⟩ : Fin 65536) = n := Fin.ext (by
    show (n.val * 16 + v.val) / 16 = n.val; have := v.isLt; omega)
  have en : nOfAll (⟨n.val * 16 + v.val, hr⟩ : Fin 65536) = v := Fin.ext (by
    show (n.val * 16 + v.val) % 16 = v.val; have := v.isLt; omega)
  refine (val_main_v61_apply x0 x1 x2 x3 x4 x5 x6 x7 x8 (ix3 n v c)).trans ?_
  refine (congrArg _ e).trans ?_
  refine (ro_affine x0 x1 x2 x3 x4 x5 x6 x7 x8 hp H _ c).trans ?_
  rw [eg, en]

/-- The result: the residual connection around the normalised layer output. -/
private theorem ro_out (n : Fin 4096) (v : Fin 16) (c : Fin 512) :
    val_main_v64 (F := Ideal) x0 x1 x2 x3 x4 x5 x6 x7 x8 (ix3 n v c)
      = outR hp (cur3 x0) (cur1 x7) (cur1 x8) n v c := by
  refine (val_main_v64_apply x0 x1 x2 x3 x4 x5 x6 x7 x8 (ix3 n v c)).trans ?_
  rw [val_main_v63_apply, ro_back x0 x1 x2 x3 x4 x5 x6 x7 x8 hp H n v c, val_main_v62_apply, val_main_cst_11_apply]
  rfl

end Stages3

theorem ref_out (x0 : (⟨S4096x16x512, .f32⟩ : BufTy).Contents (Elt Ideal)) (x1 : (⟨S4096x16x16, .f32⟩ : BufTy).Contents (Elt Ideal))
    (x2 : (⟨S512x512, .f32⟩ : BufTy).Contents (Elt Ideal)) (x3 : (⟨S128x512, .f32⟩ : BufTy).Contents (Elt Ideal))
    (x4 : (⟨S128, .f32⟩ : BufTy).Contents (Elt Ideal)) (x5 : (⟨S128x512, .f32⟩ : BufTy).Contents (Elt Ideal))
    (x6 : (⟨S128, .f32⟩ : BufTy).Contents (Elt Ideal))
    (x7 x8 : (⟨S512, .f32⟩ : BufTy).Contents (Elt Ideal)) (n : Fin 4096) (v : Fin 16) (c : Fin 512) :
    val_main_v64 (F := Ideal) x0 x1 x2 x3 x4 x5 x6 x7 x8 (ix3 n v c)
      = outR (hpAll (cur2 x2) (cur2 x3) (cur1 x4) (cur2 x5) (cur1 x6) (cur3 x0) (cur3 x1)) (cur3 x0) (cur1 x7) (cur1 x8) n v c :=
  ro_out x0 x1 x2 x3 x4 x5 x6 x7 x8 _ (RefHp.ref_hp x0 x1 x2 x3 x4 x5 x6) n v c

end Cert.ReferenceIdeal.RefOut

end
-- ==== Proof.lean ====
/-
  A graph-attention layer with batch normalisation, as a two-pass kernel against its direct reference, on the
  extended reals.

  Both programs compute, per graph of 16 nodes, `hp = relu (((adj / max (∑|adj|) ε + softmax (q kᵀ)) · ½) · h)` with
  `h = x Wᵀ`, `q = h Wqᵀ + bq`, `k = h Wkᵀ + bk` (the kernel on flattened blocks of 128 graphs through the matrix unit,
  the reference by whole-array contractions; the kernel multiplies by ½ where the reference divides by 2), and then
  normalise each channel over all 65536 rows. The kernel does it in two passes: the first region leaves each block's
  partial sums of `hp` and `hp²` (stored eight times, scaled by ⅛), the host turns them into
  `scale = g · rsqrt (max (E[hp²] − mean², 0) + ε)` and `shift = b − mean · scale`, and the second region recomputes
  `hp` and writes `x + 1 · (hp · scale + shift)`. The reference computes `mean`, `E[(hp − mean)²]` and
  `x + 1 · ((hp − mean) · rsqrt (var + ε) · g + b)` directly.

  The two agree because `E[(hp − mean)²] = E[hp²] − mean²` is nonnegative, and the two affine forms are one polynomial
  identity — over the REALS: the precondition (every input finite) makes every entry of `hp`, `g` and `b` a real
  number, and it is used exactly there.
-/
import proofs.«175194_j59081570125129_2_alg».proof.Defs
import proofs.«175194_j59081570125129_2_alg».proof.Proof.Gen.Kernel
import proofs.«175194_j59081570125129_2_alg».proof.Proof.Gen.Kernel.Skeleton
import proofs.«175194_j59081570125129_2_alg».proof.Proof.Gen.Kernel.Launch
import proofs.«175194_j59081570125129_2_alg».proof.Proof.Gen.Kernel.Points
import proofs.«175194_j59081570125129_2_alg».proof.Proof.Gen.Kernel.Frame
import proofs.«175194_j59081570125129_2_alg».proof.Proof.Gen.KernelIdeal
import proofs.«175194_j59081570125129_2_alg».proof.Proof.Gen.KernelIdeal.Skeleton
import proofs.«175194_j59081570125129_2_alg».proof.Proof.Gen.KernelIdeal.Launch
import proofs.«175194_j59081570125129_2_alg».proof.Proof.Gen.KernelIdeal.Points
import proofs.«175194_j59081570125129_2_alg».proof.Proof.Gen.KernelIdeal.Frame
import proofs.«175194_j59081570125129_2_alg».proof.Proof.Gen.ReferenceIdeal
import proofs.«175194_j59081570125129_2_alg».proof.Proof.Gen.ReferenceIdeal.Run
import proofs.«175194_j59081570125129_2_alg».proof.Proof.Gen.ReferenceIdeal.Read
import proofs.«175194_j59081570125129_2_alg».proof.Proof.Gen.Pre_finite_inputs
import proofs.«175194_j59081570125129_2_alg».proof.Proof.Spec
import proofs.«175194_j59081570125129_2_alg».proof.Proof.Algebra
import proofs.«175194_j59081570125129_2_alg».proof.Proof.Finite
import proofs.«175194_j59081570125129_2_alg».proof.Proof.PreReal
import proofs.«175194_j59081570125129_2_alg».proof.Proof.KValue
import proofs.«175194_j59081570125129_2_alg».proof.Proof.RefOut
import Idealize.ShloMosaic.Adequacy
import Idealize.ShloMosaic.Init

noncomputable section

namespace Cert.Proof

open Idealize.ShloMosaic Idealize.ShloMosaic.TcCoe Idealize.ShloMosaic.ValueIdx Idealize.SL.Sem Cert.Spec

/-! ## The reference's result is the kernel's, on finite arguments -/

/-- On arguments satisfying the precondition, the reference's result term of the kernel memory's argument arrays is
    the kernel's result: the direct normalisation of the layer output is the two-pass one, every entry being real. -/
theorem ref_eq_kernel (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) = fun _ => 1#1) :
    Cert.ReferenceIdeal.Read.val_main_v64 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      = Cert.KernelIdeal.KValue.result m ρ c := by
  obtain ⟨r0, r1, r2, r3, r4, r5, r6, r7, r8⟩ := Cert.PreReal.fn_isReal _ _ _ _ _ _ _ _ _ hpre
  funext i
  obtain ⟨n, v, ch, rfl⟩ : ∃ (n : Fin 4096) (v : Fin 16) (ch : Fin 512), i = ix3 n v ch := ⟨i 0, i 1, i 2, eq_ix3 i⟩
  rw [Cert.ReferenceIdeal.RefOut.ref_out]
  refine (Cert.Algebra.outK_eq_outR _ _ _ _ ?_ ?_ ?_ n v ch).symm
  · intro n v ch
    exact Cert.Finite.hpRow_isReal _ _ _ _ _ _ _ (fun _ _ => r2 _) (fun _ _ => r3 _) (fun _ => r4 _) (fun _ _ => r5 _)
      (fun _ => r6 _) (fun _ _ => r0 _) (fun _ _ => r1 _) v ch
  · intro ch; exact r7 _
  · intro ch; exact r8 _

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read on the extended reals. -/
theorem preserves : Cert.preserves_Kernel_KernelIdeal := trivial

/-- Run from memories agreeing on the arguments, both programs end, the kernel's result at the two-pass form and the
    reference's at the direct form of the same layer output: equal, the arguments being finite. -/
theorem algebraic : Cert.algebraic_KernelIdeal_ReferenceIdeal := by
  intro m ρ m' ρ' hpre hagree
  refine ⟨fun c => Cert.KernelIdeal.KValue.result m ρ c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v64_eq, h0, h1, h2, h3, h4, h5, h6, h7, h8]
  exact ref_eq_kernel m ρ c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
